-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v75_0)) (v1 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_0) = v0 c
          ∧ r.2.mem ((c.tc : Thread Cert.KernelIdeal.nD Cert.KernelIdeal.τ).loc Cert.KernelIdeal.main_v143) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S100000 : Shape := ⟨1, ![100000]⟩
abbrev S20000 : Shape := ⟨1, ![20000]⟩
abbrev S500000 : Shape := ⟨1, ![500000]⟩
abbrev S200000 : Shape := ⟨1, ![200000]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S100000 : S_.BroadcastsInDim S100000 (![] : Fin 0 → Fin S100000.rank)
  reducesTo_S100000_S_d0 : S100000.ReducesTo [0] S_
  bcast_S_S20000 : S_.BroadcastsInDim S20000 (![] : Fin 0 → Fin S20000.rank)
  reducesTo_S20000_S_d0 : S20000.ReducesTo [0] S_
  bcast_S_S200000 : S_.BroadcastsInDim S200000 (![] : Fin 0 → Fin S200000.rank)
  reducesTo_S200000_S_d0 : S200000.ReducesTo [0] S_
  bcast_S_S500000 : S_.BroadcastsInDim S500000 (![] : Fin 0 → Fin S500000.rank)
  reducesTo_S500000_S_d0 : S500000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg17 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  main_v58

def fn_part2 {F : FTy → Type} [FloatOps F] (main_arg13 : FVec F S128 .f32) (main_arg14 : FVec F S128x256 .f32) (main_arg15 : FVec F S128 .f32) (main_arg16 : FVec F S128x128 .f32) (main_arg17 : FVec F S128x128 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg14
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg17 main_v48 main_v49 main_v50

def fn_part1 {F : FTy → Type} [FloatOps F] (main_arg8 : FVec F S200000 .f32) (main_arg11 : FVec F S500000 .f32) (main_arg12 : FVec F S128x256 .f32) (main_arg13 : FVec F S128 .f32) (main_arg14 : FVec F S128x256 .f32) (main_arg15 : FVec F S128 .f32) (main_arg16 : FVec F S128x128 .f32) (main_arg17 : FVec F S128x128 .f32) (main_v13 : IVec S_ 1) (main_v16 : IVec S20000 1) : IVec S_ 1 :=
  let main_c_5 : IVec S_ 1 := constantI S_ 1 1#1
  let main_v17 : IVec S_ 1 := (fun x v => Host.reduce IntOp.andi x v reducesTo_S20000_S_d0 h_S_) main_v16 main_c_5
  let main_v18 : IVec S_ 1 := andi main_v13 main_v17
  let main_v19 : FVec F S200000 .f32 := Host.absf main_arg8
  let main_cst_6 : FVec F S_ .f32 := constant S_ .f32 0x7F800000#32
  let main_v20 : FVec F S200000 .f32 := broadcastInDim S200000 ![] bcast_S_S200000 main_cst_6
  let main_v21 : IVec S200000 1 := cmpf .olt main_v19 main_v20
  let main_c_7 : IVec S_ 1 := constantI S_ 1 1#1
  let main_v22 : IVec S_ 1 := (fun x v => Host.reduce IntOp.andi x v reducesTo_S200000_S_d0 h_S_) main_v21 main_c_7
  let main_v23 : IVec S_ 1 := andi main_v18 main_v22
  let main_v24 : FVec F S500000 .f32 := Host.absf main_arg11
  let main_cst_8 : FVec F S_ .f32 := constant S_ .f32 0x7F800000#32
  let main_v25 : FVec F S500000 .f32 := broadcastInDim S500000 ![] bcast_S_S500000 main_cst_8
  let main_v26 : IVec S500000 1 := cmpf .olt main_v24 main_v25
  let main_c_9 : IVec S_ 1 := constantI S_ 1 1#1
  let main_v27 : IVec S_ 1 := (fun x v => Host.reduce IntOp.andi x v reducesTo_S500000_S_d0 h_S_) main_v26 main_c_9
  let main_v28 : IVec S_ 1 := andi main_v23 main_v27
  let main_v29 : FVec F S128x256 .f32 := Host.absf main_arg12
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg13 main_arg14 main_arg15 main_arg16 main_arg17 main_v33

def fn {F : FTy → Type} [FloatOps F] (main_arg0 : FVec F S100000x128 .f32) (main_arg1 : FVec F S20000x128 .f32) (main_arg2 : FVec F S100000 .f32) (main_arg3 : FVec F S20000 .f32) (main_arg4 : IVec S500000 32) (main_arg5 : IVec S500000 32) (main_arg6 : IVec S200000 32) (main_arg7 : IVec S200000 32) (main_arg8 : FVec F S200000 .f32) (main_arg9 : IVec S500000 32) (main_arg10 : IVec S500000 32) (main_arg11 : FVec F S500000 .f32) (main_arg12 : FVec F S128x256 .f32) (main_arg13 : FVec F S128 .f32) (main_arg14 : FVec F S128x256 .f32) (main_arg15 : FVec F S128 .f32) (main_arg16 : FVec F S128x128 .f32) (main_arg17 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S20000 .f32 := Host.absf main_arg3
  let main_cst_4 : FVec F S_ .f32 := constant S_ .f32 0x7F800000#32
  let main_v15 : FVec F S20000 .f32 := broadcastInDim S20000 ![] bcast_S_S20000 main_cst_4
  let main_v16 : IVec S20000 1 := cmpf .olt main_v14 main_v15
  fn_part1 (F := F) main_arg8 main_arg11 main_arg12 main_arg13 main_arg14 main_arg15 main_arg16 main_arg17 main_v13 main_v16
-- ==== Kernel.lean ====
abbrev S100000x128 : Shape := ⟨2, ![100000, 128]⟩
abbrev S20000x128 : Shape := ⟨2, ![20000, 128]⟩
abbrev S100000 : Shape := ⟨1, ![100000]⟩
abbrev S20000 : Shape := ⟨1, ![20000]⟩
abbrev S500000 : Shape := ⟨1, ![500000]⟩
abbrev S200000 : Shape := ⟨1, ![200000]⟩
abbrev S128x256 : Shape := ⟨2, ![128, 256]⟩
abbrev S128 : Shape := ⟨1, ![128]⟩
abbrev S128x128 : Shape := ⟨2, ![128, 128]⟩
abbrev S100000x1 : Shape := ⟨2, ![100000, 1]⟩
abbrev S20000x1 : Shape := ⟨2, ![20000, 1]⟩
abbrev S1x128 : Shape := ⟨2, ![1, 128]⟩
abbrev S5000x128 : Shape := ⟨2, ![5000, 128]⟩
abbrev S5000x1 : Shape := ⟨2, ![5000, 1]⟩
abbrev S4000x128 : Shape := ⟨2, ![4000, 128]⟩
abbrev S4000x1 : Shape := ⟨2, ![4000, 1]⟩
abbrev S_ : Shape := ⟨0, ![]⟩
abbrev S500000x1 : Shape := ⟨2, ![500000, 1]⟩
abbrev S500000x128 : Shape := ⟨2, ![500000, 128]⟩
abbrev S200000x1 : Shape := ⟨2, ![200000, 1]⟩
abbrev S200000x128 : Shape := ⟨2, ![200000, 128]⟩

abbrev nBuf : Space → Nat
  | .hbm => 202
  | .vmem => 34
  | .smem => 0
  | _ => 0

abbrev hbmTy0_0 (i : Nat) : BufTy := match i % 128 with
  | 0 => ⟨S100000x128, .f32⟩
  | 1 => ⟨S20000x128, .f32⟩
  | 2 => ⟨S100000, .f32⟩
  | 3 => ⟨S20000, .f32⟩
  | 4 => ⟨S500000, .i32⟩
  | 5 => ⟨S500000, .i32⟩
  | 6 => ⟨S200000, .i32⟩
  | 7 => ⟨S200000, .i32⟩
  | 8 => ⟨S200000, .f32⟩
  | 9 => ⟨S500000, .i32⟩
  | 10 => ⟨S500000, .i32⟩
  | 11 => ⟨S500000, .f32⟩
  | 12 => ⟨S128x256, .f32⟩
  | 13 => ⟨S128, .f32⟩
  | 14 => ⟨S128x256, .f32⟩
  | 15 => ⟨S128, .f32⟩
  | 16 => ⟨S128x128, .f32⟩
  | 17 => ⟨S128x128, .f32⟩
  | 18 => ⟨S128x128, .f32⟩
  | 19 => ⟨S128x128, .f32⟩
  | 20 => ⟨S128x128, .f32⟩
  | 21 => ⟨S128x128, .f32⟩
  | 22 => ⟨S100000x1, .f32⟩
  | 23 => ⟨S20000x1, .f32⟩
  | 24 => ⟨S1x128, .f32⟩
  | 25 => ⟨S1x128, .f32⟩
  | 26 => ⟨S100000x128, .f32⟩
  | 27 => ⟨S20000x128, .f32⟩
  | 28 => ⟨S20000x128, .f32⟩
  | 29 => ⟨S20000x128, .f32⟩
  | 30 => ⟨S_, .f32⟩
  | 31 => ⟨S500000, .f32⟩
  | 32 => ⟨S_, .f32⟩
  | 33 => ⟨S20000, .f32⟩
  | 34 => ⟨S500000x1, .i32⟩
  | 35 => ⟨S20000, .f32⟩
  | 36 => ⟨S20000x1, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000, .f32⟩
  | 46 => ⟨S_, .f32⟩
  | 47 => ⟨S20000, .f32⟩
  | 48 => ⟨S500000x1, .i32⟩
  | 49 => ⟨S20000, .f32⟩
  | 50 => ⟨S20000x1, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S_, .f32⟩
  | 61 => ⟨S20000x128, .f32⟩
  | 62 => ⟨S500000x1, .i32⟩
  | 63 => ⟨S20000x128, .f32⟩
  | 64 => ⟨S20000x128, .f32⟩
  | 65 => ⟨S20000x128, .f32⟩
  | 66 => ⟨S20000x128, .f32⟩
  | 67 => ⟨S_, .f32⟩
  | 68 => ⟨S20000x1, .f32⟩
  | 69 => ⟨S20000x1, .f32⟩
  | 70 => ⟨S20000x128, .f32⟩
  | 71 => ⟨S20000x128, .f32⟩
  | 72 => ⟨S200000x1, .f32⟩
  | 73 => ⟨S_, .i32⟩
  | 74 => ⟨S200000, .i32⟩
  | 75 => ⟨S200000, .i1⟩
  | 76 => ⟨S_, .i32⟩
  | 77 => ⟨S200000, .i32⟩
  | 78 => ⟨S200000, .i32⟩
  | 79 => ⟨S200000, .i32⟩
  | 80 => ⟨S200000x1, .i32⟩
  | 81 => ⟨S200000x128, .f32⟩
  | 82 => ⟨S200000x128, .f32⟩
  | 83 => ⟨S200000x128, .f32⟩
  | 84 => ⟨S_, .f32⟩
  | 85 => ⟨S20000x128, .f32⟩
  | 86 => ⟨S200000x1, .i32⟩
  | 87 => ⟨S20000x128, .f32⟩
  | 88 => ⟨S20000x128, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000x128, .f32⟩
  | 98 => ⟨S_, .f32⟩
  | 99 => ⟨S100000x128, .f32⟩
  | 100 => ⟨S500000x1, .i32⟩
  | 101 => ⟨S100000x128, .f32⟩
  | 102 => ⟨S_, .f32⟩
  | 103 => ⟨S500000x1, .f32⟩
  | 104 => ⟨S_, .f32⟩
  | 105 => ⟨S100000x1, .f32⟩
  | 106 => ⟨S500000x1, .i32⟩
  | 107 => ⟨S100000x1, .f32⟩
  | 108 => ⟨S_, .f32⟩
  | 109 => ⟨S100000x1, .f32⟩
  | 110 => ⟨S100000x1, .f32⟩
  | 111 => ⟨S100000x128, .f32⟩
  | 112 => ⟨S100000x128, .f32⟩
  | 113 => ⟨S100000x128, .f32⟩
  | 114 => ⟨S100000x128, .f32⟩
  | 115 => ⟨S_, .i32⟩
  | 116 => ⟨S500000, .i32⟩
  | 117 => ⟨S500000, .i1⟩
  | 118 => ⟨S_, .i32⟩
  | 119 => ⟨S500000, .i32⟩
  | 120 => ⟨S500000, .i32⟩
  | 121 => ⟨S500000, .i32⟩
  | 122 => ⟨S500000x1, .i32⟩
  | 123 => ⟨S500000x128, .f32⟩
  | 124 => ⟨S_, .f32⟩
  | 125 => ⟨S20000x128, .f32⟩
  | 126 => ⟨S500000x1, .i32⟩
  | 127 => ⟨S20000x128, .f32⟩
  | _ => ⟨S100000x128, .f32⟩

abbrev hbmTy0_1 (i : Nat) : BufTy := match i % 128 with
  | 0 => ⟨S20000x128, .f32⟩
  | 1 => ⟨S20000x128, .f32⟩
  | 2 => ⟨S20000x128, .f32⟩
  | 3 => ⟨S_, .f32⟩
  | 4 => ⟨S20000x1, .f32⟩
  | 5 => ⟨S20000x1, .f32⟩
  | 6 => ⟨S20000x128, .f32⟩
  | 7 => ⟨S20000x128, .f32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S500000x128, .f32⟩
  | 17 => ⟨S_, .f32⟩
  | 18 => ⟨S100000x128, .f32⟩
  | 19 => ⟨S500000x1, .i32⟩
  | 20 => ⟨S100000x128, .f32⟩
  | 21 => ⟨S_, .f32⟩
  | 22 => ⟨S500000x1, .f32⟩
  | 23 => ⟨S_, .f32⟩
  | 24 => ⟨S100000x1, .f32⟩
  | 25 => ⟨S500000x1, .i32⟩
  | 26 => ⟨S100000x1, .f32⟩
  | 27 => ⟨S_, .f32⟩
  | 28 => ⟨S100000x1, .f32⟩
  | 29 => ⟨S100000x1, .f32⟩
  | 30 => ⟨S100000x128, .f32⟩
  | 31 => ⟨S100000x128, .f32⟩
  | 32 => ⟨S500000x1, .f32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x128, .f32⟩
  | 42 => ⟨S500000x128, .f32⟩
  | 43 => ⟨S500000x128, .f32⟩
  | 44 => ⟨S_, .f32⟩
  | 45 => ⟨S100000x128, .f32⟩
  | 46 => ⟨S500000x1, .i32⟩
  | 47 => ⟨S100000x128, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .f32⟩
  | 57 => ⟨S_, .f32⟩
  | 58 => ⟨S20000x128, .f32⟩
  | 59 => ⟨S500000x1, .i32⟩
  | 60 => ⟨S20000x128, .f32⟩
  | 61 => ⟨S_, .f32⟩
  | 62 => ⟨S500000x1, .f32⟩
  | 63 => ⟨S_, .f32⟩
  | 64 => ⟨S20000x1, .f32⟩
  | 65 => ⟨S500000x1, .i32⟩
  | 66 => ⟨S20000x1, .f32⟩
  | 67 => ⟨S_, .f32⟩
  | 68 => ⟨S20000x1, .f32⟩
  | 69 => ⟨S20000x1, .f32⟩
  | 70 => ⟨S20000x128, .f32⟩
  | 71 => ⟨S20000x128, .f32⟩
  | 72 => ⟨S20000x128, .f32⟩
  | 73 => ⟨S20000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S4000x128, .f32⟩
  | .local _ .vmem, ⟨30, _⟩ => ⟨S4000x128, .f32⟩
  | .local _ .vmem, ⟨31, _⟩ => ⟨S128x128, .f32⟩
  | .local _ .vmem, ⟨32, _⟩ => ⟨S4000x128, .f32⟩
  | .local _ .vmem, ⟨33, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_cst : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_3 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_7 : Ref sig .tc := ⟨.hbm, 73, rfl⟩
abbrev main_v44 : Ref sig .tc := ⟨.hbm, 74, rfl⟩
abbrev main_v45 : Ref sig .tc := ⟨.hbm, 75, rfl⟩
abbrev main_c_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_cst_14 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_15 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75_0 : Ref sig .tc := ⟨.hbm, 113, rfl⟩
abbrev main_v75_1 : Ref sig .tc := ⟨.hbm, 114, rfl⟩
abbrev main_c_16 : Ref sig .tc := ⟨.hbm, 115, rfl⟩
abbrev main_v76 : Ref sig .tc := ⟨.hbm, 116, rfl⟩
abbrev main_v77 : Ref sig .tc := ⟨.hbm, 117, rfl⟩
abbrev main_c_17 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_18 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_19 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_20 : Ref sig .tc := ⟨.hbm, 136, rfl⟩
abbrev main_v93 : Ref sig .tc := ⟨.hbm, 137, rfl⟩
abbrev main_v94 : Ref sig .tc := ⟨.hbm, 138, rfl⟩
abbrev main_c_21 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_23 : Ref sig .tc := ⟨.hbm, 149, rfl⟩
abbrev main_v103 : Ref sig .tc := ⟨.hbm, 150, rfl⟩
abbrev main_cst_24 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_25 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_c_26 : Ref sig .tc := ⟨.hbm, 161, rfl⟩
abbrev main_v112 : Ref sig .tc := ⟨.hbm, 162, rfl⟩
abbrev main_v113 : Ref sig .tc := ⟨.hbm, 163, rfl⟩
abbrev main_c_27 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_28 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_c_29 : Ref sig .tc := ⟨.hbm, 176, rfl⟩
abbrev main_v124 : Ref sig .tc := ⟨.hbm, 177, rfl⟩
abbrev main_v125 : Ref sig .tc := ⟨.hbm, 178, rfl⟩
abbrev main_c_30 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_31 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_32 : Ref sig .tc := ⟨.hbm, 189, rfl⟩
abbrev main_v134 : Ref sig .tc := ⟨.hbm, 190, rfl⟩
abbrev main_cst_33 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_34 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem4_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S128x256_S128x128_0_0 : S128x256.Slices ![0, 0] S128x128
  slices_S128x256_S128x128_0_128 : S128x256.Slices ![0, 128] S128x128
  bcast_S100000_S100000x1_0 : S100000.BroadcastsInDim S100000x1 (![0] : Fin 1 → Fin S100000x1.rank)
  bcast_S20000_S20000x1_0 : S20000.BroadcastsInDim S20000x1 (![0] : Fin 1 → Fin S20000x1.rank)
  bcast_S128_S1x128_1 : S128.BroadcastsInDim S1x128 (![1] : Fin 1 → Fin S1x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S4000x128_S4000x128_0_0 : ∀ a, (![0, 0] : Fin 2 → Nat) a + S4000x128.size a ≤ S4000x128.size a
  h_S4000x128 : 0 < S4000x128.numel
  broadcasts_S1x128_S4000x128 : S1x128.Broadcasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S500000 : S_.BroadcastsInDim S500000 (![] : Fin 0 → Fin S500000.rank)
  bcast_S_S20000 : S_.BroadcastsInDim S20000 (![] : Fin 0 → Fin S20000.rank)
  bcast_S500000_S500000x1_0 : S500000.BroadcastsInDim S500000x1 (![0] : Fin 1 → Fin S500000x1.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S_S20000x1 : S_.BroadcastsInDim S20000x1 (![] : Fin 0 → Fin S20000x1.rank)
  bcast_S200000_S200000x1_0 : S200000.BroadcastsInDim S200000x1 (![0] : Fin 1 → Fin S200000x1.rank)
  bcast_S_S200000 : S_.BroadcastsInDim S200000 (![] : Fin 0 → Fin S200000.rank)
  bcast_S200000x1_S200000x128_0_1 : S200000x1.BroadcastsInDim S200000x128 (![0, 1] : Fin 2 → Fin S200000x128.rank)
  bcast_S_S100000x128 : S_.BroadcastsInDim S100000x128 (![] : Fin 0 → Fin S100000x128.rank)
  bcast_S_S500000x1 : S_.BroadcastsInDim S500000x1 (![] : Fin 0 → Fin S500000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  bcast_S500000x1_S500000x128_0_1 : S500000x1.BroadcastsInDim S500000x128 (![0, 1] : Fin 2 → Fin S500000x128.rank)
  shapeCasts_S4000x128_S4000x128 : S4000x128.ShapeCasts S4000x128
  dot_S5000x128_S128x128_S5000x128_1_0_0_1_n_n_wf : DotDims.WF S5000x128 S128x128 S5000x128 [1] [0] [0] [1] [] []
  dot_S4000x128_S128x128_S4000x128_1_0_0_1_n_n_wf : DotDims.WF S4000x128 S128x128 S4000x128 [1] [0] [0] [1] [] []
  scatter_S20000_S500000x1_S500000_n_0_0_1_wf : ScatterDims.WF S20000 S500000x1 S500000 [] [0] [0] 1
  gather_S100000_S500000x1_S500000_n_0_n_n_0_1_1_wf : GatherDims.WF S100000 S500000x1 S500000 [] [0] [] [0] [] 1 ![1]
  gather_S100000x128_S500000x1_S500000x128_1_0_n_n_0_1_1128_wf : GatherDims.WF S100000x128 S500000x1 S500000x128 [1] [0] [] [0] [] 1 ![1, 128]
  scatter_S20000x128_S500000x1_S500000x128_1_0_0_1_wf : ScatterDims.WF S20000x128 S500000x1 S500000x128 [1] [0] [0] 1
  gather_S20000x128_S200000x1_S200000x128_1_0_n_n_0_1_1128_wf : GatherDims.WF S20000x128 S200000x1 S200000x128 [1] [0] [] [0] [] 1 ![1, 128]
  scatter_S20000x128_S200000x1_S200000x128_1_0_0_1_wf : ScatterDims.WF S20000x128 S200000x1 S200000x128 [1] [0] [0] 1
  gather_S20000x128_S500000x1_S500000x128_1_0_n_n_0_1_1128_wf : GatherDims.WF S20000x128 S500000x1 S500000x128 [1] [0] [] [0] [] 1 ![1, 128]
  scatter_S100000x128_S500000x1_S500000x128_1_0_0_1_wf : ScatterDims.WF S100000x128 S500000x1 S500000x128 [1] [0] [0] 1
  scatter_S100000x1_S500000x1_S500000x1_1_0_0_1_wf : ScatterDims.WF S100000x1 S500000x1 S500000x1 [1] [0] [0] 1
  scatter_S20000x1_S500000x1_S500000x1_1_0_0_1_wf : ScatterDims.WF S20000x1 S500000x1 S500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S20000x1.size a
  hwx1_4 : ∀ i : grid1.Coords, EltTy.bits .f32 = 32 ∨ (Rect.block (s := S20000x1) S4000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S20000x128.size a
  hwx1_5 : ∀ i : grid1.Coords, EltTy.bits .f32 = 32 ∨ (Rect.block (s := S20000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S20000x128.size a
  hwx1_6 : ∀ i : grid1.Coords, EltTy.bits .f32 = 32 ∨ (Rect.block (s := S20000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S20000x128.size a
  hwx1_7 : ∀ i : grid1.Coords, EltTy.bits .f32 = 32 ∨ (Rect.block (s := S20000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S20000x128.size a
  hwx3_0 : ∀ i : grid3.Coords, EltTy.bits .f32 = 32 ∨ (Rect.block (s := S20000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S20000x128.size a
  hwx3_2 : ∀ i : grid3.Coords, EltTy.bits .f32 = 32 ∨ (Rect.block (s := S20000x128) S4000x128.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf
def scatter_S20000x1_S500000x1_S500000x1_1_0_0_1 : ScatterDims S20000x1 S500000x1 S500000x1 where
  updateWindowDims := [1]
  insertedWindowDims := [0]
  scatterDimsToOperandDims := [0]
  indexVectorDim := 1
  wf := scatter_S20000x1_S500000x1_S500000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9_1) S4000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v9_2) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v74) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg16) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v75_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v142) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg17) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v143) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S100000 : Shape := ⟨1, ![100000]⟩
abbrev S20000 : Shape := ⟨1, ![20000]⟩
abbrev S500000 : Shape := ⟨1, ![500000]⟩
abbrev S200000 : Shape := ⟨1, ![200000]⟩
abbrev S128x256 : Shape := ⟨2, ![128, 256]⟩
abbrev S128 : Shape := ⟨1, ![128]⟩
abbrev S128x128 : Shape := ⟨2, ![128, 128]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩
abbrev S20000x1 : Shape := ⟨2, ![20000, 1]⟩
abbrev S200000x1 : Shape := ⟨2, ![200000, 1]⟩
abbrev S200000x128 : Shape := ⟨2, ![200000, 128]⟩
abbrev S100000x1 : Shape := ⟨2, ![100000, 1]⟩

abbrev nBuf : Space → Nat
  | .hbm => 235
  | .vmem => 0
  | .smem => 0
  | _ => 0

abbrev hbmTy0_0 (i : Nat) : BufTy := match i % 128 with
  | 0 => ⟨S100000x128, .f32⟩
  | 1 => ⟨S20000x128, .f32⟩
  | 2 => ⟨S100000, .f32⟩
  | 3 => ⟨S20000, .f32⟩
  | 4 => ⟨S500000, .i32⟩
  | 5 => ⟨S500000, .i32⟩
  | 6 => ⟨S200000, .i32⟩
  | 7 => ⟨S200000, .i32⟩
  | 8 => ⟨S200000, .f32⟩
  | 9 => ⟨S500000, .i32⟩
  | 10 => ⟨S500000, .i32⟩
  | 11 => ⟨S500000, .f32⟩
  | 12 => ⟨S128x256, .f32⟩
  | 13 => ⟨S128, .f32⟩
  | 14 => ⟨S128x256, .f32⟩
  | 15 => ⟨S128, .f32⟩
  | 16 => ⟨S128x128, .f32⟩
  | 17 => ⟨S128x128, .f32⟩
  | 18 => ⟨S128x128, .f32⟩
  | 19 => ⟨S128x128, .f32⟩
  | 20 => ⟨S128x128, .f32⟩
  | 21 => ⟨S100000x128, .f32⟩
  | 22 => ⟨S128x128, .f32⟩
  | 23 => ⟨S20000x128, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x128, .f32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x128, .f32⟩
  | 42 => ⟨S500000x128, .f32⟩
  | 43 => ⟨S1x128, .f32⟩
  | 44 => ⟨S500000x128, .f32⟩
  | 45 => ⟨S500000x128, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000, .f32⟩
  | 55 => ⟨S500000x1, .f32⟩
  | 56 => ⟨S500000x128, .f32⟩
  | 57 => ⟨S500000x128, .f32⟩
  | 58 => ⟨S_, .f32⟩
  | 59 => ⟨S20000x128, .f32⟩
  | 60 => ⟨S500000x1, .i32⟩
  | 61 => ⟨S20000x128, .f32⟩
  | 62 => ⟨S_, .f32⟩
  | 63 => ⟨S500000x1, .f32⟩
  | 64 => ⟨S_, .f32⟩
  | 65 => ⟨S20000x1, .f32⟩
  | 66 => ⟨S500000x1, .i32⟩
  | 67 => ⟨S20000x1, .f32⟩
  | 68 => ⟨S_, .f32⟩
  | 69 => ⟨S20000x1, .f32⟩
  | 70 => ⟨S20000x1, .f32⟩
  | 71 => ⟨S20000x128, .f32⟩
  | 72 => ⟨S20000x128, .f32⟩
  | 73 => ⟨S200000x1, .f32⟩
  | 74 => ⟨S_, .i32⟩
  | 75 => ⟨S200000, .i32⟩
  | 76 => ⟨S200000, .i1⟩
  | 77 => ⟨S_, .i32⟩
  | 78 => ⟨S200000, .i32⟩
  | 79 => ⟨S200000, .i32⟩
  | 80 => ⟨S200000, .i32⟩
  | 81 => ⟨S200000x1, .i32⟩
  | 82 => ⟨S200000x128, .f32⟩
  | 83 => ⟨S200000x128, .f32⟩
  | 84 => ⟨S200000x128, .f32⟩
  | 85 => ⟨S_, .f32⟩
  | 86 => ⟨S20000x128, .f32⟩
  | 87 => ⟨S200000x1, .i32⟩
  | 88 => ⟨S20000x128, .f32⟩
  | 89 => ⟨S20000x128, .f32⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S500000x1, .i32⟩
  | 98 => ⟨S500000x128, .f32⟩
  | 99 => ⟨S_, .f32⟩
  | 100 => ⟨S100000x128, .f32⟩
  | 101 => ⟨S500000x1, .i32⟩
  | 102 => ⟨S100000x128, .f32⟩
  | 103 => ⟨S_, .f32⟩
  | 104 => ⟨S500000x1, .f32⟩
  | 105 => ⟨S_, .f32⟩
  | 106 => ⟨S100000x1, .f32⟩
  | 107 => ⟨S500000x1, .i32⟩
  | 108 => ⟨S100000x1, .f32⟩
  | 109 => ⟨S_, .f32⟩
  | 110 => ⟨S100000x1, .f32⟩
  | 111 => ⟨S100000x1, .f32⟩
  | 112 => ⟨S100000x128, .f32⟩
  | 113 => ⟨S100000x128, .f32⟩
  | 114 => ⟨S128x128, .f32⟩
  | 115 => ⟨S100000x128, .f32⟩
  | 116 => ⟨S_, .f32⟩
  | 117 => ⟨S100000x128, .f32⟩
  | 118 => ⟨S100000x128, .f32⟩
  | 119 => ⟨S128x128, .f32⟩
  | 120 => ⟨S128x128, .f32⟩
  | 121 => ⟨S128x128, .f32⟩
  | 122 => ⟨S100000x128, .f32⟩
  | 123 => ⟨S_, .i32⟩
  | 124 => ⟨S500000, .i32⟩
  | 125 => ⟨S500000, .i1⟩
  | 126 => ⟨S_, .i32⟩
  | 127 => ⟨S500000, .i32⟩
  | _ => ⟨S100000x128, .f32⟩

abbrev hbmTy0_1 (i : Nat) : BufTy := match i % 128 with
  | 0 => ⟨S500000, .i32⟩
  | 1 => ⟨S500000, .i32⟩
  | 2 => ⟨S500000x1, .i32⟩
  | 3 => ⟨S500000x128, .f32⟩
  | 4 => ⟨S128x128, .f32⟩
  | 5 => ⟨S20000x128, .f32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000x128, .f32⟩
  | 15 => ⟨S500000x128, .f32⟩
  | 16 => ⟨S1x128, .f32⟩
  | 17 => ⟨S500000x128, .f32⟩
  | 18 => ⟨S500000x128, .f32⟩
  | 19 => ⟨S_, .f32⟩
  | 20 => ⟨S20000x128, .f32⟩
  | 21 => ⟨S500000x1, .i32⟩
  | 22 => ⟨S20000x128, .f32⟩
  | 23 => ⟨S_, .f32⟩
  | 24 => ⟨S500000x1, .f32⟩
  | 25 => ⟨S_, .f32⟩
  | 26 => ⟨S20000x1, .f32⟩
  | 27 => ⟨S500000x1, .i32⟩
  | 28 => ⟨S20000x1, .f32⟩
  | 29 => ⟨S_, .f32⟩
  | 30 => ⟨S20000x1, .f32⟩
  | 31 => ⟨S20000x1, .f32⟩
  | 32 => ⟨S20000x128, .f32⟩
  | 33 => ⟨S20000x128, .f32⟩
  | 34 => ⟨S20000x1, .f32⟩
  | 35 => ⟨S20000x128, .f32⟩
  | 36 => ⟨S20000x128, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x128, .f32⟩
  | 46 => ⟨S_, .f32⟩
  | 47 => ⟨S100000x128, .f32⟩
  | 48 => ⟨S500000x1, .i32⟩
  | 49 => ⟨S100000x128, .f32⟩
  | 50 => ⟨S_, .f32⟩
  | 51 => ⟨S500000x1, .f32⟩
  | 52 => ⟨S_, .f32⟩
  | 53 => ⟨S100000x1, .f32⟩
  | 54 => ⟨S500000x1, .i32⟩
  | 55 => ⟨S100000x1, .f32⟩
  | 56 => ⟨S_, .f32⟩
  | 57 => ⟨S100000x1, .f32⟩
  | 58 => ⟨S100000x1, .f32⟩
  | 59 => ⟨S100000x128, .f32⟩
  | 60 => ⟨S100000x128, .f32⟩
  | 61 => ⟨S500000x1, .f32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x128, .f32⟩
  | 71 => ⟨S500000x128, .f32⟩
  | 72 => ⟨S500000x128, .f32⟩
  | 73 => ⟨S_, .f32⟩
  | 74 => ⟨S100000x128, .f32⟩
  | 75 => ⟨S500000x1, .i32⟩
  | 76 => ⟨S100000x128, .f32⟩
  | 77 => ⟨S_, .i32⟩
  | 78 => ⟨S500000, .i32⟩
  | 79 => ⟨S500000, .i1⟩
  | 80 => ⟨S_, .i32⟩
  | 81 => ⟨S500000, .i32⟩
  | 82 => ⟨S500000, .i32⟩
  | 83 => ⟨S500000, .i32⟩
  | 84 => ⟨S500000x1, .i32⟩
  | 85 => ⟨S500000x128, .f32⟩
  | 86 => ⟨S_, .f32⟩
  | 87 => ⟨S20000x128, .f32⟩
  | 88 => ⟨S500000x1, .i32⟩
  | 89 => ⟨S20000x128, .f32⟩
  | 90 => ⟨S_, .f32⟩
  | 91 => ⟨S500000x1, .f32⟩
  | 92 => ⟨S_, .f32⟩
  | 93 => ⟨S20000x1, .f32⟩
  | 94 => ⟨S500000x1, .i32⟩
  | 95 => ⟨S20000x1, .f32⟩
  | 96 => ⟨S_, .f32⟩
  | 97 => ⟨S20000x1, .f32⟩
  | 98 => ⟨S20000x1, .f32⟩
  | 99 => ⟨S20000x128, .f32⟩
  | 100 => ⟨S20000x128, .f32⟩
  | 101 => ⟨S20000x128, .f32⟩
  | 102 => ⟨S128x128, .f32⟩
  | 103 => ⟨S20000x128, .f32⟩
  | 104 => ⟨S_, .f32⟩
  | 105 => ⟨S20000x128, .f32⟩
  | 106 => ⟨S20000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_1 : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_3 : Ref sig .tc := ⟨.hbm, 46, rfl⟩
abbrev main_v24 : Ref sig .tc := ⟨.hbm, 47, rfl⟩
abbrev main_v25 : Ref sig .tc := ⟨.hbm, 48, rfl⟩
abbrev main_c_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_8 : Ref sig .tc := ⟨.hbm, 74, rfl⟩
abbrev main_v46 : Ref sig .tc := ⟨.hbm, 75, rfl⟩
abbrev main_v47 : Ref sig .tc := ⟨.hbm, 76, rfl⟩
abbrev main_c_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_11 : Ref sig .tc := ⟨.hbm, 90, rfl⟩
abbrev main_v59 : Ref sig .tc := ⟨.hbm, 91, rfl⟩
abbrev main_v60 : Ref sig .tc := ⟨.hbm, 92, rfl⟩
abbrev main_c_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_call0_cst : Ref sig .tc := ⟨.hbm, 116, rfl⟩
abbrev main_call0_v0 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_17 : Ref sig .tc := ⟨.hbm, 123, rfl⟩
abbrev main_v84 : Ref sig .tc := ⟨.hbm, 124, rfl⟩
abbrev main_v85 : Ref sig .tc := ⟨.hbm, 125, rfl⟩
abbrev main_c_18 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_c_19 : Ref sig .tc := ⟨.hbm, 134, rfl⟩
abbrev main_v93 : Ref sig .tc := ⟨.hbm, 135, rfl⟩
abbrev main_v94 : Ref sig .tc := ⟨.hbm, 136, rfl⟩
abbrev main_c_20 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_21 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_22 : Ref sig .tc := ⟨.hbm, 151, rfl⟩
abbrev main_v107 : Ref sig .tc := ⟨.hbm, 152, rfl⟩
abbrev main_cst_23 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_24 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_25 : Ref sig .tc := ⟨.hbm, 165, rfl⟩
abbrev main_v118 : Ref sig .tc := ⟨.hbm, 166, rfl⟩
abbrev main_v119 : Ref sig .tc := ⟨.hbm, 167, rfl⟩
abbrev main_c_26 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_27 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_28 : Ref sig .tc := ⟨.hbm, 178, rfl⟩
abbrev main_v128 : Ref sig .tc := ⟨.hbm, 179, rfl⟩
abbrev main_cst_29 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_30 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_c_31 : Ref sig .tc := ⟨.hbm, 190, rfl⟩
abbrev main_v137 : Ref sig .tc := ⟨.hbm, 191, rfl⟩
abbrev main_v138 : Ref sig .tc := ⟨.hbm, 192, rfl⟩
abbrev main_c_32 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_cst_33 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_c_34 : Ref sig .tc := ⟨.hbm, 205, rfl⟩
abbrev main_v149 : Ref sig .tc := ⟨.hbm, 206, rfl⟩
abbrev main_v150 : Ref sig .tc := ⟨.hbm, 207, rfl⟩
abbrev main_c_35 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_36 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_37 : Ref sig .tc := ⟨.hbm, 218, rfl⟩
abbrev main_v159 : Ref sig .tc := ⟨.hbm, 219, rfl⟩
abbrev main_cst_38 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_cst_39 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_call1_cst : Ref sig .tc := ⟨.hbm, 232, rfl⟩
abbrev main_call1_v0 : Ref sig .tc := ⟨.hbm, 233, rfl⟩
abbrev main_v170 : Ref sig .tc := ⟨.hbm, 234, rfl⟩

abbrev nD : Nat := 1
abbrev τ : Topo := Topo.v7x

variable {F : FTy → Type} [FloatOps F]

class Facts₀ : Prop where
  slices_S128x256_S128x128_0_0 : S128x256.Slices ![0, 0] S128x128
  slices_S128x256_S128x128_0_128 : S128x256.Slices ![0, 128] S128x128
  transposes_S128x128_S128x128_1_0 : S128x128.Transposes [1, 0] S128x128
  bcast_S_S500000 : S_.BroadcastsInDim S500000 (![] : Fin 0 → Fin S500000.rank)
  bcast_S500000_S500000x1_0 : S500000.BroadcastsInDim S500000x1 (![0] : Fin 1 → Fin S500000x1.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S500000x1_S500000x128_0_1 : S500000x1.BroadcastsInDim S500000x128 (![0, 1] : Fin 2 → Fin S500000x128.rank)
  bcast_S_S20000x128 : S_.BroadcastsInDim S20000x128 (![] : Fin 0 → Fin S20000x128.rank)
  bcast_S_S500000x1 : S_.BroadcastsInDim S500000x1 (![] : Fin 0 → Fin S500000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  bcast_S200000_S200000x1_0 : S200000.BroadcastsInDim S200000x1 (![0] : Fin 1 → Fin S200000x1.rank)
  bcast_S_S200000 : S_.BroadcastsInDim S200000 (![] : Fin 0 → Fin S200000.rank)
  bcast_S200000x1_S200000x128_0_1 : S200000x1.BroadcastsInDim S200000x128 (![0, 1] : Fin 2 → Fin S200000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S20000_S20000x1_0 : S20000.BroadcastsInDim S20000x1 (![0] : Fin 1 → Fin S20000x1.rank)
  dot_S100000x128_S128x128_S100000x128_1_0_0_1_n_n_wf : DotDims.WF S100000x128 S128x128 S100000x128 [1] [0] [0] [1] [] []
  dot_S20000x128_S128x128_S20000x128_1_0_0_1_n_n_wf : DotDims.WF S20000x128 S128x128 S20000x128 [1] [0] [0] [1] [] []
  gather_S100000x128_S500000x1_S500000x128_1_0_n_n_0_1_1128_wf : GatherDims.WF S100000x128 S500000x1 S500000x128 [1] [0] [] [0] [] 1 ![1, 128]
  gather_S20000x128_S500000x1_S500000x128_1_0_n_n_0_1_1128_wf : GatherDims.WF S20000x128 S500000x1 S500000x128 [1] [0] [] [0] [] 1 ![1, 128]
  gather_S100000_S500000x1_S500000_n_0_n_n_0_1_1_wf : GatherDims.WF S100000 S500000x1 S500000 [] [0] [] [0] [] 1 ![1]
  scatter_S20000x128_S500000x1_S500000x128_1_0_0_1_wf : ScatterDims.WF S20000x128 S500000x1 S500000x128 [1] [0] [0] 1
  scatter_S20000x1_S500000x1_S500000x1_1_0_0_1_wf : ScatterDims.WF S20000x1 S500000x1 S500000x1 [1] [0] [0] 1
  gather_S20000x128_S200000x1_S200000x128_1_0_n_n_0_1_1128_wf : GatherDims.WF S20000x128 S200000x1 S200000x128 [1] [0] [] [0] [] 1 ![1, 128]
  scatter_S20000x128_S200000x1_S200000x128_1_0_0_1_wf : ScatterDims.WF S20000x128 S200000x1 S200000x128 [1] [0] [0] 1
  scatter_S100000x128_S500000x1_S500000x128_1_0_0_1_wf : ScatterDims.WF S100000x128 S500000x1 S500000x128 [1] [0] [0] 1
  scatter_S100000x1_S500000x1_S500000x1_1_0_0_1_wf : ScatterDims.WF S100000x1 S500000x1 S500000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S20000x1_S500000x1_S500000x1_1_0_0_1 : ScatterDims S20000x1 S500000x1 S500000x1 where
  updateWindowDims := [1]
  insertedWindowDims := [0]
  scatterDimsToOperandDims := [0]
  indexVectorDim := 1
  wf := scatter_S20000x1_S500000x1_S500000x1_1_0_0_1_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000x1_S500000x1_S500000x1_1_0_0_1 : ScatterDims S100000x1 S500000x1 S500000x1 where
  updateWindowDims := [1]
  insertedWindowDims := [0]
  scatterDimsToOperandDims := [0]
  indexVectorDim := 1
  wf := scatter_S100000x1_S500000x1_S500000x1_1_0_0_1_wf

class Facts : Prop extends Facts₀ where

variable [Facts]
-- ==== Proof.KRun.lean ====
/-
  The idealized kernel's run with its two results named. The program is four accelerator regions among stretches of
  host operations; its buffers' contents at the end of the run are the last link `W7` of a chain of valuations, one per
  segment boundary: a stretch of host operations applies them, a region replaces its arrays by what its write-backs leave.
  The run below is the several-regions theorem instantiated exactly as for the frame, with a stronger conclusion read off
  the same final thread state: the two result buffers hold `W7` at their references, the arguments are unchanged.
-/
import proofs.«116521_j7662221656116_2_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffers end at the last boundary's contents
    and every argument array ends as launched. -/
theorem run_main : θ_run defs (onTc (τ := τ) (main (F := F))) ⟨m, fun _ => 0, ρ⟩ (fun r => ∀ c : Dev nD,
      r.2.mem ((c.tc : Thread nD τ).loc main_v75_0) = W7 m ρ c (Proc.devRef .tc main_v75_0)
      ∧ r.2.mem ((c.tc : Thread nD τ).loc main_v143) = W7 m ρ c (Proc.devRef .tc main_v143)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v75_0 (by decide)),
       h c _ (mem_uc main_v143 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c)⟩)

end Cert.KernelIdeal.Results

end
-- ==== Proof.KArgs.lean ====
/- The contents of the idealized kernel's buffers at the boundaries between its segments, walked back to where each was
  written. A stretch of host operations leaves untouched every buffer none of its operations writes; a region leaves
  untouched every buffer that is not one of its arrays, and its input arrays as it found them. So an argument read
  at any boundary is the launch memory, and a buffer computed once is the same at every later boundary.
-/
import proofs.«116521_j7662221656116_2_alg».proof.Proof.Gen.KernelIdeal.Frame

set_option maxRecDepth 16384

noncomputable section

namespace Cert.KernelIdeal.Results

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg) (c : Dev nD)

/-- Closes `after ops W b = W b` for a literal stretch none of whose operations writes `b`. -/
macro "unwritten" : tactic => `(tactic| (
  refine StableHlo.after_of_forall_not_mem _ _ (List.forall_iff_forall_mem.mp ?_)
  simp only [hostOps0, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments, at the boundaries where something reads them -/

theorem W1_arg0 : W1 m ρ c (Proc.devRef .tc main_arg0) = m ((c : Thread nD τ).loc main_arg0) :=
  calc W1 m ρ c (Proc.devRef .tc main_arg0)
    _ = W0 m ρ c (Proc.devRef .tc main_arg0) := by unwritten
    _ = m ((c : Thread nD τ).loc main_arg0) := rfl

theorem W2_arg1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by unwritten
    _ = m ((c : Thread nD τ).loc main_arg1) := rfl

theorem W3_arg1 : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := by unwritten
    _ = m ((c : Thread nD τ).loc main_arg1) := rfl

theorem W3_arg2 : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := by unwritten
    _ = m ((c : Thread nD τ).loc main_arg2) := rfl

theorem W3_arg4 : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := by unwritten
    _ = m ((c : Thread nD τ).loc main_arg4) := rfl

theorem W3_arg5 : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := by unwritten
    _ = m ((c : Thread nD τ).loc main_arg5) := rfl

theorem W3_arg6 : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := by unwritten
    _ = m ((c : Thread nD τ).loc main_arg6) := rfl

theorem W3_arg7 : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := by unwritten
    _ = m ((c : Thread nD τ).loc main_arg7) := rfl

theorem W3_arg8 : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by unwritten
    _ = m ((c : Thread nD τ).loc main_arg8) := rfl

theorem W4_arg16 : W4 m ρ c (Proc.devRef .tc main_arg16) = m ((c : Thread nD τ).loc main_arg16) :=
  calc W4 m ρ c (Proc.devRef .tc main_arg16)
    _ = W3 m ρ c (Proc.devRef .tc main_arg16) := by unwritten
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := by unwritten
    _ = m ((c : Thread nD τ).loc main_arg16) := rfl

theorem W5_arg4 : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := by unwritten
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := by unwritten
    _ = m ((c : Thread nD τ).loc main_arg4) := rfl

theorem W5_arg5 : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := by unwritten
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := by unwritten
    _ = m ((c : Thread nD τ).loc main_arg5) := rfl

theorem W5_arg9 : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := by unwritten
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by unwritten
    _ = m ((c : Thread nD τ).loc main_arg9) := rfl

theorem W5_arg10 : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := by unwritten
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := by unwritten
    _ = m ((c : Thread nD τ).loc main_arg10) := rfl

theorem W5_arg11 : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := by unwritten
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := by unwritten
    _ = m ((c : Thread nD τ).loc main_arg11) := rfl

theorem W6_arg17 : W6 m ρ c (Proc.devRef .tc main_arg17) = m ((c : Thread nD τ).loc main_arg17) :=
  calc W6 m ρ c (Proc.devRef .tc main_arg17)
    _ = W5 m ρ c (Proc.devRef .tc main_arg17) := by unwritten
    _ = W4 m ρ c (Proc.devRef .tc main_arg17) := W5_of_ne m ρ c main_arg17 (by decide)
    _ = W3 m ρ c (Proc.devRef .tc main_arg17) := by unwritten
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := by unwritten
    _ = m ((c : Thread nD τ).loc main_arg17) := rfl

/-! ## Buffers computed once, at the later boundaries where something reads them -/

theorem W2_v1 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem W2_v3 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem W2_v7 : W2 m ρ c (Proc.devRef .tc main_v7) = W1 m ρ c (Proc.devRef .tc main_v7) :=
  calc W2 m ρ c (Proc.devRef .tc main_v7)
    _ = W1 m ρ c (Proc.devRef .tc main_v7) := W2_of_ne m ρ c main_v7 (by decide)

theorem W2_v5 : W2 m ρ c (Proc.devRef .tc main_v5) = W1 m ρ c (Proc.devRef .tc main_v5) :=
  calc W2 m ρ c (Proc.devRef .tc main_v5)
    _ = W1 m ρ c (Proc.devRef .tc main_v5) := W2_of_ne m ρ c main_v5 (by decide)

theorem W4_v2 : W4 m ρ c (Proc.devRef .tc main_v2) = W1 m ρ c (Proc.devRef .tc main_v2) :=
  calc W4 m ρ c (Proc.devRef .tc main_v2)
    _ = W3 m ρ c (Proc.devRef .tc main_v2) := by unwritten
    _ = W2 m ρ c (Proc.devRef .tc main_v2) := W3_of_ne m ρ c main_v2 (by decide)
    _ = W1 m ρ c (Proc.devRef .tc main_v2) := W2_of_ne m ρ c main_v2 (by decide)

theorem W3_v8 : W3 m ρ c (Proc.devRef .tc main_v8) = W2 m ρ c (Proc.devRef .tc main_v8) :=
  calc W3 m ρ c (Proc.devRef .tc main_v8)
    _ = W2 m ρ c (Proc.devRef .tc main_v8) := W3_of_ne m ρ c main_v8 (by decide)

theorem W5_v9_1 : W5 m ρ c (Proc.devRef .tc main_v9_1) = W3 m ρ c (Proc.devRef .tc main_v9_1) :=
  calc W5 m ρ c (Proc.devRef .tc main_v9_1)
    _ = W4 m ρ c (Proc.devRef .tc main_v9_1) := W5_of_ne m ρ c main_v9_1 (by decide)
    _ = W3 m ρ c (Proc.devRef .tc main_v9_1) := by unwritten

theorem W5_v9_2 : W5 m ρ c (Proc.devRef .tc main_v9_2) = W3 m ρ c (Proc.devRef .tc main_v9_2) :=
  calc W5 m ρ c (Proc.devRef .tc main_v9_2)
    _ = W4 m ρ c (Proc.devRef .tc main_v9_2) := W5_of_ne m ρ c main_v9_2 (by decide)
    _ = W3 m ρ c (Proc.devRef .tc main_v9_2) := by unwritten

theorem W5_v14 : W5 m ρ c (Proc.devRef .tc main_v14) = W4 m ρ c (Proc.devRef .tc main_v14) :=
  calc W5 m ρ c (Proc.devRef .tc main_v14)
    _ = W4 m ρ c (Proc.devRef .tc main_v14) := W5_of_ne m ρ c main_v14 (by decide)

theorem W6_v75_0 : W6 m ρ c (Proc.devRef .tc main_v75_0) = W5 m ρ c (Proc.devRef .tc main_v75_0) :=
  calc W6 m ρ c (Proc.devRef .tc main_v75_0)
    _ = W5 m ρ c (Proc.devRef .tc main_v75_0) := by unwritten

theorem W7_v75_0 : W7 m ρ c (Proc.devRef .tc main_v75_0) = W6 m ρ c (Proc.devRef .tc main_v75_0) :=
  calc W7 m ρ c (Proc.devRef .tc main_v75_0)
    _ = W6 m ρ c (Proc.devRef .tc main_v75_0) := W7_of_ne m ρ c main_v75_0 (by decide)

end Cert.KernelIdeal.Results

end
-- ==== Proof.LibDot2.lean ====
/-
  Two matrix products read at an index, at the ideal values, for any extents and any well-formedness witness of the
  dimension numbers: an accelerator matrix product into a zero accumulator of an [M,K] by a [K,N] array, and a host
  `dot_general` of an [M,K] by an [N,K] array contracted on both last axes, are both the plain sum over the contracted
  coordinate of the products of the entries.
-/
import Idealize.ShloMosaic.PureOps.Ideal.Laws
import Idealize.ShloMosaic.Lib.ValueIdx

noncomputable section

open scoped BigOperators

namespace Cert.LibDot2

open Idealize.ShloMosaic Idealize.ShloMosaic.ValueIdx

variable {M K N : Nat} {φ₁ φ₂ : FTy}

/-- An [M,K] by [K,N] matrix product accumulated into zeros: entry (a, b) is `∑ c, A (a, c) · B (c, b)`. -/
theorem matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A host `dot_general` of an [M,K] by an [N,K] array, both contracted on their last axis: entry (a, b) is
    `∑ c, A (a, c) · B (b, c)`. -/
theorem dotGeneral_nt_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims ⟨2, ![M, K]⟩ ⟨2, ![N, K]⟩ ⟨2, ![M, N]⟩) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibDot2

end
-- ==== Proof.Spec.lean ====
/-
  The four accelerator bodies of this layer as whole-array functions, index by index, over the extended reals.
  Every body multiplies a block of rows by the TRANSPOSE of a square weight: entry (p, q) of `X · Wᵀ` is
  `∑ c, X (p, c) · W (q, c)`. Around that product sit a bias row, a per-row scale and a rectifier `max(·, 0)`.
  Each function below gives one output array of one body from its whole input arrays; a row of the output depends
  only on the same row of the row-indexed inputs, which is what lets a row-tiled launch be read as one array.
-/
import Idealize.ShloMosaic.PureOps.Ideal.Laws
import Idealize.ShloMosaic.Lib.ValueIdx
import Idealize.ShloMosaic.Lib.ValueLayout
import Idealize.ShloMosaic.Lib.Pipeline.Value
import proofs.«116521_j7662221656116_2_alg».proof.Proof.LibDot2

noncomputable section

open scoped BigOperators

namespace Cert.Spec

open Idealize.ShloMosaic Idealize.ShloMosaic.ValueIdx

/-- The zero every rectifier compares against, kept as its word. -/
abbrev z0 : EReal := Ideal.ofBits .f32 0x00000000#32

variable {R : Nat}

/-- `X · Wᵀ` for a block of rows `X` [R,128] and a square weight `W` [128,128]. -/
def linT (X : (⟨2, ![R, 128]⟩ : Shape).Idx → EReal) (W : (⟨2, ![128, 128]⟩ : Shape).Idx → EReal) :
    (⟨2, ![R, 128]⟩ : Shape).Idx → EReal :=
  fun i => ∑ c : Fin 128, X (ix2 (i 0) c) * W (ix2 (i 1) c)

theorem linT_apply (X : (⟨2, ![R, 128]⟩ : Shape).Idx → EReal) (W : (⟨2, ![128, 128]⟩ : Shape).Idx → EReal)
    (p : Fin R) (q : Fin 128) : linT X W (ix2 p q) = ∑ c : Fin 128, X (ix2 p c) * W (ix2 q c) := rfl

/-- `(X · Wᵀ + b) · d`: the product, a bias row added to every row, each row scaled by its own factor. -/
def linBiasScale (X : (⟨2, ![R, 128]⟩ : Shape).Idx → EReal) (W : (⟨2, ![128, 128]⟩ : Shape).Idx → EReal)
    (b : (⟨2, ![1, 128]⟩ : Shape).Idx → EReal) (d : (⟨2, ![R, 1]⟩ : Shape).Idx → EReal) :
    (⟨2, ![R, 128]⟩ : Shape).Idx → EReal :=
  fun i => (linT X W i + b (ix2 (0 : Fin 1) (i 1))) * d (ix2 (i 0) (0 : Fin 1))

/-- `X · Wᵀ + b`. -/
def linBias (X : (⟨2, ![R, 128]⟩ : Shape).Idx → EReal) (W : (⟨2, ![128, 128]⟩ : Shape).Idx → EReal)
    (b : (⟨2, ![1, 128]⟩ : Shape).Idx → EReal) : (⟨2, ![R, 128]⟩ : Shape).Idx → EReal :=
  fun i => linT X W i + b (ix2 (0 : Fin 1) (i 1))

/-- Each row of `X` scaled by its own factor. -/
def rowScale (X : (⟨2, ![R, 128]⟩ : Shape).Idx → EReal) (d : (⟨2, ![R, 1]⟩ : Shape).Idx → EReal) :
    (⟨2, ![R, 128]⟩ : Shape).Idx → EReal :=
  fun i => X i * d (ix2 (i 0) (0 : Fin 1))

/-- `max(X · Wᵀ, 0)`. -/
def reluLinT (X : (⟨2, ![R, 128]⟩ : Shape).Idx → EReal) (W : (⟨2, ![128, 128]⟩ : Shape).Idx → EReal) :
    (⟨2, ![R, 128]⟩ : Shape).Idx → EReal :=
  fun i => max (linT X W i) z0

/-- The product with a transposed weight as the accelerator computes it — both operands rounded to a narrower format
    (the identity on extended reals), the weight transposed, accumulated into zeros — is `X · Wᵀ` at every entry. -/
theorem matmulT_apply (w : DotDims.WF ⟨2, ![R, 128]⟩ ⟨2, ![128, 128]⟩ ⟨2, ![R, 128]⟩ [1] [0] [0] [1] [] [])
    (hT : (⟨2, ![128, 128]⟩ : Shape).Transposes [1, 0] ⟨2, ![128, 128]⟩)
    (prec : Option ContractPrecision) (h₁ : FTy.bf16.bits < FTy.f32.bits)
    (X : FVec Ideal ⟨2, ![R, 128]⟩ .f32) (W : FVec Ideal ⟨2, ![128, 128]⟩ .f32) (i : (⟨2, ![R, 128]⟩ : Shape).Idx) :
    matmul (⟨[1], [0], [0], [1], [], [], w⟩ : DotDims ⟨2, ![R, 128]⟩ ⟨2, ![128, 128]⟩ ⟨2, ![R, 128]⟩) prec
        (truncf .bf16 X h₁) (transpose ⟨2, ![128, 128]⟩ [1, 0] (truncf .bf16 W h₁) hT)
        (constant ⟨2, ![R, 128]⟩ .f32 0x00000000#32) i
      = linT X W i := by
  obtain ⟨p, q, rfl⟩ : ∃ (p : Fin R) (q : Fin 128), i = ix2 p q := ⟨i 0, i 1, eq_ix2 i⟩
  rw [Cert.LibDot2.matmul_zero_apply w prec, linT_apply]
  refine Finset.sum_congr rfl fun c _ => ?_
  rw [transpose_ix2_apply]
  rfl

end Cert.Spec

end
-- ==== Proof.Reg0.lean ====
/-
  Region 0, the row-tiled product `(X · Wᵀ + b) · d` over 100000 rows in 20 blocks of 5000: the result array after
  the region is one function of the arrays the region is entered with, entry by entry. Every entry (r, q) of the result
  depends on row r of the row-indexed inputs and on the whole weight and bias, so block t of the result is rows
  5000·t … 5000·t + 4999 of that function, and the 20 blocks cover the array.
-/
import proofs.«116521_j7662221656116_2_alg».proof.Proof.Gen.KernelIdeal.Frame
import proofs.«116521_j7662221656116_2_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an entry

The body multiplies its 5000 rows by the transposed weight, adds the bias row to every row and scales each row by
its own factor: entry (p, q) depends on row p of the row block, row q of the weight, entry q of the bias and factor p. -/

/-- A `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stored value at entry (p, q): `(∑ c, x (p, c) · w (q, c) + b (0, q)) · d (p, 0)`. -/
theorem pay_apply (x0 : Vec Ideal S5000x128 .f32) (w : Vec Ideal S128x128 .f32) (b : Vec Ideal S1x128 .f32)
    (d : Vec Ideal S5000x1 .f32) (p : Fin 5000) (q : Fin 128) :
    k0_pay1 x0 w b d (ix2 p q)
      = (Cert.Spec.linT x0 w (ix2 p q) + b (ix2 (0 : Fin 1) q)) * d (ix2 p (0 : Fin 1)) := by
  unfold k0_pay1
  dsimp only
  rw [mulf_apply, addf_apply]
  refine congrArg₂ (· * ·) (congrArg₂ (· + ·) ?_ ?_) ?_
  · rw [shapeCast_self]
    exact Cert.Spec.matmulT_apply dot_S5000x128_S128x128_S5000x128_1_0_0_1_n_n_wf transposes_S128x128_p1_0_S128x128
      none bitsLt_bf16_f32 x0 w (ix2 p q)
  · rw [shapeCast_self]
    exact broadcastTo_1b_ab_apply b _ p q
  · rw [shapeCast_self]
    exact broadcastTo_a1_ab_apply d _ p q

/-- A row block of the body's result is the same rows of the whole-array function: if the row block `x0` is rows
    `n·5000 …` of `X`, the factor block `d` the same rows of `D`, and the weight and bias are the whole small arrays,
    then entry `j` of what the body stores is entry `i` of `(X · Wᵀ + B) · D`, for `i` the entry `j` moved down `n` blocks. -/
theorem pay_rows (X : S100000x128.Idx → EReal) (W : S128x128.Idx → EReal) (B : S1x128.Idx → EReal) (D : S100000x1.Idx → EReal)
    (x0 : Vec Ideal S5000x128 .f32) (w : Vec Ideal S128x128 .f32) (b : Vec Ideal S1x128 .f32) (d : Vec Ideal S5000x1 .f32)
    (n : Nat) (j : S5000x128.Idx) (i : S100000x128.Idx)
    (hi0 : (i 0).val = n * 5000 + (j 0).val) (hi1 : (i 1).val = (j 1).val)
    (hx : ∀ (y : S5000x128.Idx) (k : S100000x128.Idx), (k 0).val = n * 5000 + (y 0).val → (k 1).val = (y 1).val → x0 y = X k)
    (hw : w = W) (hb : b = B)
    (hd : ∀ (y : S5000x1.Idx) (k : S100000x1.Idx), (k 0).val = n * 5000 + (y 0).val → (k 1).val = (y 1).val → d y = D k) :
    k0_pay1 x0 w b d j = Cert.Spec.linBiasScale X W B D i := by
  subst hw hb
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  have hr : r.val = n * 5000 + p.val := hi0
  have e1 : d (ix2 p (0 : Fin 1)) = D (ix2 r (0 : Fin 1)) := hd (ix2 p (0 : Fin 1)) (ix2 r (0 : Fin 1)) hr rfl
  have e2 : Cert.Spec.linT x0 w (ix2 p s) = Cert.Spec.linT X w (ix2 r s) := by
    rw [Cert.Spec.linT_apply, Cert.Spec.linT_apply]
    exact Finset.sum_congr rfl fun c _ => by rw [hx (ix2 p c) (ix2 r c) hr rfl]
  rw [pay_apply, e1, e2]
  rfl

/-! ## From row blocks to the array

Point `t` of the 20 handles rows `5000·t … 5000·t + 4999`: the row-indexed windows sit at block index `(t, 0)`, the
weight and the bias at `(0, 0)`; a block's coordinate in its array is index × size + the coordinate inside the block. -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-indexed windows move with the point, the small ones stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back is block `t` of `(X · Wᵀ + b) · d` of the arrays as the region finds them. -/
theorem flushed_eq (c : Dev nD) (t : Fin cfg0.N) :
    (dat0 (F := Ideal) V c).flushed 4 t = ((cfg0.win 4).blk t).view.read (Elt Ideal)
      (Cert.Spec.linBiasScale (R := 100000) (V c main_arg0) (V c main_v0) (V c main_v6) (V c main_v4)) := by
  show (cfg0.win 4).cut (grid0.coords t) ((dat0 (F := Ideal) V c).after 4 t) = _
  rw [after0_4]
  unfold out0_4
  rw [View.canon_unit_zero hz]
  simp only [View.ld_unit_zero (S := S5000x128) hz, View.ld_unit_zero (S := S128x128) hz,
    View.ld_unit_zero (S := S1x128) hz, View.ld_unit_zero (S := S5000x1) hz]
  obtain ⟨a0, a1, b0, b1, c0, c1, d0, d1, e0, e1⟩ := idx_facts t
  funext j
  refine pay_rows (V c main_arg0) (V c main_v0) (V c main_v6) (V c main_v4)
    (iblk0 (F := Ideal) V c 0 t) (iblk0 (F := Ideal) V c 1 t) (iblk0 (F := Ideal) V c 2 t) (iblk0 (F := Ideal) V c 3 t)
    t.val j (((cfg0.win 4).blk t).view.emb j) ?_ ?_ ?_ ?_ ?_ ?_
  · show win0_4.index t (0 : Fin 2) * 5000 + 1 * (j 0).val = t.val * 5000 + (j 0).val
    omega
  · show win0_4.index t (1 : Fin 2) * 128 + 1 * (j 1).val = (j 1).val
    omega
  · intro y k h0 h1
    show V c main_arg0 (((cfg0.win 0).blk t).view.emb y) = V c main_arg0 k
    refine congrArg (V c main_arg0) ?_
    funext a; apply Fin.ext
    match a with
    | ⟨0, _⟩ => show win0_0.index t (0 : Fin 2) * 5000 + 1 * (y 0).val = (k 0).val; omega
    | ⟨1, _⟩ => show win0_0.index t (1 : Fin 2) * 128 + 1 * (y 1).val = (k 1).val; omega
  · funext y
    show V c main_v0 (((cfg0.win 1).blk t).view.emb y) = V c main_v0 y
    refine congrArg (V c main_v0) ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v6 (((cfg0.win 2).blk t).view.emb y) = V c main_v6 y
    refine congrArg (V c main_v6) ?_
    funext a; apply Fin.ext
    match a with
    | ⟨0, _⟩ => show win0_2.index t (0 : Fin 2) * 1 + 1 * (y 0).val = (y 0).val; omega
    | ⟨1, _⟩ => show win0_2.index t (1 : Fin 2) * 128 + 1 * (y 1).val = (y 1).val; omega
  · intro y k h0 h1
    show V c main_v4 (((cfg0.win 3).blk t).view.emb y) = V c main_v4 k
    refine congrArg (V c main_v4) ?_
    funext a; apply Fin.ext
    match a with
    | ⟨0, _⟩ => show win0_3.index t (0 : Fin 2) * 5000 + 1 * (y 0).val = (k 0).val; omega
    | ⟨1, _⟩ => show win0_3.index t (1 : Fin 2) * 1 + 1 * (y 1).val = (k 1).val; omega

/-- An entry of the array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v8).slice (win0_4.rect t)).set ↔ _
  rw [View.set_slice_whole, Rect.mem_set_unit]
  exact Iff.rfl

/-- Row `r` is in the block of point `r / 5000`: the blocks cover the array. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- The result array after the region is `(X · Wᵀ + b) · d` of the arrays the region was entered with. -/
theorem arr4 (c : Dev nD) :
    (dat0 (F := Ideal) V c).arrAt 4 cfg0.N
      = Cert.Spec.linBiasScale (V c main_arg0) (V c main_v0) (V c main_v6) (V c main_v4) :=
  (dat0 (F := Ideal) V c).arrAt_eq_of_cover 4 _ (fun t _ => flushed_eq V c t) cover

end Cert.KernelIdeal.Reg0

end
-- ==== Proof.Reg1.lean ====
/-
  Region 1, three row-tiled results over 20000 rows in 5 blocks of 4000: `X · W₁ᵀ`, `X · W₂ᵀ + b` and the rows of `X`
  each scaled by its own factor. Each result array after the region is one function of the arrays the region is entered
  with, entry by entry: entry (r, q) depends on row r of the row-indexed inputs and on the whole weights and bias, so
  block t of a result is rows 4000·t … 4000·t + 3999 of that function, and the 5 blocks cover each array.
-/
import proofs.«116521_j7662221656116_2_alg».proof.Proof.Gen.KernelIdeal.Frame
import proofs.«116521_j7662221656116_2_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

/-! ## The body's three values at an entry

From a block of 4000 rows the body stores three results: the rows times a first transposed weight; the rows times a
second transposed weight plus a bias row; and the rows scaled each by its own factor. Entry (p, q) of each depends on
row p of the row block (and factor p), row q of a weight and entry q of the bias. -/

/-- A `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first stored value at entry (p, q): `∑ c, x (p, c) · w (q, c)`. -/
theorem pay2_apply (x0 : Vec Ideal S4000x128 .f32) (w : Vec Ideal S128x128 .f32) (p : Fin 4000) (q : Fin 128) :
    k1_pay2 x0 w (ix2 p q) = Cert.Spec.linT x0 w (ix2 p q) := by
  unfold k1_pay2 k1_pay1
  dsimp only
  rw [shapeCast_self]
  exact Cert.Spec.matmulT_apply dot_S4000x128_S128x128_S4000x128_1_0_0_1_n_n_wf transposes_S128x128_p1_0_S128x128
    none bitsLt_bf16_f32 x0 w (ix2 p q)

/-- The second stored value at entry (p, q): `∑ c, x (p, c) · w (q, c) + b (0, q)`. -/
theorem pay3_apply (x0 : Vec Ideal S4000x128 .f32) (w : Vec Ideal S128x128 .f32) (b : Vec Ideal S1x128 .f32)
    (p : Fin 4000) (q : Fin 128) :
    k1_pay3 x0 w b (ix2 p q) = Cert.Spec.linT x0 w (ix2 p q) + b (ix2 (0 : Fin 1) q) := by
  unfold k1_pay3 k1_pay1
  dsimp only
  rw [addf_apply]
  refine congrArg₂ (· + ·) ?_ ?_
  · rw [shapeCast_self]
    exact Cert.Spec.matmulT_apply dot_S4000x128_S128x128_S4000x128_1_0_0_1_n_n_wf transposes_S128x128_p1_0_S128x128
      none bitsLt_bf16_f32 x0 w (ix2 p q)
  · rw [shapeCast_self]
    exact broadcastTo_1b_ab_apply b _ p q

/-- The third stored value at entry (p, q): `x (p, q) · d (p, 0)`. -/
theorem pay4_apply (x0 : Vec Ideal S4000x128 .f32) (d : Vec Ideal S4000x1 .f32) (p : Fin 4000) (q : Fin 128) :
    k1_pay4 x0 d (ix2 p q) = x0 (ix2 p q) * d (ix2 p (0 : Fin 1)) := by
  unfold k1_pay4
  rw [mulf_apply, shapeCast_self]
  exact congrArg (x0 (ix2 p q) * ·) (broadcastTo_a1_ab_apply d _ p q)

/-- The product of a row block with a transposed weight is the same rows of the product of the whole array: if `x0` is
    rows `n·4000 …` of `X`, entry (p, s) of `x0 · wᵀ` is entry (n·4000 + p, s) of `X · wᵀ`. -/
theorem linT_rows (X : S20000x128.Idx → EReal) (x0 : Vec Ideal S4000x128 .f32) (w : S128x128.Idx → EReal) (n : Nat)
    (hx : ∀ (y : S4000x128.Idx) (k : S20000x128.Idx), (k 0).val = n * 4000 + (y 0).val → (k 1).val = (y 1).val → x0 y = X k)
    (p : Fin 4000) (r : Fin 20000) (s : Fin 128) (hr : r.val = n * 4000 + p.val) :
    Cert.Spec.linT x0 w (ix2 p s) = Cert.Spec.linT X w (ix2 r s) := by
  rw [Cert.Spec.linT_apply, Cert.Spec.linT_apply]
  exact Finset.sum_congr rfl fun c _ => by rw [hx (ix2 p c) (ix2 r c) hr rfl]

/-- Entry `j` of the first stored block is entry `i` of `X · Wᵀ`, for `i` the entry `j` moved down `n` blocks. -/
theorem pay2_rows (X : S20000x128.Idx → EReal) (W : S128x128.Idx → EReal)
    (x0 : Vec Ideal S4000x128 .f32) (w : Vec Ideal S128x128 .f32)
    (n : Nat) (j : S4000x128.Idx) (i : S20000x128.Idx)
    (hi0 : (i 0).val = n * 4000 + (j 0).val) (hi1 : (i 1).val = (j 1).val)
    (hx : ∀ (y : S4000x128.Idx) (k : S20000x128.Idx), (k 0).val = n * 4000 + (y 0).val → (k 1).val = (y 1).val → x0 y = X k)
    (hw : w = W) :
    k1_pay2 x0 w j = Cert.Spec.linT X W i := by
  subst hw
  obtain ⟨p, q, rfl⟩ : ∃ (p : Fin 4000) (q : Fin 128), j = ix2 p q := ⟨j 0, j 1, eq_ix2 j⟩
  obtain ⟨r, s, rfl⟩ : ∃ (r : Fin 20000) (s : Fin 128), i = ix2 r s := ⟨i 0, i 1, eq_ix2 i⟩
  have hs : s = q := Fin.ext hi1
  subst hs
  have hr : r.val = n * 4000 + p.val := hi0
  rw [pay2_apply]
  exact linT_rows X x0 w n hx p r s hr

/-- Entry `j` of the second stored block is entry `i` of `X · Wᵀ + B`. -/
theorem pay3_rows (X : S20000x128.Idx → EReal) (W : S128x128.Idx → EReal) (B : S1x128.Idx → EReal)
    (x0 : Vec Ideal S4000x128 .f32) (w : Vec Ideal S128x128 .f32) (b : Vec Ideal S1x128 .f32)
    (n : Nat) (j : S4000x128.Idx) (i : S20000x128.Idx)
    (hi0 : (i 0).val = n * 4000 + (j 0).val) (hi1 : (i 1).val = (j 1).val)
    (hx : ∀ (y : S4000x128.Idx) (k : S20000x128.Idx), (k 0).val = n * 4000 + (y 0).val → (k 1).val = (y 1).val → x0 y = X k)
    (hw : w = W) (hb : b = B) :
    k1_pay3 x0 w b j = Cert.Spec.linBias X W B i := by
  subst hw hb
  obtain ⟨p, q, rfl⟩ : ∃ (p : Fin 4000) (q : Fin 128), j = ix2 p q := ⟨j 0, j 1, eq_ix2 j⟩
  obtain ⟨r, s, rfl⟩ : ∃ (r : Fin 20000) (s : Fin 128), i = ix2 r s := ⟨i 0, i 1, eq_ix2 i⟩
  have hs : s = q := Fin.ext hi1
  subst hs
  have hr : r.val = n * 4000 + p.val := hi0
  rw [pay3_apply, linT_rows X x0 w n hx p r s hr]
  rfl

/-- Entry `j` of the third stored block is entry `i` of `X` with each row scaled by its factor in `D`. -/
theorem pay4_rows (X : S20000x128.Idx → EReal) (D : S20000x1.Idx → EReal)
    (x0 : Vec Ideal S4000x128 .f32) (d : Vec Ideal S4000x1 .f32)
    (n : Nat) (j : S4000x128.Idx) (i : S20000x128.Idx)
    (hi0 : (i 0).val = n * 4000 + (j 0).val) (hi1 : (i 1).val = (j 1).val)
    (hx : ∀ (y : S4000x128.Idx) (k : S20000x128.Idx), (k 0).val = n * 4000 + (y 0).val → (k 1).val = (y 1).val → x0 y = X k)
    (hd : ∀ (y : S4000x1.Idx) (k : S20000x1.Idx), (k 0).val = n * 4000 + (y 0).val → (k 1).val = (y 1).val → d y = D k) :
    k1_pay4 x0 d j = Cert.Spec.rowScale X D i := by
  obtain ⟨p, q, rfl⟩ : ∃ (p : Fin 4000) (q : Fin 128), j = ix2 p q := ⟨j 0, j 1, eq_ix2 j⟩
  obtain ⟨r, s, rfl⟩ : ∃ (r : Fin 20000) (s : Fin 128), i = ix2 r s := ⟨i 0, i 1, eq_ix2 i⟩
  have hs : s = q := Fin.ext hi1
  subst hs
  have hr : r.val = n * 4000 + p.val := hi0
  rw [pay4_apply, hx (ix2 p s) (ix2 r s) hr rfl, hd (ix2 p (0 : Fin 1)) (ix2 r (0 : Fin 1)) hr rfl]
  rfl

/-! ## From row blocks to the arrays

Point `t` of the 5 handles rows `4000·t … 4000·t + 3999`: the row-indexed windows sit at block index `(t, 0)`, the two
weights and the bias at `(0, 0)`; a block's coordinate in its array is index × size + the coordinate inside the block. -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-indexed windows move with the point, the small ones stay at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- What point `t` writes back through window 5 is block `t` of `X · W₁ᵀ` of the arrays as the region finds them. -/
theorem flushed5_eq (c : Dev nD) (t : Fin cfg1.N) :
    (dat1 (F := Ideal) V c).flushed 5 t = ((cfg1.win 5).blk t).view.read (Elt Ideal)
      (Cert.Spec.linT (R := 20000) (V c main_arg1) (V c main_v1)) := by
  show (cfg1.win 5).cut (grid1.coords t) ((dat1 (F := Ideal) V c).after 5 t) = _
  rw [after1_5]
  unfold out1_5
  rw [View.canon_unit_zero hz]
  simp only [View.ld_unit_zero (S := S4000x128) hz, View.ld_unit_zero (S := S128x128) hz,
    View.ld_unit_zero (S := S1x128) hz, View.ld_unit_zero (S := S4000x1) hz]
  obtain ⟨a0, a1, b0, b1, c0, c1, d0, d1, e0, e1, f0, f1, g0, g1, h0, h1⟩ := idx_facts t
  funext j
  refine pay2_rows (V c main_arg1) (V c main_v1) (iblk1 (F := Ideal) V c 0 t) (iblk1 (F := Ideal) V c 1 t)
    t.val j (((cfg1.win 5).blk t).view.emb j) ?_ ?_ ?_ ?_
  · show win1_5.index t (0 : Fin 2) * 4000 + 1 * (j 0).val = t.val * 4000 + (j 0).val
    omega
  · show win1_5.index t (1 : Fin 2) * 128 + 1 * (j 1).val = (j 1).val
    omega
  · intro y k h0 h1
    show V c main_arg1 (((cfg1.win 0).blk t).view.emb y) = V c main_arg1 k
    refine congrArg (V c main_arg1) ?_
    funext a; apply Fin.ext
    match a with
    | ⟨0, _⟩ => show win1_0.index t (0 : Fin 2) * 4000 + 1 * (y 0).val = (k 0).val; omega
    | ⟨1, _⟩ => show win1_0.index t (1 : Fin 2) * 128 + 1 * (y 1).val = (k 1).val; omega
  · funext y
    show V c main_v1 (((cfg1.win 1).blk t).view.emb y) = V c main_v1 y
    refine congrArg (V c main_v1) ?_
    funext a; apply Fin.ext
    match a with
    | ⟨0, _⟩ => show win1_1.index t (0 : Fin 2) * 128 + 1 * (y 0).val = (y 0).val; omega
    | ⟨1, _⟩ => show win1_1.index t (1 : Fin 2) * 128 + 1 * (y 1).val = (y 1).val; omega

/-- What point `t` writes back through window 6 is block `t` of `X · W₂ᵀ + b`. -/
theorem flushed6_eq (c : Dev nD) (t : Fin cfg1.N) :
    (dat1 (F := Ideal) V c).flushed 6 t = ((cfg1.win 6).blk t).view.read (Elt Ideal)
      (Cert.Spec.linBias (R := 20000) (V c main_arg1) (V c main_v3) (V c main_v7)) := by
  show (cfg1.win 6).cut (grid1.coords t) ((dat1 (F := Ideal) V c).after 6 t) = _
  rw [after1_6]
  unfold out1_6
  rw [View.canon_unit_zero hz]
  simp only [View.ld_unit_zero (S := S4000x128) hz, View.ld_unit_zero (S := S128x128) hz,
    View.ld_unit_zero (S := S1x128) hz, View.ld_unit_zero (S := S4000x1) hz]
  obtain ⟨a0, a1, b0, b1, c0, c1, d0, d1, e0, e1, f0, f1, g0, g1, h0, h1⟩ := idx_facts t
  funext j
  refine pay3_rows (V c main_arg1) (V c main_v3) (V c main_v7)
    (iblk1 (F := Ideal) V c 0 t) (iblk1 (F := Ideal) V c 2 t) (iblk1 (F := Ideal) V c 3 t)
    t.val j (((cfg1.win 6).blk t).view.emb j) ?_ ?_ ?_ ?_ ?_
  · show win1_6.index t (0 : Fin 2) * 4000 + 1 * (j 0).val = t.val * 4000 + (j 0).val
    omega
  · show win1_6.index t (1 : Fin 2) * 128 + 1 * (j 1).val = (j 1).val
    omega
  · intro y k h0 h1
    show V c main_arg1 (((cfg1.win 0).blk t).view.emb y) = V c main_arg1 k
    refine congrArg (V c main_arg1) ?_
    funext a; apply Fin.ext
    match a with
    | ⟨0, _⟩ => show win1_0.index t (0 : Fin 2) * 4000 + 1 * (y 0).val = (k 0).val; omega
    | ⟨1, _⟩ => show win1_0.index t (1 : Fin 2) * 128 + 1 * (y 1).val = (k 1).val; omega
  · funext y
    show V c main_v3 (((cfg1.win 2).blk t).view.emb y) = V c main_v3 y
    refine congrArg (V c main_v3) ?_
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v7 (((cfg1.win 3).blk t).view.emb y) = V c main_v7 y
    refine congrArg (V c main_v7) ?_
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega

/-- What point `t` writes back through window 7 is block `t` of `X` with each row scaled by its factor. -/
theorem flushed7_eq (c : Dev nD) (t : Fin cfg1.N) :
    (dat1 (F := Ideal) V c).flushed 7 t = ((cfg1.win 7).blk t).view.read (Elt Ideal)
      (Cert.Spec.rowScale (R := 20000) (V c main_arg1) (V c main_v5)) := by
  show (cfg1.win 7).cut (grid1.coords t) ((dat1 (F := Ideal) V c).after 7 t) = _
  rw [after1_7]
  unfold out1_7
  rw [View.canon_unit_zero hz]
  simp only [View.ld_unit_zero (S := S4000x128) hz, View.ld_unit_zero (S := S128x128) hz,
    View.ld_unit_zero (S := S1x128) hz, View.ld_unit_zero (S := S4000x1) hz]
  obtain ⟨a0, a1, b0, b1, c0, c1, d0, d1, e0, e1, f0, f1, g0, g1, h0, h1⟩ := idx_facts t
  funext j
  refine pay4_rows (V c main_arg1) (V c main_v5) (iblk1 (F := Ideal) V c 0 t) (iblk1 (F := Ideal) V c 4 t)
    t.val j (((cfg1.win 7).blk t).view.emb j) ?_ ?_ ?_ ?_
  · show win1_7.index t (0 : Fin 2) * 4000 + 1 * (j 0).val = t.val * 4000 + (j 0).val
    omega
  · show win1_7.index t (1 : Fin 2) * 128 + 1 * (j 1).val = (j 1).val
    omega
  · intro y k h0 h1
    show V c main_arg1 (((cfg1.win 0).blk t).view.emb y) = V c main_arg1 k
    refine congrArg (V c main_arg1) ?_
    funext a; apply Fin.ext
    match a with
    | ⟨0, _⟩ => show win1_0.index t (0 : Fin 2) * 4000 + 1 * (y 0).val = (k 0).val; omega
    | ⟨1, _⟩ => show win1_0.index t (1 : Fin 2) * 128 + 1 * (y 1).val = (k 1).val; omega
  · intro y k h0 h1
    show V c main_v5 (((cfg1.win 4).blk t).view.emb y) = V c main_v5 k
    refine congrArg (V c main_v5) ?_
    funext a; apply Fin.ext
    match a with
    | ⟨0, _⟩ => show win1_4.index t (0 : Fin 2) * 4000 + 1 * (y 0).val = (k 0).val; omega
    | ⟨1, _⟩ => show win1_4.index t (1 : Fin 2) * 1 + 1 * (y 1).val = (k 1).val; omega

/-- An entry of the array is in point `t`'s block of window 5 iff each coordinate is in the block's range on its axis. -/
theorem mem_blk5 (t : Fin cfg1.N) (i : S20000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v9_0).slice (win1_5.rect t)).set ↔ _
  rw [View.set_slice_whole, Rect.mem_set_unit]
  exact Iff.rfl

/-- Row `r` is in the block of point `r / 4000`: window 5's blocks cover its array. -/
theorem cover5 (i : S20000x128.Idx) :
    ∃ t : Fin cfg1.N, (cfg1.win 5).flush t = true ∧ i ∈ ((cfg1.win 5).blk t).view.set := by
  have hi0 : (i 0).val < 20000 := (i 0).isLt
  have hi1 : (i 1).val < 128 := (i 1).isLt
  obtain ⟨t, ht⟩ : ∃ t : Fin cfg1.N, t.val = (i 0).val / 4000 :=
    ⟨⟨(i 0).val / 4000, lt_of_lt_of_eq (by omega) N_1.symm⟩, rfl⟩
  obtain ⟨-, -, -, -, -, -, -, -, -, -, f0, f1, g0, g1, h0, h1⟩ := idx_facts t
  refine ⟨t, flush1_5 t, ?_⟩
  rw [mem_blk5]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 128 ≤ (i 1).val ∧ (i 1).val < win1_5.index t (1 : Fin 2) * 128 + 128
    omega

/-- An entry of the array is in point `t`'s block of window 6 iff each coordinate is in the block's range on its axis. -/
theorem mem_blk6 (t : Fin cfg1.N) (i : S20000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v9_1).slice (win1_6.rect t)).set ↔ _
  rw [View.set_slice_whole, Rect.mem_set_unit]
  exact Iff.rfl

/-- Row `r` is in the block of point `r / 4000`: window 6's blocks cover its array. -/
theorem cover6 (i : S20000x128.Idx) :
    ∃ t : Fin cfg1.N, (cfg1.win 6).flush t = true ∧ i ∈ ((cfg1.win 6).blk t).view.set := by
  have hi0 : (i 0).val < 20000 := (i 0).isLt
  have hi1 : (i 1).val < 128 := (i 1).isLt
  obtain ⟨t, ht⟩ : ∃ t : Fin cfg1.N, t.val = (i 0).val / 4000 :=
    ⟨⟨(i 0).val / 4000, lt_of_lt_of_eq (by omega) N_1.symm⟩, rfl⟩
  obtain ⟨-, -, -, -, -, -, -, -, -, -, f0, f1, g0, g1, h0, h1⟩ := idx_facts t
  refine ⟨t, flush1_6 t, ?_⟩
  rw [mem_blk6]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 128 ≤ (i 1).val ∧ (i 1).val < win1_6.index t (1 : Fin 2) * 128 + 128
    omega

/-- An entry of the array is in point `t`'s block of window 7 iff each coordinate is in the block's range on its axis. -/
theorem mem_blk7 (t : Fin cfg1.N) (i : S20000x128.Idx) :
    i ∈ ((cfg1.win 7).blk t).view.set ↔ ∀ a : Fin 2, win1_7.index t a * S4000x128.size a ≤ (i a).val
      ∧ (i a).val < win1_7.index t a * S4000x128.size a + S4000x128.size a := by
  show i ∈ ((View.whole main_v9_2).slice (win1_7.rect t)).set ↔ _
  rw [View.set_slice_whole, Rect.mem_set_unit]
  exact Iff.rfl

/-- Row `r` is in the block of point `r / 4000`: window 7's blocks cover its array. -/
theorem cover7 (i : S20000x128.Idx) :
    ∃ t : Fin cfg1.N, (cfg1.win 7).flush t = true ∧ i ∈ ((cfg1.win 7).blk t).view.set := by
  have hi0 : (i 0).val < 20000 := (i 0).isLt
  have hi1 : (i 1).val < 128 := (i 1).isLt
  obtain ⟨t, ht⟩ : ∃ t : Fin cfg1.N, t.val = (i 0).val / 4000 :=
    ⟨⟨(i 0).val / 4000, lt_of_lt_of_eq (by omega) N_1.symm⟩, rfl⟩
  obtain ⟨-, -, -, -, -, -, -, -, -, -, f0, f1, g0, g1, h0, h1⟩ := idx_facts t
  refine ⟨t, flush1_7 t, ?_⟩
  rw [mem_blk7]
  intro a
  match a with
  | ⟨0, _⟩ =>
    show win1_7.index t (0 : Fin 2) * 4000 ≤ (i 0).val ∧ (i 0).val < win1_7.index t (0 : Fin 2) * 4000 + 4000
    omega
  | ⟨1, _⟩ =>
    show win1_7.index t (1 : Fin 2) * 128 ≤ (i 1).val ∧ (i 1).val < win1_7.index t (1 : Fin 2) * 128 + 128
    omega

/-- The first result array after the region is `X · W₁ᵀ` of the arrays the region was entered with. -/
theorem arr5 (c : Dev nD) :
    (dat1 (F := Ideal) V c).arrAt 5 cfg1.N = Cert.Spec.linT (V c main_arg1) (V c main_v1) :=
  (dat1 (F := Ideal) V c).arrAt_eq_of_cover 5 _ (fun t _ => flushed5_eq V c t) cover5

/-- The second result array after the region is `X · W₂ᵀ + b`. -/
theorem arr6 (c : Dev nD) :
    (dat1 (F := Ideal) V c).arrAt 6 cfg1.N = Cert.Spec.linBias (V c main_arg1) (V c main_v3) (V c main_v7) :=
  (dat1 (F := Ideal) V c).arrAt_eq_of_cover 6 _ (fun t _ => flushed6_eq V c t) cover6

/-- The third result array after the region is `X` with each row scaled by its factor. -/
theorem arr7 (c : Dev nD) :
    (dat1 (F := Ideal) V c).arrAt 7 cfg1.N = Cert.Spec.rowScale (V c main_arg1) (V c main_v5) :=
  (dat1 (F := Ideal) V c).arrAt_eq_of_cover 7 _ (fun t _ => flushed7_eq V c t) cover7

end Cert.KernelIdeal.Reg1

end
-- ==== Proof.Reg2.lean ====
/-
  The second accelerator region as two arrays. The launch has 20 points; point t holds rows 5000·t … 5000·t + 4999 of
  the row operand [100000,128] and two whole weights [128,128], and stores, for its 5000 rows, first H = max(X · W₁ᵀ, 0)
  and then H · W₂ᵀ. Entry (p, q) of the first block reads only row p of the row block and row q of W₁; entry (p, q) of
  the second reads the whole row p of the first block, which is in the same block, and row q of W₂. So each stored block
  is the restriction to its rows of the same function taken over the whole arrays; the 20 blocks tile the 100000 rows
  (row r is in the block of point r / 5000), so each result array after the region is that function of the arrays at
  entry.
-/
import proofs.«116521_j7662221656116_2_alg».proof.Proof.Gen.KernelIdeal.Frame
import proofs.«116521_j7662221656116_2_alg».proof.Proof.Spec

set_option maxRecDepth 16384

noncomputable section

open scoped BigOperators

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The first stored block at an entry: the rectified product of the row block with the first transposed weight. -/
theorem pay1_apply (x0 : Vec Ideal S5000x128 .f32) (w : Vec Ideal S128x128 .f32) (j : S5000x128.Idx) :
    k2_pay1 x0 w j = Cert.Spec.reluLinT x0 w j := by
  unfold k2_pay1
  refine (maximumf_apply _ _ j).trans ?_
  refine congrArg₂ max ?_ rfl
  refine Eq.trans ?_ (Cert.Spec.matmulT_apply dot_S5000x128_S128x128_S5000x128_1_0_0_1_n_n_wf transposes_S128x128_p1_0_S128x128 none bitsLt_bf16_f32 x0 w j)
  rw [shapeCast_self]
  rfl

/-- The second stored block at an entry: the product of the first stored block with the second transposed weight. -/
theorem pay2_apply (x0 : Vec Ideal S5000x128 .f32) (w1 w2 : Vec Ideal S128x128 .f32) (j : S5000x128.Idx) :
    k2_pay2 x0 w1 w2 j = Cert.Spec.linT (Cert.Spec.reluLinT x0 w1) w2 j := by
  unfold k2_pay2
  refine Eq.trans ?_ ((Cert.Spec.matmulT_apply dot_S5000x128_S128x128_S5000x128_1_0_0_1_n_n_wf transposes_S128x128_p1_0_S128x128 none bitsLt_bf16_f32 (k2_pay1 x0 w1) w2 j).trans ?_)
  · rw [shapeCast_self]
    rfl
  · rw [show k2_pay1 x0 w1 = Cert.Spec.reluLinT x0 w1 from funext (pay1_apply x0 w1)]

/-- An entry of the rectified product reads one row of the row operand: a block of rows gives the array's entry. -/
theorem reluLinT_rows {R T : Nat} (X : (⟨2, ![R, 128]⟩ : Shape).Idx → EReal) (W w : (⟨2, ![128, 128]⟩ : Shape).Idx → EReal)
    (x : (⟨2, ![T, 128]⟩ : Shape).Idx → EReal) (j : (⟨2, ![T, 128]⟩ : Shape).Idx) (i : (⟨2, ![R, 128]⟩ : Shape).Idx)
    (hx : ∀ c : Fin 128, x (ix2 (j 0) c) = X (ix2 (i 0) c)) (hw : w = W) (h1 : (i 1).val = (j 1).val) :
    Cert.Spec.reluLinT x w j = Cert.Spec.reluLinT X W i := by
  subst hw
  have e1 : (j 1 : Fin 128) = i 1 := Fin.ext h1.symm
  show max (∑ c : Fin 128, x (ix2 (j 0) c) * w (ix2 (j 1 : Fin 128) c)) Cert.Spec.z0
      = max (∑ c : Fin 128, X (ix2 (i 0) c) * w (ix2 (i 1 : Fin 128) c)) Cert.Spec.z0
  rw [e1]
  exact congrArg₂ max (Finset.sum_congr rfl fun c _ => by rw [hx c]) rfl

/-- An entry of the second product reads one whole row of the first, which reads one row of the row operand. -/
theorem linT_reluLinT_rows {R T : Nat} (X : (⟨2, ![R, 128]⟩ : Shape).Idx → EReal)
    (W1 w1 W2 w2 : (⟨2, ![128, 128]⟩ : Shape).Idx → EReal)
    (x : (⟨2, ![T, 128]⟩ : Shape).Idx → EReal) (j : (⟨2, ![T, 128]⟩ : Shape).Idx) (i : (⟨2, ![R, 128]⟩ : Shape).Idx)
    (hx : ∀ c : Fin 128, x (ix2 (j 0) c) = X (ix2 (i 0) c)) (hw1 : w1 = W1) (hw2 : w2 = W2) (h1 : (i 1).val = (j 1).val) :
    Cert.Spec.linT (Cert.Spec.reluLinT x w1) w2 j = Cert.Spec.linT (Cert.Spec.reluLinT X W1) W2 i := by
  subst hw1 hw2
  have e1 : (j 1 : Fin 128) = i 1 := Fin.ext h1.symm
  show ∑ c : Fin 128, Cert.Spec.reluLinT x w1 (ix2 (j 0) c) * w2 (ix2 (j 1 : Fin 128) c)
      = ∑ c : Fin 128, Cert.Spec.reluLinT X w1 (ix2 (i 0) c) * w2 (ix2 (i 1 : Fin 128) c)
  rw [e1]
  refine Finset.sum_congr rfl fun c _ => ?_
  exact congrArg (fun z => z * w2 (ix2 (i 1 : Fin 128) c))
    (reluLinT_rows X w1 w1 x (ix2 (j 0) c) (ix2 (i 0) c) hx rfl rfl)

/-- The printed index maps over the grid: the row windows sit at block (t, 0), the two weights at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The row operand's block at point t holds rows 5000·t … 5000·t + 4999 of the array. -/
theorem iblk0_apply (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c main_v74 : S100000x128.Idx → EReal) k := by
  obtain ⟨e0, e1, -⟩ := idx_facts t
  unfold iblk2
  rw [View.read_apply]
  show (V c main_v74 : S100000x128.Idx → EReal) _ = (V c main_v74 : S100000x128.Idx → EReal) _
  refine congrArg _ ?_
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- The first weight's block at every point is the whole weight. -/
theorem iblk1_eq (c : Dev nD) (t : Fin cfg2.N) :
    (iblk2 V c 1 t : Vec Ideal S128x128 .f32) = (V c main_arg16 : S128x128.Idx → EReal) := by
  obtain ⟨-, -, e2, e3, -⟩ := idx_facts t
  funext y
  unfold iblk2
  rw [View.read_apply]
  show (V c main_arg16 : S128x128.Idx → EReal) _ = (V c main_arg16 : S128x128.Idx → EReal) _
  refine congrArg _ ?_
  funext a
  apply Fin.ext
  match a with
  | ⟨0, _⟩ => show win2_1.index t (0 : Fin 2) * 128 + 1 * (y 0).val = (y 0).val; rw [e2]; omega
  | ⟨1, _⟩ => show win2_1.index t (1 : Fin 2) * 128 + 1 * (y 1).val = (y 1).val; rw [e3]; omega

/-- The second weight's block at every point is the whole weight. -/
theorem iblk2_eq (c : Dev nD) (t : Fin cfg2.N) :
    (iblk2 V c 2 t : Vec Ideal S128x128 .f32) = (V c main_v2 : S128x128.Idx → EReal) := by
  obtain ⟨-, -, -, -, e4, e5, -⟩ := idx_facts t
  funext y
  unfold iblk2
  rw [View.read_apply]
  show (V c main_v2 : S128x128.Idx → EReal) _ = (V c main_v2 : S128x128.Idx → EReal) _
  refine congrArg _ ?_
  funext a
  apply Fin.ext
  match a with
  | ⟨0, _⟩ => show win2_2.index t (0 : Fin 2) * 128 + 1 * (y 0).val = (y 0).val; rw [e4]; omega
  | ⟨1, _⟩ => show win2_2.index t (1 : Fin 2) * 128 + 1 * (y 1).val = (y 1).val; rw [e5]; omega

/-! ## The first result -/

/-- What point t writes back to the first result is block t of the rectified product of the whole arrays. -/
theorem flushed3_eq (c : Dev nD) (t : Fin cfg2.N) :
    (dat2 (F := Ideal) V c).flushed 3 t
      = ((cfg2.win 3).blk t).view.read (Elt Ideal) (Cert.Spec.reluLinT (V c main_v74) (V c main_arg16)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz]
  obtain ⟨-, -, -, -, -, -, e6, e7, -⟩ := idx_facts t
  funext j
  show k2_pay1 (iblk2 V c 0 t) (iblk2 V c 1 t) j
      = Cert.Spec.reluLinT (V c main_v74) (V c main_arg16) (((cfg2.win 3).blk t).view.emb j)
  refine (pay1_apply _ _ j).trans ?_
  refine reluLinT_rows _ _ _ _ j _ (fun q => ?_) (iblk1_eq V c t) ?_
  · refine iblk0_apply V c t _ _ ?_ ?_
    · show win2_3.index t (0 : Fin 2) * 5000 + 1 * (j 0).val = 5000 * t.val + (j 0).val
      rw [e6]; omega
    · rfl
  · show win2_3.index t (1 : Fin 2) * 128 + 1 * (j 1).val = (j 1).val
    rw [e7]; omega

/-- An entry of the first result is in point t's block iff each coordinate is in the block's range on its axis. -/
theorem mem_blk3 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v75_0).slice (win2_3.rect t)).set ↔ _
  rw [View.set_slice_whole, Rect.mem_set_unit]
  exact Iff.rfl

/-- Row r of the first result is in the block of point r / 5000. -/
theorem cover3 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, e6, e7, -⟩ := idx_facts t
  refine ⟨t, flush2_3 t, ?_⟩
  rw [mem_blk3]
  intro a
  match a with
  | ⟨0, _⟩ =>
    show win2_3.index t (0 : Fin 2) * 5000 ≤ (i 0).val ∧ (i 0).val < win2_3.index t (0 : Fin 2) * 5000 + 5000
    rw [e6, ht]; omega
  | ⟨1, _⟩ =>
    show win2_3.index t (1 : Fin 2) * 128 ≤ (i 1).val ∧ (i 1).val < win2_3.index t (1 : Fin 2) * 128 + 128
    rw [e7]; omega

/-- The first result array after the region: the rectified product of the row operand with the first transposed weight. -/
theorem arr3_eq (c : Dev nD) :
    (dat2 (F := Ideal) V c).arrAt 3 cfg2.N = Cert.Spec.reluLinT (V c main_v74) (V c main_arg16) :=
  (dat2 V c).arrAt_eq_of_cover 3 _ (fun t _ => flushed3_eq V c t) cover3

/-! ## The second result -/

/-- What point t writes back to the second result is block t of the second product of the whole arrays. -/
theorem flushed4_eq (c : Dev nD) (t : Fin cfg2.N) :
    (dat2 (F := Ideal) V c).flushed 4 t
      = ((cfg2.win 4).blk t).view.read (Elt Ideal)
          (Cert.Spec.linT (Cert.Spec.reluLinT (V c main_v74) (V c main_arg16)) (V c main_v2)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz]
  obtain ⟨-, -, -, -, -, -, -, -, e8, e9⟩ := idx_facts t
  funext j
  show k2_pay2 (iblk2 V c 0 t) (iblk2 V c 1 t) (iblk2 V c 2 t) j
      = Cert.Spec.linT (Cert.Spec.reluLinT (V c main_v74) (V c main_arg16)) (V c main_v2) (((cfg2.win 4).blk t).view.emb j)
  refine (pay2_apply _ _ _ j).trans ?_
  refine linT_reluLinT_rows _ _ _ _ _ _ j _ (fun q => ?_) (iblk1_eq V c t) (iblk2_eq V c t) ?_
  · refine iblk0_apply V c t _ _ ?_ ?_
    · show win2_4.index t (0 : Fin 2) * 5000 + 1 * (j 0).val = 5000 * t.val + (j 0).val
      rw [e8]; omega
    · rfl
  · show win2_4.index t (1 : Fin 2) * 128 + 1 * (j 1).val = (j 1).val
    rw [e9]; omega

/-- An entry of the second result is in point t's block iff each coordinate is in the block's range on its axis. -/
theorem mem_blk4 (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v75_1).slice (win2_4.rect t)).set ↔ _
  rw [View.set_slice_whole, Rect.mem_set_unit]
  exact Iff.rfl

/-- Row r of the second result is in the block of point r / 5000. -/
theorem cover4 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, e8, e9⟩ := idx_facts t
  refine ⟨t, flush2_4 t, ?_⟩
  rw [mem_blk4]
  intro a
  match a with
  | ⟨0, _⟩ =>
    show win2_4.index t (0 : Fin 2) * 5000 ≤ (i 0).val ∧ (i 0).val < win2_4.index t (0 : Fin 2) * 5000 + 5000
    rw [e8, ht]; omega
  | ⟨1, _⟩ =>
    show win2_4.index t (1 : Fin 2) * 128 ≤ (i 1).val ∧ (i 1).val < win2_4.index t (1 : Fin 2) * 128 + 128
    rw [e9]; omega

/-- The second result array after the region: the first result times the second transposed weight. -/
theorem arr4_eq (c : Dev nD) :
    (dat2 (F := Ideal) V c).arrAt 4 cfg2.N
      = Cert.Spec.linT (Cert.Spec.reluLinT (V c main_v74) (V c main_arg16)) (V c main_v2) :=
  (dat2 V c).arrAt_eq_of_cover 4 _ (fun t _ => flushed4_eq V c t) cover4

end Cert.KernelIdeal.Reg2

end
-- ==== Proof.Reg3.lean ====
/-
  The third accelerator region as one array. The launch has 5 points; point t holds rows 4000·t … 4000·t + 3999 of the
  row operand [20000,128] and the whole weight [128,128], and stores, for its 4000 rows, max(X · Wᵀ, 0). Every entry
  (p, q) of a stored block reads only row p of the row block and row q of the weight, so the block of point t is the
  restriction to its rows of max(X · Wᵀ, 0) taken over the whole arrays; the 5 blocks tile the 20000 rows (row r is in
  the block of point r / 4000), so the result array after the region is that function of the arrays at entry.
-/
import proofs.«116521_j7662221656116_2_alg».proof.Proof.Gen.KernelIdeal.Frame
import proofs.«116521_j7662221656116_2_alg».proof.Proof.Spec

set_option maxRecDepth 16384

noncomputable section

open scoped BigOperators

namespace Cert.KernelIdeal.Reg3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored block at an entry: the rectified product of the row block with the transposed weight. -/
theorem pay1_apply (x0 : Vec Ideal S4000x128 .f32) (w : Vec Ideal S128x128 .f32) (j : S4000x128.Idx) :
    k3_pay1 x0 w j = Cert.Spec.reluLinT x0 w j := by
  unfold k3_pay1
  refine (maximumf_apply _ _ j).trans ?_
  refine congrArg₂ max ?_ rfl
  refine Eq.trans ?_ (Cert.Spec.matmulT_apply dot_S4000x128_S128x128_S4000x128_1_0_0_1_n_n_wf transposes_S128x128_p1_0_S128x128 none bitsLt_bf16_f32 x0 w j)
  rw [shapeCast_self]
  rfl

/-- An entry of the rectified product reads one row of the row operand: a block of rows gives the array's entry. -/
theorem reluLinT_rows {R T : Nat} (X : (⟨2, ![R, 128]⟩ : Shape).Idx → EReal) (W w : (⟨2, ![128, 128]⟩ : Shape).Idx → EReal)
    (x : (⟨2, ![T, 128]⟩ : Shape).Idx → EReal) (j : (⟨2, ![T, 128]⟩ : Shape).Idx) (i : (⟨2, ![R, 128]⟩ : Shape).Idx)
    (hx : ∀ c : Fin 128, x (ix2 (j 0) c) = X (ix2 (i 0) c)) (hw : w = W) (h1 : (i 1).val = (j 1).val) :
    Cert.Spec.reluLinT x w j = Cert.Spec.reluLinT X W i := by
  subst hw
  have e1 : (j 1 : Fin 128) = i 1 := Fin.ext h1.symm
  show max (∑ c : Fin 128, x (ix2 (j 0) c) * w (ix2 (j 1 : Fin 128) c)) Cert.Spec.z0
      = max (∑ c : Fin 128, X (ix2 (i 0) c) * w (ix2 (i 1 : Fin 128) c)) Cert.Spec.z0
  rw [e1]
  exact congrArg₂ max (Finset.sum_congr rfl fun c _ => by rw [hx c]) rfl

/-- The printed index maps over the grid: the row windows sit at block (t, 0), the weight at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row operand's block at point t holds rows 4000·t … 4000·t + 3999 of the array. -/
theorem iblk0_apply (c : Dev nD) (t : Fin cfg3.N) (x : S4000x128.Idx) (k : S20000x128.Idx)
    (hk0 : (k 0).val = 4000 * t.val + (x 0).val) (hk1 : (k 1).val = (x 1).val) :
    (iblk3 V c 0 t : Vec Ideal S4000x128 .f32) x = (V c main_v142 : S20000x128.Idx → EReal) k := by
  obtain ⟨e0, e1, -⟩ := idx_facts t
  unfold iblk3
  rw [View.read_apply]
  show (V c main_v142 : S20000x128.Idx → EReal) _ = (V c main_v142 : S20000x128.Idx → EReal) _
  refine congrArg _ ?_
  funext a
  apply Fin.ext
  match a with
  | ⟨0, _⟩ => show win3_0.index t (0 : Fin 2) * 4000 + 1 * (x 0).val = (k 0).val; rw [e0, hk0]; omega
  | ⟨1, _⟩ => show win3_0.index t (1 : Fin 2) * 128 + 1 * (x 1).val = (k 1).val; rw [e1, hk1]; omega

/-- The weight's block at every point is the whole weight. -/
theorem iblk1_eq (c : Dev nD) (t : Fin cfg3.N) :
    (iblk3 V c 1 t : Vec Ideal S128x128 .f32) = (V c main_arg17 : S128x128.Idx → EReal) := by
  obtain ⟨-, -, e2, e3, -⟩ := idx_facts t
  funext y
  unfold iblk3
  rw [View.read_apply]
  show (V c main_arg17 : S128x128.Idx → EReal) _ = (V c main_arg17 : S128x128.Idx → EReal) _
  refine congrArg _ ?_
  funext a
  apply Fin.ext
  match a with
  | ⟨0, _⟩ => show win3_1.index t (0 : Fin 2) * 128 + 1 * (y 0).val = (y 0).val; rw [e2]; omega
  | ⟨1, _⟩ => show win3_1.index t (1 : Fin 2) * 128 + 1 * (y 1).val = (y 1).val; rw [e3]; omega

/-- What point t writes back is block t of the rectified product of the whole arrays. -/
theorem flushed_eq (c : Dev nD) (t : Fin cfg3.N) :
    (dat3 (F := Ideal) V c).flushed 2 t
      = ((cfg3.win 2).blk t).view.read (Elt Ideal) (Cert.Spec.reluLinT (V c main_v142) (V c main_arg17)) := by
  show (cfg3.win 2).cut (grid3.coords t) ((dat3 V c).after 2 t) = _
  rw [after3_2]
  unfold out3_2
  rw [View.canon_unit_zero hz]
  simp only [View.ld_unit_zero (S := S4000x128) hz, View.ld_unit_zero (S := S128x128) hz]
  obtain ⟨-, -, -, -, e4, e5⟩ := idx_facts t
  funext j
  show k3_pay1 (iblk3 V c 0 t) (iblk3 V c 1 t) j
      = Cert.Spec.reluLinT (V c main_v142) (V c main_arg17) (((cfg3.win 2).blk t).view.emb j)
  refine (pay1_apply _ _ j).trans ?_
  refine reluLinT_rows _ _ _ _ j _ (fun q => ?_) (iblk1_eq V c t) ?_
  · refine iblk0_apply V c t _ _ ?_ ?_
    · show win3_2.index t (0 : Fin 2) * 4000 + 1 * (j 0).val = 4000 * t.val + (j 0).val
      rw [e4]; omega
    · rfl
  · show win3_2.index t (1 : Fin 2) * 128 + 1 * (j 1).val = (j 1).val
    rw [e5]; omega

/-- An entry of the array is in point t's block iff each coordinate is in the block's range on its axis. -/
theorem mem_blk (t : Fin cfg3.N) (i : S20000x128.Idx) :
    i ∈ ((cfg3.win 2).blk t).view.set ↔ ∀ a : Fin 2, win3_2.index t a * S4000x128.size a ≤ (i a).val
      ∧ (i a).val < win3_2.index t a * S4000x128.size a + S4000x128.size a := by
  show i ∈ ((View.whole main_v143).slice (win3_2.rect t)).set ↔ _
  rw [View.set_slice_whole, Rect.mem_set_unit]
  exact Iff.rfl

/-- Row r of the array is in the block of point r / 4000. -/
theorem cover (i : S20000x128.Idx) :
    ∃ t : Fin cfg3.N, (cfg3.win 2).flush t = true ∧ i ∈ ((cfg3.win 2).blk t).view.set := by
  have hi0 : (i 0).val < 20000 := (i 0).isLt
  have hi1 : (i 1).val < 128 := (i 1).isLt
  have hN : cfg3.N = 5 := N_3
  obtain ⟨t, ht⟩ : ∃ t : Fin cfg3.N, t.val = (i 0).val / 4000 := ⟨⟨(i 0).val / 4000, by rw [hN]; omega⟩, rfl⟩
  obtain ⟨-, -, -, -, e4, e5⟩ := idx_facts t
  refine ⟨t, flush3_2 t, ?_⟩
  rw [mem_blk]
  intro a
  match a with
  | ⟨0, _⟩ =>
    show win3_2.index t (0 : Fin 2) * 4000 ≤ (i 0).val ∧ (i 0).val < win3_2.index t (0 : Fin 2) * 4000 + 4000
    rw [e4, ht]; omega
  | ⟨1, _⟩ =>
    show win3_2.index t (1 : Fin 2) * 128 ≤ (i 1).val ∧ (i 1).val < win3_2.index t (1 : Fin 2) * 128 + 128
    rw [e5]; omega

/-- The result array after the region: the rectified product of the row operand with the transposed weight. -/
theorem arr_eq (c : Dev nD) :
    (dat3 (F := Ideal) V c).arrAt 2 cfg3.N = Cert.Spec.reluLinT (V c main_v142) (V c main_arg17) :=
  (dat3 V c).arrAt_eq_of_cover 2 _ (fun t _ => flushed_eq V c t) cover

end Cert.KernelIdeal.Reg3

end
-- ==== Proof.KRegs.lean ====
/-
  The four regions' arrays as functions of the launch memory. Before the first region the host cuts the two
  concatenated weights [128,256] into their halves and sets the bias vectors as rows [1,128] and the scale vectors as
  columns [·,1]; region 0 then leaves (vfeat · W1vᵀ + b1) · invDV, region 1 leaves efeat · W1eᵀ, efeat · W2eᵀ + b2 and
  efeat · invDE. Regions 2 and 3 take an array computed by the host stretch before them and leave its rectified
  product with a weight (and, for region 2, that product times a second weight).
-/
import proofs.«116521_j7662221656116_2_alg».proof.Proof.KArgs
import proofs.«116521_j7662221656116_2_alg».proof.Proof.Spec
import proofs.«116521_j7662221656116_2_alg».proof.Proof.Reg0
import proofs.«116521_j7662221656116_2_alg».proof.Proof.Reg1
import proofs.«116521_j7662221656116_2_alg».proof.Proof.Reg2
import proofs.«116521_j7662221656116_2_alg».proof.Proof.Reg3

set_option maxRecDepth 16384

noncomputable section

namespace Cert.KernelIdeal.Results

open Idealize.ShloMosaic Idealize.ShloMosaic.TcCoe Idealize.ShloMosaic.Tactic Idealize.SL.Sem Idealize.ShloMosaic.StableHlo
open Cert.KernelIdeal Cert.KernelIdeal.Gen Cert.Spec

variable (m : (ℓ : Loc nD τ sig) → Buf (Elt Ideal) ℓ) (ρ : Dev nD → PrngReg) (c : Dev nD)

/-! ## What the first host stretch writes -/

theorem W1_v0 : W1 m ρ c (Proc.devRef .tc main_v0) = extractStridedSlice S128x128 ![0, 0] (m ((c : Thread nD τ).loc main_arg12)) slices_S128x256_S128x128_0_0 := by
  show StableHlo.after hostOps0 (W0 m ρ c) (Proc.devRef .tc main_v0) = _
  dsimp only [hostOps0]; after_results
theorem W1_v1 : W1 m ρ c (Proc.devRef .tc main_v1) = extractStridedSlice S128x128 ![0, 128] (m ((c : Thread nD τ).loc main_arg12)) slices_S128x256_S128x128_0_128 := by
  show StableHlo.after hostOps0 (W0 m ρ c) (Proc.devRef .tc main_v1) = _
  dsimp only [hostOps0]; after_results
theorem W1_v2 : W1 m ρ c (Proc.devRef .tc main_v2) = extractStridedSlice S128x128 ![0, 0] (m ((c : Thread nD τ).loc main_arg14)) slices_S128x256_S128x128_0_0 := by
  show StableHlo.after hostOps0 (W0 m ρ c) (Proc.devRef .tc main_v2) = _
  dsimp only [hostOps0]; after_results
theorem W1_v3 : W1 m ρ c (Proc.devRef .tc main_v3) = extractStridedSlice S128x128 ![0, 128] (m ((c : Thread nD τ).loc main_arg14)) slices_S128x256_S128x128_0_128 := by
  show StableHlo.after hostOps0 (W0 m ρ c) (Proc.devRef .tc main_v3) = _
  dsimp only [hostOps0]; after_results
theorem W1_v4 : W1 m ρ c (Proc.devRef .tc main_v4) = broadcastInDim S100000x1 ![0] bcast_S100000_S100000x1_0 (m ((c : Thread nD τ).loc main_arg2)) := by
  show StableHlo.after hostOps0 (W0 m ρ c) (Proc.devRef .tc main_v4) = _
  dsimp only [hostOps0]; after_results
theorem W1_v5 : W1 m ρ c (Proc.devRef .tc main_v5) = broadcastInDim S20000x1 ![0] bcast_S20000_S20000x1_0 (m ((c : Thread nD τ).loc main_arg3)) := by
  show StableHlo.after hostOps0 (W0 m ρ c) (Proc.devRef .tc main_v5) = _
  dsimp only [hostOps0]; after_results
theorem W1_v6 : W1 m ρ c (Proc.devRef .tc main_v6) = broadcastInDim S1x128 ![1] bcast_S128_S1x128_1 (m ((c : Thread nD τ).loc main_arg13)) := by
  show StableHlo.after hostOps0 (W0 m ρ c) (Proc.devRef .tc main_v6) = _
  dsimp only [hostOps0]; after_results
theorem W1_v7 : W1 m ρ c (Proc.devRef .tc main_v7) = broadcastInDim S1x128 ![1] bcast_S128_S1x128_1 (m ((c : Thread nD τ).loc main_arg15)) := by
  show StableHlo.after hostOps0 (W0 m ρ c) (Proc.devRef .tc main_v7) = _
  dsimp only [hostOps0]; after_results

/-! ## Region 0: the scaled, biased node product -/

/-- `(vfeat · W1vᵀ + b1) · invDV`. -/
abbrev nodeScaled : FVec Ideal S100000x128 .f32 :=
  linBiasScale (m ((c : Thread nD τ).loc main_arg0)) (extractStridedSlice S128x128 ![0, 0] (m ((c : Thread nD τ).loc main_arg12)) slices_S128x256_S128x128_0_0)
    (broadcastInDim S1x128 ![1] bcast_S128_S1x128_1 (m ((c : Thread nD τ).loc main_arg13))) (broadcastInDim S100000x1 ![0] bcast_S100000_S100000x1_0 (m ((c : Thread nD τ).loc main_arg2)))

theorem W3_v8_eq : W3 m ρ c (Proc.devRef .tc main_v8) = nodeScaled m c := by
  rw [W3_v8]
  refine (W2_arr m ρ c 4).trans ?_
  rw [Cert.KernelIdeal.Reg0.arr4 (V1 m ρ) c]
  show linBiasScale (W1 m ρ c (Proc.devRef .tc main_arg0)) (W1 m ρ c (Proc.devRef .tc main_v0))
    (W1 m ρ c (Proc.devRef .tc main_v6)) (W1 m ρ c (Proc.devRef .tc main_v4)) = _
  rw [W1_arg0, W1_v0, W1_v6, W1_v4]

/-! ## Region 1: the three hyperedge arrays -/

/-- `efeat · W1eᵀ`. -/
abbrev edgeProd1 : FVec Ideal S20000x128 .f32 :=
  linT (m ((c : Thread nD τ).loc main_arg1)) (extractStridedSlice S128x128 ![0, 128] (m ((c : Thread nD τ).loc main_arg12)) slices_S128x256_S128x128_0_128)
/-- `efeat · W2eᵀ + b2`. -/
abbrev edgeProd2 : FVec Ideal S20000x128 .f32 :=
  linBias (m ((c : Thread nD τ).loc main_arg1)) (extractStridedSlice S128x128 ![0, 128] (m ((c : Thread nD τ).loc main_arg14)) slices_S128x256_S128x128_0_128)
    (broadcastInDim S1x128 ![1] bcast_S128_S1x128_1 (m ((c : Thread nD τ).loc main_arg15)))
/-- `efeat · invDE`. -/
abbrev edgeScaled : FVec Ideal S20000x128 .f32 :=
  rowScale (m ((c : Thread nD τ).loc main_arg1)) (broadcastInDim S20000x1 ![0] bcast_S20000_S20000x1_0 (m ((c : Thread nD τ).loc main_arg3)))

theorem W3_v9_0_eq : W3 m ρ c (Proc.devRef .tc main_v9_0) = edgeProd1 m c := by
  refine (W3_arr m ρ c 5).trans ?_
  rw [Cert.KernelIdeal.Reg1.arr5 (V2 m ρ) c]
  show linT (W2 m ρ c (Proc.devRef .tc main_arg1)) (W2 m ρ c (Proc.devRef .tc main_v1)) = _
  rw [W2_arg1, W2_v1, W1_v1]

theorem W3_v9_1_eq : W3 m ρ c (Proc.devRef .tc main_v9_1) = edgeProd2 m c := by
  refine (W3_arr m ρ c 6).trans ?_
  rw [Cert.KernelIdeal.Reg1.arr6 (V2 m ρ) c]
  show linBias (W2 m ρ c (Proc.devRef .tc main_arg1)) (W2 m ρ c (Proc.devRef .tc main_v3)) (W2 m ρ c (Proc.devRef .tc main_v7)) = _
  rw [W2_arg1, W2_v3, W1_v3, W2_v7, W1_v7]

theorem W3_v9_2_eq : W3 m ρ c (Proc.devRef .tc main_v9_2) = edgeScaled m c := by
  refine (W3_arr m ρ c 7).trans ?_
  rw [Cert.KernelIdeal.Reg1.arr7 (V2 m ρ) c]
  show rowScale (W2 m ρ c (Proc.devRef .tc main_arg1)) (W2 m ρ c (Proc.devRef .tc main_v5)) = _
  rw [W2_arg1, W2_v5, W1_v5]

/-! ## Regions 2 and 3, from the array the host stretch before them leaves -/

theorem W5_v75_0_eq : W5 m ρ c (Proc.devRef .tc main_v75_0)
    = reluLinT (W4 m ρ c (Proc.devRef .tc main_v74)) (m ((c : Thread nD τ).loc main_arg16)) := by
  refine (W5_arr m ρ c 3).trans ?_
  rw [Cert.KernelIdeal.Reg2.arr3_eq (V4 m ρ) c]
  show reluLinT (W4 m ρ c (Proc.devRef .tc main_v74)) (W4 m ρ c (Proc.devRef .tc main_arg16)) = _
  rw [W4_arg16]

theorem W5_v75_1_eq : W5 m ρ c (Proc.devRef .tc main_v75_1)
    = linT (reluLinT (W4 m ρ c (Proc.devRef .tc main_v74)) (m ((c : Thread nD τ).loc main_arg16)))
        (extractStridedSlice S128x128 ![0, 0] (m ((c : Thread nD τ).loc main_arg14)) slices_S128x256_S128x128_0_0) := by
  refine (W5_arr m ρ c 4).trans ?_
  rw [Cert.KernelIdeal.Reg2.arr4_eq (V4 m ρ) c]
  show linT (reluLinT (W4 m ρ c (Proc.devRef .tc main_v74)) (W4 m ρ c (Proc.devRef .tc main_arg16)))
    (W4 m ρ c (Proc.devRef .tc main_v2)) = _
  rw [W4_arg16, W4_v2, W1_v2]

theorem W7_v143_eq : W7 m ρ c (Proc.devRef .tc main_v143)
    = reluLinT (W6 m ρ c (Proc.devRef .tc main_v142)) (m ((c : Thread nD τ).loc main_arg17)) := by
  refine (W7_arr m ρ c 2).trans ?_
  rw [Cert.KernelIdeal.Reg3.arr_eq (V6 m ρ) c]
  show reluLinT (W6 m ρ c (Proc.devRef .tc main_v142)) (W6 m ρ c (Proc.devRef .tc main_arg17)) = _
  rw [W6_arg17]

theorem W7_v75_0_eq : W7 m ρ c (Proc.devRef .tc main_v75_0)
    = reluLinT (W4 m ρ c (Proc.devRef .tc main_v74)) (m ((c : Thread nD τ).loc main_arg16)) := by
  rw [W7_v75_0, W6_v75_0, W5_v75_0_eq]

end Cert.KernelIdeal.Results

end
-- ==== Proof.LibGatherRows.lean ====
/-
  A gather of whole rows, read at an index. For a table x : [N, D] and one row number per result row,
  idx : [R, 1], the gather with one offset axis (the result's axis 1), the table's axis 0 collapsed and named by
  the start index, and slices [1, D], produces the [R, D] array whose row t is the table's row idx[t, 0]: the
  start index is read as a signed integer and clamped into [0, N − 1], and the column is the result's own column.
  The same with one more batch axis: idx : [R, A, 1] and result [R, A, D], row (t, a) being the table's row
  idx[t, a, 0].
-/
import Idealize.ShloMosaic.Lib.ValueIdx

noncomputable section

namespace Idealize.ShloMosaic.ValueIdx

open Idealize.ShloMosaic

section Rows
variable {α : Type}

/-- The dimension numbers of a row gather: operand [N, D], start indices [R, 1], result [R, D]. -/
abbrev rowsDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices index [t, 0] of result index (t, j). -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The row gather at (t, j): the table at row idx[t, 0] (signed, clamped into [0, N − 1]) and column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N D R wf) x idx y
      = x (ix2 ⟨min (idx (rowsIdx y)).toInt.toNat (N - 1), by omega⟩ ⟨(y 1).val, idx2_lt1 y⟩) := by
  unfold Host.gather
  congr 1
  funext a
  refine Fin.ext ?_
  show (rowsDims N D R wf).start y idx a + (rowsDims N D R wf).batchCoord y a + (rowsDims N D R wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowsDims N D R wf).startIndexMap from List.mem_singleton.mpr rfl)]
    have hsi : (rowsDims N D R wf).siIdx y ⟨List.idxOf (⟨0, by decide⟩ : Fin 2) (rowsDims N D R wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  | ⟨1, _⟩ =>
    unfold GatherDims.start
    rw [dif_neg (show (⟨1, by decide⟩ : Fin 2) ∉ (rowsDims N D R wf).startIndexMap from
      fun h => absurd (congrArg Fin.val (List.mem_singleton.mp h)) Nat.one_ne_zero)]
    simp only [Nat.zero_add]
    rfl

end Rows

section Rows3
variable {α : Type}

/-- The dimension numbers of a row gather with two batch axes: operand [N, D], start indices [R, A, 1], result
    [R, A, D]. -/
abbrev rows3Dims (N D R A : Nat) (wf : GatherDims.WF ⟨2, ![N, D]⟩ ⟨3, ![R, A, 1]⟩ ⟨3, ![R, A, D]⟩ [2] [0] [] [0] [] 2 ![1, D]) :
    GatherDims ⟨2, ![N, D]⟩ ⟨3, ![R, A, 1]⟩ ⟨3, ![R, A, D]⟩ where
  offsetDims := [2]
  collapsedSliceDims := [0]
  operandBatchingDims := []
  startIndicesBatchingDims := []
  startIndexMap := [0]
  indexVectorDim := 2
  sliceSizes := ![1, D]
  wf := wf

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The start-indices index [t, a, 0] of result index (t, a, j). -/
abbrev rows3Idx {R A D : Nat} (y : (⟨3, ![R, A, D]⟩ : Shape).Idx) : (⟨3, ![R, A, 1]⟩ : Shape).Idx :=
  fun b => match b with | ⟨0, _⟩ => ⟨(y 0).val, idx3_lt0 y⟩ | ⟨1, _⟩ => ⟨(y 1).val, idx3_lt1 y⟩ | ⟨2, _⟩ => ⟨0, Nat.one_pos⟩

/-- The row gather at (t, a, j): the table at row idx[t, a, 0] (signed, clamped into [0, N − 1]) and column j. -/
theorem gather_rows3_apply {N D R A w : Nat} (hN : 0 < N)
    (wf : GatherDims.WF ⟨2, ![N, D]⟩ ⟨3, ![R, A, 1]⟩ ⟨3, ![R, A, D]⟩ [2] [0] [] [0] [] 2 ![1, D])
    (x : (⟨2, ![N, D]⟩ : Shape).Idx → α) (idx : IVec ⟨3, ![R, A, 1]⟩ w) (y : (⟨3, ![R, A, D]⟩ : Shape).Idx) :
    Host.gather (rows3Dims N D R A wf) x idx y
      = x (ix2 ⟨min (idx (rows3Idx y)).toInt.toNat (N - 1), by omega⟩ ⟨(y 2).val, idx3_lt2 y⟩) := by
  unfold Host.gather
  congr 1
  funext a
  refine Fin.ext ?_
  show (rows3Dims N D R A wf).start y idx a + (rows3Dims N D R A wf).batchCoord y a + (rows3Dims N D R A wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rows3Dims N D R A wf).startIndexMap from List.mem_singleton.mpr rfl)]
    have hsi : (rows3Dims N D R A wf).siIdx y ⟨List.idxOf (⟨0, by decide⟩ : Fin 2) (rows3Dims N D R A wf).startIndexMap,
        List.idxOf_lt_length_iff.2 (List.mem_singleton.mpr rfl)⟩ = rows3Idx y := by
      funext b; refine Fin.ext ?_
      match b with
      | ⟨0, _⟩ => rfl
      | ⟨1, _⟩ => rfl
      | ⟨2, _⟩ => rfl
    rw [hsi]
    rfl
  | ⟨1, _⟩ =>
    unfold GatherDims.start
    rw [dif_neg (show (⟨1, by decide⟩ : Fin 2) ∉ (rows3Dims N D R A wf).startIndexMap from
      fun h => absurd (congrArg Fin.val (List.mem_singleton.mp h)) Nat.one_ne_zero)]
    simp only [Nat.zero_add]
    rfl

end Rows3

/-! ## Looking a row up by a signed word in range

jnp's indexing first wraps a negative index by the table's height, select (i < 0) (i + n) i: for an index that is
not negative this is the index itself. The gather then clamps the start index, read as a signed integer, into
[0, N − 1]: for a word w with 0 ≤ w (signed) and w < N the clamped start is w itself. -/

/-- A signed word that is not negative is not below zero in the signed order. -/
theorem cmpi_slt_zero_of_nonneg (w : BitVec 32) (h : 0 ≤ w.toInt) : IntOp.cmpi .slt w (0#32) = 0#1 := by
  unfold IntOp.cmpi
  have : w.slt (0#32) = false := by
    simp only [BitVec.slt, BitVec.toInt_zero, decide_eq_false_iff_not, not_lt]
    exact h
  simp [this]

/-- The negative-index wrap leaves a non-negative index alone. -/
theorem wrap_of_nonneg {α : Type} (w : BitVec 32) (h : 0 ≤ w.toInt) (a b : α) :
    Scalar.select (IntOp.cmpi .slt w (0#32)) a b = b := by
  rw [cmpi_slt_zero_of_nonneg w h]; exact select_zero a b

/-- For a signed word in [0, N) the clamp of a gather's start index is the word's own value. -/
theorem clamp_of_range (w : BitVec 32) (N : Nat) (h0 : 0 ≤ w.toInt) (hlt : w.toNat < N) :
    min w.toInt.toNat (N - 1) = w.toNat := by
  have e : w.toInt.toNat = w.toNat := by
    have := BitVec.toInt_eq_toNat_cond w
    split at this <;> omega
  rw [e]; omega

section
variable {α : Type}

/-- A row gather whose start index at row t is a signed word in [0, N) reads that row of the table. -/
theorem gather_rows_of_word {N D R : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ 32) (y : (⟨2, ![R, D]⟩ : Shape).Idx)
    (w : BitVec 32) (hw : idx (rowsIdx y) = w) (h0 : 0 ≤ w.toInt) (hlt : w.toNat < N) :
    Host.gather (rowsDims N D R wf) x idx y = x (ix2 ⟨w.toNat, hlt⟩ ⟨(y 1).val, idx2_lt1 y⟩) := by
  rw [gather_rows_apply hN wf x idx y]
  refine congrArg x ?_
  refine congrArg (fun r => ix2 r (⟨(y 1).val, idx2_lt1 y⟩ : Fin D)) (Fin.ext ?_)
  show min (idx (rowsIdx y)).toInt.toNat (N - 1) = w.toNat
  rw [hw]; exact clamp_of_range w N h0 hlt

/-- The same with two batch axes. -/
theorem gather_rows3_of_word {N D R A : Nat} (hN : 0 < N)
    (wf : GatherDims.WF ⟨2, ![N, D]⟩ ⟨3, ![R, A, 1]⟩ ⟨3, ![R, A, D]⟩ [2] [0] [] [0] [] 2 ![1, D])
    (x : (⟨2, ![N, D]⟩ : Shape).Idx → α) (idx : IVec ⟨3, ![R, A, 1]⟩ 32) (y : (⟨3, ![R, A, D]⟩ : Shape).Idx)
    (w : BitVec 32) (hw : idx (rows3Idx y) = w) (h0 : 0 ≤ w.toInt) (hlt : w.toNat < N) :
    Host.gather (rows3Dims N D R A wf) x idx y = x (ix2 ⟨w.toNat, hlt⟩ ⟨(y 2).val, idx3_lt2 y⟩) := by
  rw [gather_rows3_apply hN wf x idx y]
  refine congrArg x ?_
  refine congrArg (fun r => ix2 r (⟨(y 2).val, idx3_lt2 y⟩ : Fin D)) (Fin.ext ?_)
  show min (idx (rows3Idx y)).toInt.toNat (N - 1) = w.toNat
  rw [hw]; exact clamp_of_range w N h0 hlt

end

end Idealize.ShloMosaic.ValueIdx

end
-- ==== Proof.LibScatterAddRows.lean ====
/-
  An accumulating scatter of whole rows, read at an index, at the exact (extended-real) instance. For an operand
  x : [N, D], one row number per update row, idx : [R, 1], and updates upd : [R, D], the scatter with an add body,
  one update window axis (the updates' axis 1), the operand's axis 0 inserted and named by the scatter index, adds
  update row e into operand row idx[e, 0]. The row number is read as a signed integer and is NOT clamped: an update
  row whose number is outside [0, N) is dropped. So the result at (i, k) is x[i, k] plus the sum of upd[e, k] over
  the update rows e that land on row i. The same for a vector operand x : [N] with updates upd : [R]: the result
  at i is x[i] plus the sum of upd[e] over the e that land on i.
-/
import Idealize.ShloMosaic.Lib.ValueIdx

noncomputable section

open scoped BigOperators

namespace Idealize.ShloMosaic.ValueIdx

open Idealize.ShloMosaic

/-- operand [N, D], scatter indices [R, 1], updates [R, D]: update row e is added into operand row idx[e,0] -/
abbrev rowsScatterDims (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- operand [N], scatter indices [R, 1], updates [R] -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- the operand row update row e lands on: idx[e,0] read signed, when it is in [0, N); none otherwise -/
def landRow (N : Nat) {R w : Nat} (idx : IVec ⟨2, ![R, 1]⟩ w) (e : Fin R) : Option (Fin N) :=
  if h : 0 ≤ (idx (ix2 e ⟨0, Nat.one_pos⟩)).toInt ∧ (idx (ix2 e ⟨0, Nat.one_pos⟩)).toInt < N then
    some ⟨(idx (ix2 e ⟨0, Nat.one_pos⟩)).toInt.toNat, by omega⟩
  else none

/-- Two rank-2 indices given by coordinates are equal only when the coordinates are. -/
theorem ix2_inj {n0 n1 : Nat} {a a' : Fin n0} {b b' : Fin n1} (h : ix2 a b = ix2 a' b') : a = a' ∧ b = b' := by
  have h0 := congrFun h (⟨0, by decide⟩ : Fin 2)
  have h1 := congrFun h (⟨1, by decide⟩ : Fin 2)
  exact ⟨h0, h1⟩

section Rows
variable {N D R w : Nat} (wf : ScatterDims.WF ⟨2, ![N, D]⟩ ⟨2, ![R, 1]⟩ ⟨2, ![R, D]⟩ [1] [0] [0] 1)

/-- On the operand's row axis the window starts at the row number idx[e, 0], read signed. -/
theorem rows_start0 (idx : IVec ⟨2, ![R, 1]⟩ w) (e : Fin R) (k' : Fin D) :
    (rowsScatterDims N D R wf).start (ix2 e k') idx (⟨0, by decide⟩ : Fin 2) = (idx (ix2 e ⟨0, Nat.one_pos⟩)).toInt := by
  unfold ScatterDims.start
  rw [dif_pos (show (⟨0, by decide⟩ : Fin 2) ∈ (rowsScatterDims N D R wf).scatterDimsToOperandDims from
    List.mem_singleton.mpr rfl)]
  have hsi : (rowsScatterDims N D R wf).siIdx (ix2 e k')
      ⟨List.idxOf (⟨0, by decide⟩ : Fin 2) (rowsScatterDims N D R wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the operand's column axis the window starts at 0: the scatter index names no column. -/
theorem rows_start1 (idx : IVec ⟨2, ![R, 1]⟩ w) (e : Fin R) (k' : Fin D) :
    (rowsScatterDims N D R wf).start (ix2 e k') idx (⟨1, by decide⟩ : Fin 2) = 0 := by
  unfold ScatterDims.start
  rw [dif_neg (show (⟨1, by decide⟩ : Fin 2) ∉ (rowsScatterDims N D R wf).scatterDimsToOperandDims from
    fun h => absurd (congrArg Fin.val (List.mem_singleton.mp h)) Nat.one_ne_zero)]

/-- The row axis is inserted: its window coordinate is 0. -/
theorem rows_window0 (e : Fin R) (k' : Fin D) :
    (rowsScatterDims N D R wf).window (ix2 e k') (⟨0, by decide⟩ : Fin 2) = 0 := rfl

/-- The column axis carries the update's column. -/
theorem rows_window1 (e : Fin R) (k' : Fin D) :
    (rowsScatterDims N D R wf).window (ix2 e k') (⟨1, by decide⟩ : Fin 2) = k'.val := rfl

/-- Update element (e, k') lands on operand element (row e lands on, k'), when row e lands at all. -/
theorem resultIdx?_rows (idx : IVec ⟨2, ![R, 1]⟩ w) (e : Fin R) (k' : Fin D) :
    (rowsScatterDims N D R wf).resultIdx? (ix2 e k') idx = (landRow N idx e).map (fun i => ix2 i k') := by
  have hs0 := rows_start0 wf idx e k'
  have hs1 := rows_start1 wf idx e k'
  have hw0 := rows_window0 wf e k'
  have hw1 := rows_window1 wf e k'
  unfold ScatterDims.resultIdx? landRow
  by_cases h : 0 ≤ (idx (ix2 e ⟨0, Nat.one_pos⟩)).toInt ∧ (idx (ix2 e ⟨0, Nat.one_pos⟩)).toInt < N
  · have hall : ∀ a : Fin 2, 0 ≤ (rowsScatterDims N D R wf).start (ix2 e k') idx a + (rowsScatterDims N D R wf).window (ix2 e k') a ∧
        (rowsScatterDims N D R wf).start (ix2 e k') idx a + (rowsScatterDims N D R wf).window (ix2 e k') a
          < (⟨2, ![N, D]⟩ : Shape).size a := by
      intro a
      match a with
      | ⟨0, _⟩ =>
        rw [hs0, hw0]
        show _ ∧ _ < ((N : Nat) : Int)
        omega
      | ⟨1, _⟩ =>
        rw [hs1, hw1]
        show _ ∧ _ < ((D : Nat) : Int)
        have := k'.isLt
        omega
    rw [dif_pos hall, dif_pos h]
    show _ = some _
    congr 1
    funext a
    refine Fin.ext ?_
    match a with
    | ⟨0, _⟩ =>
      show ((rowsScatterDims N D R wf).start (ix2 e k') idx (⟨0, by decide⟩ : Fin 2) + (rowsScatterDims N D R wf).window (ix2 e k') (⟨0, by decide⟩ : Fin 2)).toNat = _
      rw [hs0, hw0]
      simp
    | ⟨1, _⟩ =>
      show ((rowsScatterDims N D R wf).start (ix2 e k') idx (⟨1, by decide⟩ : Fin 2) + (rowsScatterDims N D R wf).window (ix2 e k') (⟨1, by decide⟩ : Fin 2)).toNat = _
      rw [hs1, hw1]
      simp
  · rw [dif_neg h, dif_neg]
    · rfl
    · intro hall
      have h0 := hall (⟨0, by decide⟩ : Fin 2)
      rw [hs0, hw0] at h0
      apply h
      have h0' : 0 ≤ (idx (ix2 e ⟨0, Nat.one_pos⟩)).toInt + ((0 : Nat) : Int) ∧
          (idx (ix2 e ⟨0, Nat.one_pos⟩)).toInt + ((0 : Nat) : Int) < ((N : Nat) : Int) := h0
      omega

/-- The accumulating row scatter at (i, k): the operand there plus the updates' column k over the update rows
    that land on row i. -/
theorem scatterAdd_rows_apply (x : (⟨2, ![N, D]⟩ : Shape).Idx → EReal) (idx : IVec ⟨2, ![R, 1]⟩ w)
    (upd : (⟨2, ![R, D]⟩ : Shape).Idx → EReal) (i : Fin N) (k : Fin D) :
    Host.scatterAdd (F := Ideal) (φ := .f32) (rowsScatterDims N D R wf) x idx upd (ix2 i k)
      = x (ix2 i k) + ∑ e ∈ Finset.univ.filter (fun e : Fin R => landRow N idx e = some i), upd (ix2 e k) := by
  show x (ix2 i k) + ∑ j ∈ Finset.univ.filter
      (fun j => (rowsScatterDims N D R wf).resultIdx? j idx = some (ix2 i k)), upd j = _
  congr 1
  rw [Finset.sum_filter, Finset.sum_filter, sum_idx2]
  refine Finset.sum_congr rfl (fun e _ => ?_)
  by_cases hl : landRow N idx e = some i
  · rw [if_pos hl, Finset.sum_eq_single k]
    · rw [if_pos]
      rw [resultIdx?_rows, hl]; rfl
    · intro k' _ hk'
      rw [if_neg]
      rw [resultIdx?_rows, hl]
      intro h
      exact hk' (ix2_inj (Option.some.inj h)).2
    · intro h; exact absurd (Finset.mem_univ k) h
  · rw [if_neg hl]
    refine Finset.sum_eq_zero (fun k' _ => ?_)
    rw [if_neg]
    rw [resultIdx?_rows]
    intro h
    apply hl
    cases hr : landRow N idx e with
    | none => rw [hr] at h; exact absurd h (by simp)
    | some i' =>
      rw [hr] at h
      exact congrArg some (ix2_inj (Option.some.inj h)).1

end Rows

/-! ## A vector operand -/

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Two rank-1 indices given by their coordinate are equal only when the coordinates are. -/
theorem ix1_inj {n : Nat} {a a' : Fin n} (h : ix1 a = ix1 a') : a = a' := by
  have h0 := congrFun h (⟨0, by decide⟩ : Fin 1)
  exact h0

section Vec
variable {N R w : Nat} (wf : ScatterDims.WF ⟨1, ![N]⟩ ⟨2, ![R, 1]⟩ ⟨1, ![R]⟩ [] [0] [0] 1)

/-- On the operand's one axis the window starts at the row number idx[e, 0], read signed. -/
theorem vec_start0 (idx : IVec ⟨2, ![R, 1]⟩ w) (e : Fin R) :
    (vecScatterDims N R wf).start (ix1 e) idx (⟨0, by decide⟩ : Fin 1) = (idx (ix2 e ⟨0, Nat.one_pos⟩)).toInt := by
  unfold ScatterDims.start
  rw [dif_pos (show (⟨0, by decide⟩ : Fin 1) ∈ (vecScatterDims N R wf).scatterDimsToOperandDims from
    List.mem_singleton.mpr rfl)]
  have hsi : (vecScatterDims N R wf).siIdx (ix1 e)
      ⟨List.idxOf (⟨0, by decide⟩ : Fin 1) (vecScatterDims N R wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The operand's one axis is inserted: its window coordinate is 0. -/
theorem vec_window0 (e : Fin R) :
    (vecScatterDims N R wf).window (ix1 e) (⟨0, by decide⟩ : Fin 1) = 0 := rfl

/-- Update element e lands on the operand element row e lands on, when it lands at all. -/
theorem resultIdx?_vec (idx : IVec ⟨2, ![R, 1]⟩ w) (e : Fin R) :
    (vecScatterDims N R wf).resultIdx? (ix1 e) idx = (landRow N idx e).map (fun i => ix1 i) := by
  have hs0 := vec_start0 wf idx e
  have hw0 := vec_window0 wf e
  unfold ScatterDims.resultIdx? landRow
  by_cases h : 0 ≤ (idx (ix2 e ⟨0, Nat.one_pos⟩)).toInt ∧ (idx (ix2 e ⟨0, Nat.one_pos⟩)).toInt < N
  · have hall : ∀ a : Fin 1, 0 ≤ (vecScatterDims N R wf).start (ix1 e) idx a + (vecScatterDims N R wf).window (ix1 e) a ∧
        (vecScatterDims N R wf).start (ix1 e) idx a + (vecScatterDims N R wf).window (ix1 e) a
          < (⟨1, ![N]⟩ : Shape).size a := by
      intro a
      match a with
      | ⟨0, _⟩ =>
        rw [hs0, hw0]
        show _ ∧ _ < ((N : Nat) : Int)
        omega
    rw [dif_pos hall, dif_pos h]
    show _ = some _
    congr 1
    funext a
    refine Fin.ext ?_
    match a with
    | ⟨0, _⟩ =>
      show ((vecScatterDims N R wf).start (ix1 e) idx (⟨0, by decide⟩ : Fin 1) + (vecScatterDims N R wf).window (ix1 e) (⟨0, by decide⟩ : Fin 1)).toNat = _
      rw [hs0, hw0]
      simp
  · rw [dif_neg h, dif_neg]
    · rfl
    · intro hall
      have h0 := hall (⟨0, by decide⟩ : Fin 1)
      rw [hs0, hw0] at h0
      apply h
      have h0' : 0 ≤ (idx (ix2 e ⟨0, Nat.one_pos⟩)).toInt + ((0 : Nat) : Int) ∧
          (idx (ix2 e ⟨0, Nat.one_pos⟩)).toInt + ((0 : Nat) : Int) < ((N : Nat) : Int) := h0
      omega

/-- The accumulating vector scatter at i: the operand there plus the updates that land on i. -/
theorem scatterAdd_vec_apply (x : (⟨1, ![N]⟩ : Shape).Idx → EReal) (idx : IVec ⟨2, ![R, 1]⟩ w)
    (upd : (⟨1, ![R]⟩ : Shape).Idx → EReal) (i : Fin N) :
    Host.scatterAdd (F := Ideal) (φ := .f32) (vecScatterDims N R wf) x idx upd (ix1 i)
      = x (ix1 i) + ∑ e ∈ Finset.univ.filter (fun e : Fin R => landRow N idx e = some i), upd (ix1 e) := by
  show x (ix1 i) + ∑ j ∈ Finset.univ.filter
      (fun j => (vecScatterDims N R wf).resultIdx? j idx = some (ix1 i)), upd j = _
  congr 1
  rw [Finset.sum_filter, Finset.sum_filter, sum_idx1]
  refine Finset.sum_congr rfl (fun e _ => ?_)
  by_cases hl : landRow N idx e = some i
  · rw [if_pos hl, if_pos]
    rw [resultIdx?_vec, hl]; rfl
  · rw [if_neg hl, if_neg]
    rw [resultIdx?_vec]
    intro h
    apply hl
    cases hr : landRow N idx e with
    | none => rw [hr] at h; exact absurd h (by simp)
    | some i' =>
      rw [hr] at h
      exact congrArg some (ix1_inj (Option.some.inj h))

end Vec

end Idealize.ShloMosaic.ValueIdx

end
-- ==== Proof.LibGraphConv.lean ====
/-
  General lemmas for graph aggregation on the extended reals, importing no program.
  A graph convolution aggregates, into node n, the messages of the edges e whose destination is n. One way scales each
  message by both end points' normalisation entries, d(src e) · d(dst e), before adding; another scales the message by
  d(src e) only, adds, and multiplies the sum by d(n) afterwards. Since d(dst e) = d(n) for every edge that lands on n,
  and d(n) is a non-negative finite number, multiplying by it distributes over the sum, on the extended reals as on the
  reals (sum_mul_of_nonneg, agg_law), and the two host programs — row gather, scale, accumulating row scatter — agree
  entry by entry for any extents (conv_generic). A degree that is a count of ones is a real (count_real), and its
  guarded power is a non-negative finite number (select_pow_fin); minus one half as a float pattern
  (ofBits_neg_half_f32). Also: arrays read at an index through broadcast_in_dim of a vector to a column or a row, of a
  column over columns, of a row over rows, of a scalar over anything (bid_col, bid_cols, bid_row, bid_rows,
  bid_scalar); a vector gathered by one-column row numbers (vecGatherDims, gather_vec_apply); a row gather read at
  (e, j) with the clamped row named (clampRow, gather_rows_at); the index word of an update row that lands
  (landRow_word).
-/
import proofs.«116521_j7662221656116_2_alg».proof.Proof.LibGatherRows
import proofs.«116521_j7662221656116_2_alg».proof.Proof.LibScatterAddRows
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.GcnLaw

open Idealize.ShloMosaic Idealize.ShloMosaic.ValueIdx

/-! ## Scaling a sum by a non-negative finite factor -/

/-- Multiplying each term by a non-negative finite extended real multiplies the sum. -/
theorem sum_mul_of_nonneg {ι : Type} (S : Finset ι) (f : ι → EReal) (D : EReal) (h0 : 0 ≤ D) (ht : D ≠ ⊤) :
    ∑ e ∈ S, f e * D = (∑ e ∈ S, f e) * D := by
  classical
  induction S using Finset.induction_on with
  | empty => simp
  | insert a s ha ih =>
    rw [Finset.sum_insert ha, Finset.sum_insert ha, ih, EReal.right_distrib_of_nonneg_of_ne_top h0 ht]

/-- The aggregation law at one entry: messages h(e) scaled by a(e) · b(e), where b(e) is the same non-negative finite
    D on every edge of the sum, add up to D times the sum of the messages scaled by a(e) alone. -/
theorem agg_law {ι : Type} (S : Finset ι) (h a b : ι → EReal) (D : EReal) (h0 : 0 ≤ D) (ht : D ≠ ⊤)
    (hb : ∀ e ∈ S, b e = D) :
    (0 : EReal) + ∑ e ∈ S, h e * (a e * b e) = ((0 : EReal) + ∑ e ∈ S, h e * a e) * D := by
  rw [zero_add, zero_add, ← sum_mul_of_nonneg S _ D h0 ht]
  exact Finset.sum_congr rfl fun e he => by rw [hb e he, mul_assoc]

/-! ## The normalisation entry is a non-negative real -/

/-- The float pattern of minus one half. -/
theorem ofBits_neg_half_f32 : Ideal.ofBits .f32 0xBF000000#32 = (((-(1 / 2) : ℝ)) : EReal) := by
  simp [Ideal.ofBits, Ideal.ieee, -EReal.coe_mul, -EReal.coe_neg]; norm_num

/-- A count of ones, started from zero, is a non-negative real. -/
theorem count_real {ι : Type} (S : Finset ι) :
    Ideal.ofBits .f32 0x00000000#32 + ∑ _e ∈ S, Ideal.ofBits .f32 0x3F800000#32 = ((S.card : ℝ) : EReal) := by
  rw [Ideal.ofBits_zero_f32, Ideal.ofBits_one_f32, zero_add, Finset.sum_const, ← EReal.coe_one, ← EReal.coe_nsmul]
  congr 1
  simp

/-- A power of a non-negative real, or zero, whichever a one-bit mask selects, is non-negative and finite. -/
theorem select_pow_fin (c : BitVec 1) (r y : ℝ) (hr : 0 ≤ r) :
    0 ≤ Scalar.select c (Ideal.pow (r : EReal) (y : EReal)) (Ideal.ofBits .f32 0x00000000#32)
      ∧ Scalar.select c (Ideal.pow (r : EReal) (y : EReal)) (Ideal.ofBits .f32 0x00000000#32) ≠ ⊤ := by
  by_cases hc : c = 1#1
  · rw [hc, select_one]
    show 0 ≤ ((Real.rpow r y : ℝ) : EReal) ∧ ((Real.rpow r y : ℝ) : EReal) ≠ ⊤
    exact ⟨EReal.coe_nonneg.mpr (Real.rpow_nonneg hr y), EReal.coe_ne_top _⟩
  · rw [eq_zero_of_ne_one hc, select_zero, Ideal.ofBits_zero_f32]
    exact ⟨le_refl 0, EReal.zero_ne_top⟩

/-! ## Broadcasts read at an index -/

section Layout
variable {α : Type}

/-- A vector [R] set as a column [R, 1]. -/
theorem bid_col {R : Nat} (hR : R ≠ 1) (x : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h x (ix2 e u) = x (ix1 e) :=
  broadcastInDim_apply ![0] h x (ix2 e u) (ix1 e) (fun a => match a with
    | ⟨0, _⟩ => by show e.val = if R = 1 then 0 else e.val; rw [if_neg hR])

/-- A column [R, 1] repeated over D columns. -/
theorem bid_cols {R D : Nat} (hR : R ≠ 1) (x : (⟨2, ![R, 1]⟩ : Shape).Idx → α)
    (h : (⟨2, ![R, 1]⟩ : Shape).BroadcastsInDim ⟨2, ![R, D]⟩ ![0, 1]) (e : Fin R) (j : Fin D) :
    broadcastInDim ⟨2, ![R, D]⟩ ![0, 1] h x (ix2 e j) = x (ix2 e (0 : Fin 1)) :=
  broadcastInDim_apply ![0, 1] h x (ix2 e j) (ix2 e (0 : Fin 1)) (fun a => match a with
    | ⟨0, _⟩ => by show e.val = if R = 1 then 0 else e.val; rw [if_neg hR]
    | ⟨1, _⟩ => by show 0 = if (1 : Nat) = 1 then 0 else j.val; rw [if_pos rfl])

/-- A vector [D] set as a row [1, D]. -/
theorem bid_row {D : Nat} (hD : D ≠ 1) (x : (⟨1, ![D]⟩ : Shape).Idx → α)
    (h : (⟨1, ![D]⟩ : Shape).BroadcastsInDim ⟨2, ![1, D]⟩ ![1]) (u : Fin 1) (j : Fin D) :
    broadcastInDim ⟨2, ![1, D]⟩ ![1] h x (ix2 u j) = x (ix1 j) :=
  broadcastInDim_apply ![1] h x (ix2 u j) (ix1 j) (fun a => match a with
    | ⟨0, _⟩ => by show j.val = if D = 1 then 0 else j.val; rw [if_neg hD])

/-- A row [1, D] repeated down N rows. -/
theorem bid_rows {N D : Nat} (hD : D ≠ 1) (x : (⟨2, ![1, D]⟩ : Shape).Idx → α)
    (h : (⟨2, ![1, D]⟩ : Shape).BroadcastsInDim ⟨2, ![N, D]⟩ ![0, 1]) (n : Fin N) (j : Fin D) :
    broadcastInDim ⟨2, ![N, D]⟩ ![0, 1] h x (ix2 n j) = x (ix2 (0 : Fin 1) j) :=
  broadcastInDim_apply ![0, 1] h x (ix2 n j) (ix2 (0 : Fin 1) j) (fun a => match a with
    | ⟨0, _⟩ => by show 0 = if (1 : Nat) = 1 then 0 else n.val; rw [if_pos rfl]
    | ⟨1, _⟩ => by show j.val = if D = 1 then 0 else j.val; rw [if_neg hD])

/-- A scalar spread over any shape. -/
theorem bid_scalar {T : Shape} (h : (⟨0, ![]⟩ : Shape).BroadcastsInDim T ![]) (x : (⟨0, ![]⟩ : Shape).Idx → α) (j : T.Idx) :
    broadcastInDim T ![] h x j = x ix0 :=
  broadcastInDim_apply ![] h x j ix0 (fun a => a.elim0)

end Layout

/-! ## A vector gathered by row numbers -/

section VecGather
variable {α : Type}

/-- The dimension numbers of a gather of single entries: operand [N], start indices [R, 1], result [R]. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry e of the gathered vector is the operand's entry idx[e, 0], read signed and clamped into [0, N − 1]. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e (0 : Fin 1))).toInt.toNat (N - 1), by omega⟩) := by
  unfold Host.gather
  congr 1
  funext a
  refine Fin.ext ?_
  show (vecGatherDims N R wf).start (ix1 e) idx a + (vecGatherDims N R wf).batchCoord (ix1 e) a
    + (vecGatherDims N R wf).offCoord (ix1 e) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 1) ∈ (vecGatherDims N R wf).startIndexMap from List.mem_singleton.mpr rfl)]
    have hsi : (vecGatherDims N R wf).siIdx (ix1 e) ⟨List.idxOf (⟨0, by decide⟩ : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end VecGather

/-! ## An edge that lands on a node names that node -/

/-- When update row e lands on row n, its index word is non-negative and is n. -/
theorem landRow_word {N R : Nat} (idx : IVec ⟨2, ![R, 1]⟩ 32) (e : Fin R) (n : Fin N)
    (h : landRow N idx e = some n) :
    0 ≤ (idx (ix2 e (0 : Fin 1))).toInt ∧ (idx (ix2 e (0 : Fin 1))).toInt.toNat = n.val := by
  unfold landRow at h
  split at h
  · rename_i hc
    refine ⟨hc.1, ?_⟩
    have := congrArg Fin.val (Option.some.inj h)
    exact this
  · exact absurd h (by simp)

/-! ## One graph convolution, two ways -/

section Conv
variable {N R D : Nat}

/-- The row a gather reads for edge e: the index word read signed and clamped into [0, N − 1]. -/
def clampRow (hN : 0 < N) (idx : IVec ⟨2, ![R, 1]⟩ 32) (e : Fin R) : Fin N :=
  ⟨min (idx (ix2 e (0 : Fin 1))).toInt.toNat (N - 1), by omega⟩

/-- The row gather at (e, j) reads column j of the clamped row of edge e. -/
theorem gather_rows_at {α : Type} (hN : 0 < N)
    (wfG : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ 32) (e : Fin R) (j : Fin D) :
    Host.gather (rowsDims N D R wfG) x idx (ix2 e j) = x (ix2 (clampRow hN idx e) j) := by
  rw [gather_rows_apply hN wfG]
  have h : rowsIdx (ix2 e j) = ix2 e (0 : Fin 1) := by
    funext a; apply Fin.ext
    match a with
    | ⟨0, _⟩ => rfl
    | ⟨1, _⟩ => rfl
  refine congrArg x ?_
  funext a; apply Fin.ext
  match a with
  | ⟨0, _⟩ =>
    show min (idx (rowsIdx (ix2 e j))).toInt.toNat (N - 1) = min (idx (ix2 e (0 : Fin 1))).toInt.toNat (N - 1)
    rw [h]
  | ⟨1, _⟩ => rfl

/-- Aggregating the rows H(src e) scaled by nb(e) = d(src e) · d(dst e) into their destination rows is aggregating the
    rows H'(src e) = H(src e) · d(src e) and scaling row n of the result by d(n): every edge that lands on n has
    d(dst e) = d(n), and d(n) is non-negative and finite. -/
theorem conv_generic (hN : 0 < N)
    (wfS : ScatterDims.WF ⟨2, ![N, D]⟩ ⟨2, ![R, 1]⟩ ⟨2, ![R, D]⟩ [1] [0] [0] 1)
    (wfG : GatherDims.WF ⟨2, ![N, D]⟩ ⟨2, ![R, 1]⟩ ⟨2, ![R, D]⟩ [1] [0] [] [0] [] 1 ![1, D])
    (H H' : (⟨2, ![N, D]⟩ : Shape).Idx → EReal) (d : (⟨1, ![N]⟩ : Shape).Idx → EReal)
    (idxS idxD idxW : IVec ⟨2, ![R, 1]⟩ 32) (Z : (⟨2, ![N, D]⟩ : Shape).Idx → EReal) (nb : (⟨2, ![R, D]⟩ : Shape).Idx → EReal)
    (hZ : ∀ i, Z i = 0)
    (hnb : ∀ (e : Fin R) (j : Fin D), nb (ix2 e j) = d (ix1 (clampRow hN idxS e)) * d (ix1 (clampRow hN idxW e)))
    (hH' : ∀ (r : Fin N) (j : Fin D), H' (ix2 r j) = H (ix2 r j) * d (ix1 r))
    (hd : ∀ n : Fin N, 0 ≤ d (ix1 n) ∧ d (ix1 n) ≠ ⊤)
    (hW : ∀ (e : Fin R) (n : Fin N), landRow N idxD e = some n → clampRow hN idxW e = n)
    (n : Fin N) (j : Fin D) :
    Host.scatterAdd (F := Ideal) (φ := .f32) (rowsScatterDims N D R wfS) Z idxD
        (mulf (F := Ideal) (φ := .f32) (Host.gather (rowsDims N D R wfG) H idxS) nb) (ix2 n j)
      = Host.scatterAdd (F := Ideal) (φ := .f32) (rowsScatterDims N D R wfS) Z idxD (Host.gather (rowsDims N D R wfG) H' idxS) (ix2 n j)
        * d (ix1 n) := by
  rw [scatterAdd_rows_apply, scatterAdd_rows_apply, hZ]
  have hl : ∀ e : Fin R, (mulf (F := Ideal) (φ := .f32) (Host.gather (rowsDims N D R wfG) H idxS) nb) (ix2 e j)
      = H (ix2 (clampRow hN idxS e) j) * (d (ix1 (clampRow hN idxS e)) * d (ix1 (clampRow hN idxW e))) := by
    intro e
    rw [mulf_apply, gather_rows_at hN wfG, hnb]
  have hr : ∀ e : Fin R, (Host.gather (rowsDims N D R wfG) H' idxS) (ix2 e j)
      = H (ix2 (clampRow hN idxS e) j) * d (ix1 (clampRow hN idxS e)) := by
    intro e
    rw [gather_rows_at hN wfG]
    exact hH' (clampRow hN idxS e) j
  rw [Finset.sum_congr rfl (fun e _ => hl e), Finset.sum_congr rfl (fun e _ => hr e)]
  refine agg_law _ _ _ _ _ (hd n).1 (hd n).2 (fun e he => ?_)
  rw [hW e n (Finset.mem_filter.mp he).2]

end Conv

end Cert.GcnLaw

end
-- ==== Proof.LibRealLift.lean ====
/-
  Arrays of extended reals all of whose entries are real numbers, and the operations on them.

  At the ideal instance a float is an extended real. When every entry of an array is (the image of) a real
  number, sums, differences and products of such arrays are again such arrays, computed entry by entry in ℝ;
  a change of float format does nothing; and a plain matrix product `[M, K] × [K, N]` into a zero accumulator is
  the real matrix product: entry `(p, j)` is `∑ k, a (p, k) * b (k, j)`, a finite sum of reals.

  Two identities of real sums are recorded here as well. The split-precision product: a factor `a` is split as
  `a` itself plus the residual `a - a = 0` (no rounding happens at the ideal instance), and the three partial products
  `a·w + a·(w - w) + (a - a)·w` collapse to `a·w`. The three-multiplication form of a complex product:
  `(a + b)·(u + v) - a·u - b·v = a·v + b·u`, summed over the contraction index.
-/
import Idealize.ShloMosaic.Lib.ValueIdx
import Idealize.ShloMosaic.PureOps.Ideal.Laws

open Idealize.ShloMosaic Idealize.ShloMosaic.ValueIdx

namespace Cert.LibRealLift

/-- The array of extended reals whose entry at `i` is the real number `r i`. -/
def cv {s : Shape} {φ : FTy} (r : s.Idx → ℝ) : FVec Ideal s φ := fun i => ((r i : ℝ) : EReal)

theorem cv_apply {s : Shape} {φ : FTy} (r : s.Idx → ℝ) (i : s.Idx) : (cv r : FVec Ideal s φ) i = ((r i : ℝ) : EReal) := rfl

/-- A finite sum of reals, taken in the extended reals, is the real sum. -/
theorem coe_sum {κ : Type*} (t : Finset κ) (f : κ → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

variable {s : Shape} {φ : FTy}

theorem addf_cv (a b : s.Idx → ℝ) : addf (cv a : FVec Ideal s φ) (cv b) = cv (fun i => a i + b i) :=
  funext fun i => (EReal.coe_add (a i) (b i)).symm

theorem subf_cv (a b : s.Idx → ℝ) : subf (cv a : FVec Ideal s φ) (cv b) = cv (fun i => a i - b i) :=
  funext fun i => (EReal.coe_sub (a i) (b i)).symm

theorem mulf_cv (a b : s.Idx → ℝ) : mulf (cv a : FVec Ideal s φ) (cv b) = cv (fun i => a i * b i) :=
  funext fun i => (EReal.coe_mul (a i) (b i)).symm

/-- The residual of a split `x = x + (x - x)` is zero when `x` is real. -/
theorem subf_cv_self (a : s.Idx → ℝ) : subf (cv a : FVec Ideal s φ) (cv a) = cv (fun _ => 0) := by
  rw [subf_cv]; exact congrArg cv (funext fun i => sub_self (a i))

theorem truncf_cv {ψ : FTy} (a : s.Idx → ℝ) (h : ψ.bits < φ.bits) : (truncf ψ (cv a : FVec Ideal s φ) h : FVec Ideal s ψ) = cv a := rfl

theorem extf_cv {ψ : FTy} (a : s.Idx → ℝ) (h : φ.bits < ψ.bits) : (extf ψ (cv a : FVec Ideal s φ) h : FVec Ideal s ψ) = cv a := rfl

/-! ## A plain matrix product, entry by entry -/

/-- The contraction sum of a plain `[M, K] × [K, N]` product at the output entry `(p, j)`, re-indexed by the one
    contraction coordinate `k`: the left operand at `(p, k)` times the right operand at `(k, j)`. -/
theorem plain_sum (M K N : Nat) (l : (⟨2, ![M, K]⟩ : Shape).Idx → EReal) (r : (⟨2, ![K, N]⟩ : Shape).Idx → EReal)
    (p : Fin M) (j : Fin N) :
    (∑ k : (DotDims.plain M K N).contr.Idx, l ((DotDims.plain M K N).lhsIdx (ix2 p j) k) * r ((DotDims.plain M K N).rhsIdx (ix2 p j) k))
      = ∑ k : Fin K, l (ix2 p k) * r (ix2 k j) := by
  rw [← Equiv.sum_comp (contrEquiv1 (DotDims.plain M K N) K rfl rfl).symm]
  refine Finset.sum_congr rfl fun k _ => ?_
  have hl : (DotDims.plain M K N).lhsIdx (ix2 p j) ((contrEquiv1 (DotDims.plain M K N) K rfl rfl).symm k) = ix2 p k := by
    funext a; apply Fin.ext
    match a with
    | ⟨0, _⟩ => rfl
    | ⟨1, _⟩ => exact contrEquiv1_symm_val (DotDims.plain M K N) K rfl rfl k
  have hr : (DotDims.plain M K N).rhsIdx (ix2 p j) ((contrEquiv1 (DotDims.plain M K N) K rfl rfl).symm k) = ix2 k j := by
    funext a; apply Fin.ext
    match a with
    | ⟨0, _⟩ => exact contrEquiv1_symm_val (DotDims.plain M K N) K rfl rfl k
    | ⟨1, _⟩ => rfl
  rw [hl, hr]

/-- The real matrix product of `a : [M, K]` and `b : [K, N]`. -/
def mm (M K N : Nat) (a : (⟨2, ![M, K]⟩ : Shape).Idx → ℝ) (b : (⟨2, ![K, N]⟩ : Shape).Idx → ℝ) : (⟨2, ![M, N]⟩ : Shape).Idx → ℝ :=
  fun i => ∑ k : Fin K, a (ix2 (i 0) k) * b (ix2 k (i 1))

/-- A kernel's plain matrix product of real arrays into the zero accumulator is the real matrix product. -/
theorem matmul_plain_cv (M K N : Nat) {φ₁ φ₂ : FTy} (prec : Option ContractPrecision)
    (a : (⟨2, ![M, K]⟩ : Shape).Idx → ℝ) (b : (⟨2, ![K, N]⟩ : Shape).Idx → ℝ) :
    matmul (DotDims.plain M K N) prec (cv a : FVec Ideal _ φ₁) (cv b : FVec Ideal _ φ₂) (constant (F := Ideal) ⟨2, ![M, N]⟩ .f32 0x00000000#32)
      = cv (mm M K N a b) := by
  funext i
  obtain ⟨p, j, rfl⟩ : ∃ (p : Fin M) (j : Fin N), i = ix2 p j := ⟨i 0, i 1, eq_ix2 i⟩
  show FloatOps.matmul (DotDims.plain M K N) prec (cv a) (cv b) (constant ⟨2, ![M, N]⟩ .f32 0x00000000#32) (ix2 p j) = _
  rw [Ideal.matmul_constant_zero_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-- The host's plain `dot_general` of real arrays is the real matrix product. -/
theorem dotGeneral_plain_cv (M K N : Nat) {φ₁ φ₂ : FTy} (prec : Option ContractPrecision)
    (a : (⟨2, ![M, K]⟩ : Shape).Idx → ℝ) (b : (⟨2, ![K, N]⟩ : Shape).Idx → ℝ) :
    (Host.dotGeneral (DotDims.plain M K N) prec (cv a : FVec Ideal _ φ₁) (cv b : FVec Ideal _ φ₂) : FVec Ideal ⟨2, ![M, N]⟩ .f32)
      = cv (mm M K N a b) := by
  funext i
  obtain ⟨p, j, rfl⟩ : ∃ (p : Fin M) (j : Fin N), i = ix2 p j := ⟨i 0, i 1, eq_ix2 i⟩
  simp only [Host.dotGeneral]
  rw [Ideal.dotGeneral_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-! ## Real sums: the split-precision product and the three-multiplication complex product -/

/-- A product with the zero matrix on the right is zero. -/
theorem mm_zero_right (M K N : Nat) (a : (⟨2, ![M, K]⟩ : Shape).Idx → ℝ) : mm M K N a (fun _ => 0) = fun _ => 0 :=
  funext fun i => by simp [mm]

/-- A product with the zero matrix on the left is zero. -/
theorem mm_zero_left (M K N : Nat) (b : (⟨2, ![K, N]⟩ : Shape).Idx → ℝ) : mm M K N (fun _ => 0) b = fun _ => 0 :=
  funext fun i => by simp [mm]

/-- The product of sums, less the two diagonal products, is the sum of the two cross products. -/
theorem mm_cross (M K N : Nat) (a b : (⟨2, ![M, K]⟩ : Shape).Idx → ℝ) (u v : (⟨2, ![K, N]⟩ : Shape).Idx → ℝ) (i : (⟨2, ![M, N]⟩ : Shape).Idx) :
    mm M K N (fun q => a q + b q) (fun q => u q + v q) i - mm M K N a u i - mm M K N b v i = mm M K N a v i + mm M K N b u i := by
  simp only [mm, add_mul, mul_add, Finset.sum_add_distrib]
  ring

end Cert.LibRealLift
-- ==== Proof.LibIsReal.lean ====
/-
  Arrays of extended reals whose every entry is a real number: the property, and the host operations that keep it.

  IsR v says every entry of v is (the image of) a real.  Such an array is cv of a real array (exists_cv).  The property
  passes through any re-indexing of the entries — a gather by any index array, a broadcast along any axes —, through a
  product, a select between two such arrays, a finite sum, and through the host's accumulating scatter of such updates
  into such an operand: its entry is the operand's entry plus a finite sum of update entries.  Two more entry-by-entry
  operations on cv arrays: the larger of two, and a constant array.  And the one place a graph normalisation leaves the
  reals and comes back: 1/sqrt(d) computed as a quotient, guarded by d > 0 with 0 as the other branch, is a real for
  every real d that is not negative (at d = 0 the quotient is the infinity and the guard discards it); the degree of a graph
  node, an accumulating scatter of ones into zeros, is a natural number, so the guarded array built from it is real.
-/
import proofs.«116521_j7662221656116_2_alg».proof.Proof.LibRealLift
import Idealize.ShloMosaic.Lib.Pipeline.Value
import Idealize.ShloMosaic.Lib.IdealHost

open Idealize.ShloMosaic Idealize.ShloMosaic.ValueIdx

noncomputable section

namespace Cert.LibIsReal

open Cert.LibRealLift

/-- Every entry is a real number. -/
def IsR {s : Shape} (v : s.Idx → EReal) : Prop := ∀ i, ∃ r : ℝ, v i = ((r : ℝ) : EReal)

variable {s t : Shape} {φ : FTy}

theorem isR_cv (a : s.Idx → ℝ) : IsR (cv a : FVec Ideal s φ) := fun i => ⟨a i, rfl⟩

/-- An array of reals is the image of a real array. -/
theorem exists_cv {v : s.Idx → EReal} (h : IsR v) : ∃ a : s.Idx → ℝ, v = (cv a : FVec Ideal s φ) := by
  choose a ha using h
  exact ⟨a, funext ha⟩

/-- A gather reads entries of its operand. -/
theorem isR_gather {si : Shape} {w : Nat} (d : GatherDims s si t) {x : s.Idx → EReal} (hx : IsR x) (idx : IVec si w) :
    IsR (Host.gather d x idx) := fun j => hx _

/-- A broadcast reads entries of its operand. -/
theorem isR_bcast (dims : Fin s.rank → Fin t.rank) (h : s.BroadcastsInDim t dims) {x : s.Idx → EReal} (hx : IsR x) :
    IsR (broadcastInDim t dims h x) := fun j => hx _

theorem isR_mulf {a b : FVec Ideal s φ} (ha : IsR a) (hb : IsR b) : IsR (mulf a b) := fun i => by
  obtain ⟨x, hx⟩ := ha i
  obtain ⟨y, hy⟩ := hb i
  exact ⟨x * y, by rw [mulf_apply, hx, hy, EReal.coe_mul]⟩

theorem isR_select (c : IVec s 1) {a b : s.Idx → EReal} (ha : IsR a) (hb : IsR b) : IsR (select c a b) := fun i => by
  rw [select_apply]
  by_cases hc : c i = 1#1
  · rw [hc, select_one]; exact ha i
  · rw [eq_zero_of_ne_one hc, select_zero]; exact hb i

/-- A finite sum of reals is a real. -/
theorem exists_real_sum {κ : Type*} (S : Finset κ) {f : κ → EReal} (hf : ∀ k ∈ S, ∃ r : ℝ, f k = ((r : ℝ) : EReal)) :
    ∃ r : ℝ, ∑ k ∈ S, f k = ((r : ℝ) : EReal) := by
  classical
  induction S using Finset.induction_on with
  | empty => exact ⟨0, by simp⟩
  | insert a S ha ih =>
    obtain ⟨x, hx⟩ := hf a (Finset.mem_insert_self a S)
    obtain ⟨y, hy⟩ := ih fun k hk => hf k (Finset.mem_insert_of_mem hk)
    exact ⟨x + y, by rw [Finset.sum_insert ha, hx, hy, EReal.coe_add]⟩

/-- The host's accumulating scatter of real updates into a real operand is real. -/
theorem isR_scatterAdd {si u : Shape} {w : Nat} (d : ScatterDims s si u) {x : FVec Ideal s φ} (hx : IsR x) (idx : IVec si w)
    {upd : FVec Ideal u φ} (hu : IsR upd) : IsR (Host.scatterAdd d x idx upd) := fun i => by
  obtain ⟨a, ha⟩ := hx i
  obtain ⟨b, hb⟩ := exists_real_sum (Finset.univ.filter (fun j => d.resultIdx? j idx = some i)) (f := upd) fun k _ => hu k
  refine ⟨a + b, ?_⟩
  show x i + ∑ j ∈ Finset.univ.filter (fun j => d.resultIdx? j idx = some i), upd j = _
  rw [ha, hb, EReal.coe_add]

/-- A constant array whose word denotes a real. -/
theorem isR_const (w : BitVec 32) (r : ℝ) (hw : Ideal.ofBits .f32 w = ((r : ℝ) : EReal)) :
    IsR (constant (F := Ideal) s .f32 w) := fun _ => ⟨r, hw⟩

/-- The larger of two real arrays, entry by entry. -/
theorem maximumf_cv (a b : s.Idx → ℝ) : maximumf (cv a : FVec Ideal s φ) (cv b) = cv (fun i => max (a i) (b i)) :=
  funext fun i => (Monotone.map_max EReal.coe_strictMono.monotone (a := a i) (b := b i)).symm

/-- 1/sqrt(d) as a quotient, kept where d > 0 and replaced by 0 elsewhere, is a real for every real d ≥ 0. -/
theorem guarded_inv_sqrt_real (d : ℝ) (hd : 0 ≤ d) :
    ∃ r : ℝ, Scalar.select (Ideal.cmp .ogt ((d : ℝ) : EReal) (Ideal.ofBits .f32 0x00000000#32))
        (Ideal.div (Ideal.ofBits .f32 0x3F800000#32) (Ideal.sqrt ((d : ℝ) : EReal))) (Ideal.ofBits .f32 0x00000000#32)
      = ((r : ℝ) : EReal) := by
  rw [Ideal.ofBits_zero_f32, Ideal.ofBits_one_f32]
  by_cases h0 : 0 < d
  · have hc : Ideal.cmp .ogt ((d : ℝ) : EReal) 0 = 1#1 := by
      unfold Ideal.cmp
      simp [EReal.coe_pos.mpr h0]
    have hs : Real.sqrt d ≠ 0 := (Real.sqrt_pos.mpr h0).ne'
    rw [hc, select_one, Ideal.sqrt_coe, if_neg (not_lt.mpr hd), Ideal.div_coe hs, one_mul]
    exact ⟨_, rfl⟩
  · have hc : Ideal.cmp .ogt ((d : ℝ) : EReal) 0 = 0#1 := by
      unfold Ideal.cmp
      have : ¬ (0 : EReal) < ((d : ℝ) : EReal) := fun h => h0 (EReal.coe_pos.mp h)
      simp [this]
    rw [hc, select_zero]
    exact ⟨0, rfl⟩

/-- A count of ones, started from zero, is a natural number. -/
theorem count_ones {ι : Type} (S : Finset ι) :
    Ideal.ofBits .f32 0x00000000#32 + ∑ _e ∈ S, Ideal.ofBits .f32 0x3F800000#32 = (((S.card : ℕ) : ℝ) : EReal) := by
  rw [Ideal.ofBits_zero_f32, Ideal.ofBits_one_f32, zero_add, Finset.sum_const, ← EReal.coe_one, ← EReal.coe_nsmul]
  congr 1
  simp

/-- The host's accumulating scatter of an all-ones update array into an all-zeros operand counts, at each entry, the
    updates that land there. -/
theorem scatterAdd_count {si u : Shape} {w : Nat} (d : ScatterDims s si u) (z : FVec Ideal s .f32) (idx : IVec si w)
    (o : FVec Ideal u .f32) (hz : ∀ i, z i = Ideal.ofBits .f32 0x00000000#32) (ho : ∀ j, o j = Ideal.ofBits .f32 0x3F800000#32)
    (i : s.Idx) : ∃ c : ℕ, Host.scatterAdd d z idx o i = (((c : ℕ) : ℝ) : EReal) := by
  refine ⟨(Finset.univ.filter (fun j => d.resultIdx? j idx = some i)).card, ?_⟩
  show z i + ∑ j ∈ Finset.univ.filter (fun j => d.resultIdx? j idx = some i), o j = _
  rw [hz, Finset.sum_congr rfl (fun j _ => ho j)]
  exact count_ones _

/-- The normalisation array 1/sqrt(deg) guarded by deg > 0, for a degree array of natural numbers, is real. -/
theorem guarded_isR (deg z o z' : FVec Ideal s .f32) (hdeg : ∀ i, ∃ c : ℕ, deg i = (((c : ℕ) : ℝ) : EReal))
    (hz : ∀ i, z i = Ideal.ofBits .f32 0x00000000#32) (ho : ∀ i, o i = Ideal.ofBits .f32 0x3F800000#32)
    (hz' : ∀ i, z' i = Ideal.ofBits .f32 0x00000000#32) :
    IsR (select (cmpf (F := Ideal) (φ := .f32) .ogt deg z) (Host.divf (F := Ideal) (φ := .f32) o (Host.sqrt (F := Ideal) (φ := .f32) deg)) z') := fun i => by
  obtain ⟨c, hc⟩ := hdeg i
  show ∃ r : ℝ, Scalar.select (Ideal.cmp .ogt (deg i) (z i)) (Ideal.div (o i) (Ideal.sqrt (deg i))) (z' i) = ((r : ℝ) : EReal)
  rw [hz, ho, hz', hc]
  exact guarded_inv_sqrt_real _ (Nat.cast_nonneg c)

/-- A scalar spread over any shape reads the scalar everywhere. -/
theorem bcast_scalar_apply {α : Type} (h : (⟨0, ![]⟩ : Shape).BroadcastsInDim t ![]) (x : (⟨0, ![]⟩ : Shape).Idx → α) (j : t.Idx) :
    broadcastInDim t ![] h x j = x ix0 :=
  broadcastInDim_apply ![] h x j ix0 (fun a => a.elim0)

end Cert.LibIsReal

end
-- ==== Proof.LibSegmentMeans.lean ====
/-
  Two laws of segment sums over the extended reals, for any numbers of nodes N, hyperedges M, incidences E and any
  feature width D. An incidence e joins node iV e to hyperedge iE e. A row gather by iV (negative entries wrapped, then
  clamped) followed by an accumulating scatter by the raw iE sums, for each hyperedge s, over the incidences that LAND
  on s: those whose iE entry, read signed, is s itself. For such an incidence a gather by iE reads row s, so a term
  gathered by iE is constant over the incidences landing on s, and:

    A.  ∑ ((P(v e) + Q(s)) + b) · d(v e)  =  ∑ (P(v e) + b) · d(v e)  +  Q(s) · ∑ d(v e)      (all entries real)
    B.  ∑ ((q(v e) + r(s)) + b)           =  ∑ q(v e)  +  (number of landing incidences) · (r(s) + b)    (r, b real)

  Both sides are then divided by max(count, 1), the same number on either side. The left arrangement gathers two
  tables per incidence; the right one gathers one and scales a per-hyperedge table by a per-hyperedge scalar.
-/
import proofs.«116521_j7662221656116_2_alg».proof.Proof.LibGraphConv
import proofs.«116521_j7662221656116_2_alg».proof.Proof.LibIsReal

noncomputable section

open scoped BigOperators

namespace Cert.HostLaw

open Idealize.ShloMosaic Idealize.ShloMosaic.ValueIdx Cert.GcnLaw Cert.LibIsReal

abbrev S0 : Shape := ⟨0, ![]⟩
abbrev Vc (n : Nat) : Shape := ⟨1, ![n]⟩
abbrev Mx (a b : Nat) : Shape := ⟨2, ![a, b]⟩

/-- An array filled with the zero word. -/
def zeros (s : Shape) (h : S0.BroadcastsInDim s ![]) : FVec Ideal s .f32 :=
  broadcastInDim s ![] h (constant (F := Ideal) S0 .f32 0x00000000#32)

/-- An array filled with the word of one. -/
def ones (s : Shape) (h : S0.BroadcastsInDim s ![]) : FVec Ideal s .f32 :=
  broadcastInDim s ![] h (constant (F := Ideal) S0 .f32 0x3F800000#32)

/-! ## Broadcasts read at an index, for any extents

A unit axis of the operand is read at 0; a coordinate on an axis of extent one is 0 anyway, so these hold with no
condition on the extents. -/

section Layout
variable {α : Type}

/-- A vector [R] set as a column [R, 1]. -/
theorem col_at {R : Nat} (x : (Vc R).Idx → α) (h : (Vc R).BroadcastsInDim (Mx R 1) ![0]) (e : Fin R) (u : Fin 1) :
    broadcastInDim (Mx R 1) ![0] h x (ix2 e u) = x (ix1 e) :=
  broadcastInDim_apply ![0] h x (ix2 e u) (ix1 e) (fun a => match a with
    | ⟨0, _⟩ => by
      show e.val = if R = 1 then 0 else e.val
      by_cases hR : R = 1
      · rw [if_pos hR]; have := e.isLt; omega
      · rw [if_neg hR])

/-- A column [R, 1] repeated over D columns. -/
theorem cols_at {R D : Nat} (x : (Mx R 1).Idx → α) (h : (Mx R 1).BroadcastsInDim (Mx R D) ![0, 1]) (e : Fin R) (j : Fin D) :
    broadcastInDim (Mx R D) ![0, 1] h x (ix2 e j) = x (ix2 e (0 : Fin 1)) :=
  broadcastInDim_apply ![0, 1] h x (ix2 e j) (ix2 e (0 : Fin 1)) (fun a => match a with
    | ⟨0, _⟩ => by
      show e.val = if R = 1 then 0 else e.val
      by_cases hR : R = 1
      · rw [if_pos hR]; have := e.isLt; omega
      · rw [if_neg hR]
    | ⟨1, _⟩ => by show 0 = if (1 : Nat) = 1 then 0 else j.val; rw [if_pos rfl])

/-- A vector [D] set as a row [1, D]. -/
theorem row_at {D : Nat} (x : (Vc D).Idx → α) (h : (Vc D).BroadcastsInDim (Mx 1 D) ![1]) (u : Fin 1) (j : Fin D) :
    broadcastInDim (Mx 1 D) ![1] h x (ix2 u j) = x (ix1 j) :=
  broadcastInDim_apply ![1] h x (ix2 u j) (ix1 j) (fun a => match a with
    | ⟨0, _⟩ => by
      show j.val = if D = 1 then 0 else j.val
      by_cases hD : D = 1
      · rw [if_pos hD]; have := j.isLt; omega
      · rw [if_neg hD])

/-- A row [1, D] repeated down R rows. -/
theorem rows_at {R D : Nat} (x : (Mx 1 D).Idx → α) (h : (Mx 1 D).BroadcastsInDim (Mx R D) ![0, 1]) (n : Fin R) (j : Fin D) :
    broadcastInDim (Mx R D) ![0, 1] h x (ix2 n j) = x (ix2 (0 : Fin 1) j) :=
  broadcastInDim_apply ![0, 1] h x (ix2 n j) (ix2 (0 : Fin 1) j) (fun a => match a with
    | ⟨0, _⟩ => by show 0 = if (1 : Nat) = 1 then 0 else n.val; rw [if_pos rfl]
    | ⟨1, _⟩ => by
      show j.val = if D = 1 then 0 else j.val
      by_cases hD : D = 1
      · rw [if_pos hD]; have := j.isLt; omega
      · rw [if_neg hD])

end Layout

/-- Every entry of the zero array is the zero word. -/
theorem zeros_at (s : Shape) (h : S0.BroadcastsInDim s ![]) (i : s.Idx) :
    zeros s h i = Ideal.ofBits .f32 0x00000000#32 :=
  bid_scalar h _ i

/-- Every entry of the array of ones is the word of one. -/
theorem ones_at (s : Shape) (h : S0.BroadcastsInDim s ![]) (i : s.Idx) :
    ones s h i = Ideal.ofBits .f32 0x3F800000#32 :=
  bid_scalar h _ i

variable {N M E D : Nat}

/-- Row numbers as a column, as a scatter takes them. -/
def rawCol (hcE : (Vc E).BroadcastsInDim (Mx E 1) ![0]) (idx : IVec (Vc E) 32) : IVec (Mx E 1) 32 :=
  broadcastInDim (Mx E 1) ![0] hcE idx

/-- Row numbers with the negative ones moved up by `n`, as a column: what a gather takes. -/
def wrapCol (n : BitVec 32) (hsE : S0.BroadcastsInDim (Vc E) ![]) (hcE : (Vc E).BroadcastsInDim (Mx E 1) ![0])
    (idx : IVec (Vc E) 32) : IVec (Mx E 1) 32 :=
  broadcastInDim (Mx E 1) ![0] hcE
    (select (cmpi .slt idx (broadcastInDim (Vc E) ![] hsE (constantI S0 32 0#32)))
      (addi idx (broadcastInDim (Vc E) ![] hsE (constantI S0 32 n))) idx)

/-- The raw column holds the row numbers themselves. -/
theorem rawCol_at (hcE : (Vc E).BroadcastsInDim (Mx E 1) ![0]) (idx : IVec (Vc E) 32) (e : Fin E) (u : Fin 1) :
    rawCol hcE idx (ix2 e u) = idx (ix1 e) :=
  col_at idx hcE e u

/-- Where the row number is not negative, the wrapped column holds it unchanged. -/
theorem wrapCol_of_nonneg (n : BitVec 32) (hsE : S0.BroadcastsInDim (Vc E) ![])
    (hcE : (Vc E).BroadcastsInDim (Mx E 1) ![0]) (idx : IVec (Vc E) 32) (e : Fin E) (u : Fin 1)
    (h : 0 ≤ (idx (ix1 e)).toInt) :
    wrapCol n hsE hcE idx (ix2 e u) = idx (ix1 e) := by
  unfold wrapCol
  rw [col_at, select_apply]
  show Scalar.select (IntOp.cmpi .slt (idx (ix1 e)) (broadcastInDim (Vc E) ![] hsE (constantI S0 32 0#32) (ix1 e))) _ _ = _
  rw [bid_scalar]
  exact wrap_of_nonneg _ h _ _

/-- For an incidence that lands on hyperedge s, the gather by the wrapped hyperedge numbers reads row s. -/
theorem land_reads (n : BitVec 32) (hsE : S0.BroadcastsInDim (Vc E) ![])
    (hcE : (Vc E).BroadcastsInDim (Mx E 1) ![0]) (hM : 0 < M) (iE : IVec (Vc E) 32) (e : Fin E) (s : Fin M)
    (h : landRow M (rawCol hcE iE) e = some s) :
    clampRow hM (wrapCol n hsE hcE iE) e = s := by
  obtain ⟨h0, hv⟩ := landRow_word _ e s h
  rw [rawCol_at] at h0 hv
  apply Fin.ext
  show min ((wrapCol n hsE hcE iE) (ix2 e (0 : Fin 1))).toInt.toNat (M - 1) = s.val
  rw [wrapCol_of_nonneg n hsE hcE iE e 0 h0, hv]
  have := s.isLt
  omega

section Laws

variable (nN nM : BitVec 32)
  (hsE : S0.BroadcastsInDim (Vc E) ![]) (hcE : (Vc E).BroadcastsInDim (Mx E 1) ![0])
  (hsM : S0.BroadcastsInDim (Vc M) ![]) (hcM : (Vc M).BroadcastsInDim (Mx M 1) ![0])
  (hsMD : S0.BroadcastsInDim (Mx M D) ![]) (hsM1 : S0.BroadcastsInDim (Mx M 1) ![])
  (hsE1 : S0.BroadcastsInDim (Mx E 1) ![])
  (hcolsM : (Mx M 1).BroadcastsInDim (Mx M D) ![0, 1]) (hcolsE : (Mx E 1).BroadcastsInDim (Mx E D) ![0, 1])
  (hrow : (Vc D).BroadcastsInDim (Mx 1 D) ![1]) (hrowsE : (Mx 1 D).BroadcastsInDim (Mx E D) ![0, 1])
  (wfSv : ScatterDims.WF (Vc M) (Mx E 1) (Vc E) [] [0] [0] 1)
  (wfGv : GatherDims.WF (Vc N) (Mx E 1) (Vc E) [] [0] [] [0] [] 1 ![1])
  (wfS : ScatterDims.WF (Mx M D) (Mx E 1) (Mx E D) [1] [0] [0] 1)
  (wfS1 : ScatterDims.WF (Mx M 1) (Mx E 1) (Mx E 1) [1] [0] [0] 1)
  (wfGN : GatherDims.WF (Mx N D) (Mx E 1) (Mx E D) [1] [0] [] [0] [] 1 ![1, D])
  (wfGM : GatherDims.WF (Mx M D) (Mx E 1) (Mx E D) [1] [0] [] [0] [] 1 ![1, D])

/-- The number of incidences landing on each hyperedge, as a column: a vector scatter of ones, then set as [M,1]. -/
def cntCol (iE : IVec (Vc E) 32) : FVec Ideal (Mx M 1) .f32 :=
  broadcastInDim (Mx M 1) ![0] hcM
    (Host.scatterAdd (vecScatterDims M E wfSv) (zeros (Vc M) hsM) (rawCol hcE iE) (ones (Vc E) hsE))

/-- The column of counts at hyperedge s: the number of incidences landing on s, as a real. -/
theorem cntCol_at (iE : IVec (Vc E) 32) (s : Fin M) (u : Fin 1) :
    cntCol hsE hcE hsM hcM wfSv iE (ix2 s u)
      = ((((Finset.univ.filter (fun e : Fin E => landRow M (rawCol hcE iE) e = some s)).card : ℕ) : ℝ) : EReal) := by
  unfold cntCol
  rw [col_at, scatterAdd_vec_apply, zeros_at, Finset.sum_congr rfl (fun e _ => ones_at (Vc E) hsE (ix1 e))]
  exact count_real _

/-- The one-column row scatter of ones at hyperedge s is the same count. -/
theorem cntRows_at (iE : IVec (Vc E) 32) (s : Fin M) :
    Host.scatterAdd (rowsScatterDims M 1 E wfS1) (zeros (Mx M 1) hsM1) (rawCol hcE iE) (ones (Mx E 1) hsE1) (ix2 s (0 : Fin 1))
      = ((((Finset.univ.filter (fun e : Fin E => landRow M (rawCol hcE iE) e = some s)).card : ℕ) : ℝ) : EReal) := by
  rw [scatterAdd_rows_apply, zeros_at, Finset.sum_congr rfl (fun e _ => ones_at (Mx E 1) hsE1 (ix2 e (0 : Fin 1)))]
  exact count_real _

/-- The scaled-table arrangement of law A: `P1` is the node table already biased and scaled, `Q` the hyperedge table. -/
def meanScaled (P1 : FVec Ideal (Mx N D) .f32) (Q : FVec Ideal (Mx M D) .f32) (d : FVec Ideal (Vc N) .f32)
    (iV iE : IVec (Vc E) 32) : FVec Ideal (Mx M D) .f32 :=
  Host.divf
    (addf
      (Host.scatterAdd (rowsScatterDims M D E wfS) (zeros (Mx M D) hsMD) (rawCol hcE iE)
        (Host.gather (rowsDims N D E wfGN) P1 (wrapCol nN hsE hcE iV)))
      (mulf Q
        (broadcastInDim (Mx M D) ![0, 1] hcolsM
          (broadcastInDim (Mx M 1) ![0] hcM
            (Host.scatterAdd (vecScatterDims M E wfSv) (zeros (Vc M) hsM) (rawCol hcE iE)
              (Host.gather (vecGatherDims N E wfGv) d (wrapCol nN hsE hcE iV)))))))
    (broadcastInDim (Mx M D) ![0, 1] hcolsM
      (maximumf (cntCol hsE hcE hsM hcM wfSv iE) (ones (Mx M 1) hsM1)))

/-- The per-incidence arrangement of law A: both tables gathered per incidence, biased, scaled, then summed. -/
def meanPerIncidence (P : FVec Ideal (Mx N D) .f32) (Q : FVec Ideal (Mx M D) .f32) (b : FVec Ideal (Vc D) .f32)
    (d : FVec Ideal (Vc N) .f32) (iV iE : IVec (Vc E) 32) : FVec Ideal (Mx M D) .f32 :=
  Host.divf
    (Host.scatterAdd (rowsScatterDims M D E wfS) (zeros (Mx M D) hsMD) (rawCol hcE iE)
      (mulf
        (addf
          (addf (Host.gather (rowsDims N D E wfGN) P (wrapCol nN hsE hcE iV))
            (Host.gather (rowsDims M D E wfGM) Q (wrapCol nM hsE hcE iE)))
          (broadcastInDim (Mx E D) ![0, 1] hrowsE (broadcastInDim (Mx 1 D) ![1] hrow b)))
        (broadcastInDim (Mx E D) ![0, 1] hcolsE
          (broadcastInDim (Mx E 1) ![0] hcE (Host.gather (vecGatherDims N E wfGv) d (wrapCol nN hsE hcE iV))))))
    (broadcastInDim (Mx M D) ![0, 1] hcolsM
      (maximumf
        (Host.scatterAdd (rowsScatterDims M 1 E wfS1) (zeros (Mx M 1) hsM1) (rawCol hcE iE) (ones (Mx E 1) hsE1))
        (ones (Mx M 1) hsM1)))

/-- LAW A. With every entry real, and the scaled table `P1 (v, j) = (P (v, j) + b j) · d v`, the two arrangements agree. -/
theorem meanScaled_eq (hM : 0 < M) (hN : 0 < N)
    (P P1 : FVec Ideal (Mx N D) .f32) (Q : FVec Ideal (Mx M D) .f32) (b : FVec Ideal (Vc D) .f32)
    (d : FVec Ideal (Vc N) .f32) (iV iE : IVec (Vc E) 32)
    (hP : IsR P) (hQ : IsR Q) (hb : IsR b) (hd : IsR d)
    (hP1 : ∀ (v : Fin N) (j : Fin D), P1 (ix2 v j) = (P (ix2 v j) + b (ix1 j)) * d (ix1 v)) :
    meanScaled nN hsE hcE hsM hcM hsMD hsM1 hcolsM wfSv wfGv wfS wfGN P1 Q d iV iE
      = meanPerIncidence nN nM hsE hcE hsMD hsM1 hsE1 hcolsM hcolsE hrow hrowsE wfGv wfS wfS1 wfGN wfGM P Q b d iV iE := by
  funext i
  obtain ⟨s, j, rfl⟩ : ∃ (s : Fin M) (j : Fin D), i = ix2 s j := ⟨i 0, i 1, eq_ix2 i⟩
  unfold meanScaled meanPerIncidence
  rw [hostDivf_apply, hostDivf_apply]
  refine congrArg₂ Ideal.div ?_ ?_
  · rw [addf_apply, mulf_apply, cols_at, col_at, scatterAdd_vec_apply, scatterAdd_rows_apply, scatterAdd_rows_apply,
      zeros_at, zeros_at, Ideal.ofBits_zero_f32, zero_add, zero_add, zero_add]
    have hL1 : ∀ e : Fin E, Host.gather (rowsDims N D E wfGN) P1 (wrapCol nN hsE hcE iV) (ix2 e j)
        = (P (ix2 (clampRow hN (wrapCol nN hsE hcE iV) e) j) + b (ix1 j))
            * d (ix1 (clampRow hN (wrapCol nN hsE hcE iV) e)) := by
      intro e
      rw [gather_rows_at hN wfGN, hP1]
    have hL2 : ∀ e : Fin E, Host.gather (vecGatherDims N E wfGv) d (wrapCol nN hsE hcE iV) (ix1 e)
        = d (ix1 (clampRow hN (wrapCol nN hsE hcE iV) e)) := fun e => gather_vec_apply hN wfGv d _ e
    have hR : ∀ e ∈ Finset.univ.filter (fun e : Fin E => landRow M (rawCol hcE iE) e = some s),
        mulf
          (addf
            (addf (Host.gather (rowsDims N D E wfGN) P (wrapCol nN hsE hcE iV))
              (Host.gather (rowsDims M D E wfGM) Q (wrapCol nM hsE hcE iE)))
            (broadcastInDim (Mx E D) ![0, 1] hrowsE (broadcastInDim (Mx 1 D) ![1] hrow b)))
          (broadcastInDim (Mx E D) ![0, 1] hcolsE
            (broadcastInDim (Mx E 1) ![0] hcE (Host.gather (vecGatherDims N E wfGv) d (wrapCol nN hsE hcE iV))))
          (ix2 e j)
        = ((P (ix2 (clampRow hN (wrapCol nN hsE hcE iV) e) j) + Q (ix2 s j)) + b (ix1 j))
            * d (ix1 (clampRow hN (wrapCol nN hsE hcE iV) e)) := by
      intro e he
      rw [mulf_apply, addf_apply, addf_apply, gather_rows_at hN wfGN, gather_rows_at hM wfGM,
        land_reads nM hsE hcE hM iE e s (Finset.mem_filter.mp he).2, rows_at, row_at, cols_at, col_at, hL2]
    rw [Finset.sum_congr rfl hR, Finset.sum_congr rfl (fun e _ => hL1 e), Finset.sum_congr rfl (fun e _ => hL2 e)]
    obtain ⟨qs, hqs⟩ := hQ (ix2 s j)
    obtain ⟨bj, hbj⟩ := hb (ix1 j)
    choose p hp using fun e : Fin E => hP (ix2 (clampRow hN (wrapCol nN hsE hcE iV) e) j)
    choose dd hdd using fun e : Fin E => hd (ix1 (clampRow hN (wrapCol nN hsE hcE iV) e))
    simp only [hp, hdd, hqs, hbj, ← EReal.coe_add, ← EReal.coe_mul, Cert.LibRealLift.coe_sum]
    congr 1
    rw [Finset.mul_sum, ← Finset.sum_add_distrib]
    exact Finset.sum_congr rfl (fun e _ => by ring)
  · rw [cols_at, cols_at, maximumf_apply, maximumf_apply, cntCol_at, cntRows_at]

/-- The counted arrangement of law B: `q` gathered per incidence and summed, plus the count times the hyperedge table. -/
def meanCounted (q : FVec Ideal (Mx N D) .f32) (RB : FVec Ideal (Mx M D) .f32) (iV iE : IVec (Vc E) 32) :
    FVec Ideal (Mx M D) .f32 :=
  Host.divf
    (addf
      (Host.scatterAdd (rowsScatterDims M D E wfS) (zeros (Mx M D) hsMD) (rawCol hcE iE)
        (Host.gather (rowsDims N D E wfGN) q (wrapCol nN hsE hcE iV)))
      (mulf (broadcastInDim (Mx M D) ![0, 1] hcolsM (cntCol hsE hcE hsM hcM wfSv iE)) RB))
    (broadcastInDim (Mx M D) ![0, 1] hcolsM
      (maximumf (cntCol hsE hcE hsM hcM wfSv iE) (ones (Mx M 1) hsM1)))

/-- The per-incidence arrangement of law B. -/
def meanPlain (q : FVec Ideal (Mx N D) .f32) (r : FVec Ideal (Mx M D) .f32) (b : FVec Ideal (Vc D) .f32)
    (iV iE : IVec (Vc E) 32) : FVec Ideal (Mx M D) .f32 :=
  Host.divf
    (Host.scatterAdd (rowsScatterDims M D E wfS) (zeros (Mx M D) hsMD) (rawCol hcE iE)
      (addf
        (addf (Host.gather (rowsDims N D E wfGN) q (wrapCol nN hsE hcE iV))
          (Host.gather (rowsDims M D E wfGM) r (wrapCol nM hsE hcE iE)))
        (broadcastInDim (Mx E D) ![0, 1] hrowsE (broadcastInDim (Mx 1 D) ![1] hrow b))))
    (broadcastInDim (Mx M D) ![0, 1] hcolsM
      (maximumf
        (Host.scatterAdd (rowsScatterDims M 1 E wfS1) (zeros (Mx M 1) hsM1) (rawCol hcE iE) (ones (Mx E 1) hsE1))
        (ones (Mx M 1) hsM1)))

/-- LAW B. With `r` and `b` real and `RB (s, j) = r (s, j) + b j`, the two arrangements agree, whatever `q` holds. -/
theorem meanCounted_eq (hM : 0 < M) (hN : 0 < N)
    (q : FVec Ideal (Mx N D) .f32) (r RB : FVec Ideal (Mx M D) .f32) (b : FVec Ideal (Vc D) .f32)
    (iV iE : IVec (Vc E) 32) (hr : IsR r) (hb : IsR b)
    (hRB : ∀ (s : Fin M) (j : Fin D), RB (ix2 s j) = r (ix2 s j) + b (ix1 j)) :
    meanCounted nN hsE hcE hsM hcM hsMD hsM1 hcolsM wfSv wfS wfGN q RB iV iE
      = meanPlain nN nM hsE hcE hsMD hsM1 hsE1 hcolsM hrow hrowsE wfS wfS1 wfGN wfGM q r b iV iE := by
  funext i
  obtain ⟨s, j, rfl⟩ : ∃ (s : Fin M) (j : Fin D), i = ix2 s j := ⟨i 0, i 1, eq_ix2 i⟩
  unfold meanCounted meanPlain
  rw [hostDivf_apply, hostDivf_apply]
  refine congrArg₂ Ideal.div ?_ ?_
  · rw [addf_apply, mulf_apply, cols_at, cntCol_at, scatterAdd_rows_apply, scatterAdd_rows_apply, zeros_at, hRB]
    have hR : ∀ e ∈ Finset.univ.filter (fun e : Fin E => landRow M (rawCol hcE iE) e = some s),
        addf
          (addf (Host.gather (rowsDims N D E wfGN) q (wrapCol nN hsE hcE iV))
            (Host.gather (rowsDims M D E wfGM) r (wrapCol nM hsE hcE iE)))
          (broadcastInDim (Mx E D) ![0, 1] hrowsE (broadcastInDim (Mx 1 D) ![1] hrow b)) (ix2 e j)
        = (Host.gather (rowsDims N D E wfGN) q (wrapCol nN hsE hcE iV) (ix2 e j) + r (ix2 s j)) + b (ix1 j) := by
      intro e he
      rw [addf_apply, addf_apply, gather_rows_at hM wfGM, land_reads nM hsE hcE hM iE e s (Finset.mem_filter.mp he).2,
        rows_at, row_at]
    rw [Finset.sum_congr rfl hR]
    obtain ⟨x, hx⟩ := hr (ix2 s j)
    obtain ⟨y, hy⟩ := hb (ix1 j)
    rw [hx, hy]
    simp only [add_assoc]
    rw [Finset.sum_add_distrib, Finset.sum_const, ← EReal.coe_add, ← EReal.coe_nsmul, nsmul_eq_mul, EReal.coe_mul]
  · rw [cols_at, cols_at, maximumf_apply, maximumf_apply, cntCol_at, cntRows_at]

end Laws

end Cert.HostLaw

end
-- ==== Proof.LibDotNN.lean ====
/-
  The host's plain matrix product read at an index, and its agreement with the accelerator's at the ideal values.
  For an [M,K] array A and a [K,N] array B (any extents, any well-formedness witness of the dimension numbers):
  the host `dot_general` contracting A's second axis with B's first has entry (a, b) = ∑ c, A (a, c) · B (c, b);
  the accelerator product of the two operands, each first rounded to a narrower float format, accumulated into
  zeros, is the same array — a change of float format is the identity on the extended reals, a zero accumulator
  adds nothing, and both products are the one finite sum over the contracted coordinate.
-/
import Idealize.ShloMosaic.PureOps.Ideal.Laws
import Idealize.ShloMosaic.Lib.ValueIdx
import proofs.«116521_j7662221656116_2_alg».proof.Proof.LibDot2

noncomputable section

open scoped BigOperators

namespace Cert.LibDotNN

open Idealize.ShloMosaic Idealize.ShloMosaic.ValueIdx

variable {M K N : Nat} {φ₁ φ₂ : FTy}

/-- A host `dot_general` of an [M,K] by a [K,N] array, the first contracted on its last axis and the second on its
    first: entry (a, b) is `∑ c, A (a, c) · B (c, b)`. -/
theorem dotGeneral_nn_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (⟨[1], [0], [0], [1], [], [], w⟩ : DotDims ⟨2, ![M, K]⟩ ⟨2, ![K, N]⟩ ⟨2, ![M, N]⟩) prec A B (ix2 a b)
      = ∑ c : Fin K, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The same at any index `j` of the result: the row is `j`'s first coordinate, the column its second. -/
theorem dotGeneral_nn_apply_idx (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (j : (⟨2, ![M, N]⟩ : Shape).Idx) :
    Host.dotGeneral (⟨[1], [0], [0], [1], [], [], w⟩ : DotDims ⟨2, ![M, K]⟩ ⟨2, ![K, N]⟩ ⟨2, ![M, N]⟩) prec A B j
      = ∑ c : Fin K, A (ix2 (j 0) c) * B (ix2 c (j 1)) := by
  have h := dotGeneral_nn_apply w prec A B (j 0) (j 1)
  have e : j = ix2 (j 0) (j 1) := eq_ix2 j
  conv_lhs => rw [e]
  exact h

/-- The accelerator product of the two operands rounded to a narrower format, into a zero accumulator, read at
    (a, b): the sum of the products of the UNROUNDED entries. -/
theorem matmul_rounded_apply (w : DotDims.WF ⟨2, ![M, K]⟩ ⟨2, ![K, N]⟩ ⟨2, ![M, N]⟩ [1] [0] [0] [1] [] [])
    (prec : Option ContractPrecision) (ψ : FTy) (h₁ : ψ.bits < φ₁.bits) (h₂ : ψ.bits < φ₂.bits)
    (A : FVec Ideal ⟨2, ![M, K]⟩ φ₁) (B : FVec Ideal ⟨2, ![K, N]⟩ φ₂) (a : Fin M) (b : Fin N) :
    matmul (⟨[1], [0], [0], [1], [], [], w⟩ : DotDims ⟨2, ![M, K]⟩ ⟨2, ![K, N]⟩ ⟨2, ![M, N]⟩) prec
        (truncf ψ A h₁) (truncf ψ B h₂) (constant ⟨2, ![M, N]⟩ .f32 0x00000000#32) (ix2 a b)
      = ∑ c : Fin K, A (ix2 a c) * B (ix2 c b) :=
  Cert.LibDot2.matmul_zero_apply w prec (truncf ψ A h₁) (truncf ψ B h₂) a b

end Cert.LibDotNN

end
-- ==== Proof.Bridge.lean ====
/-
  The specification's functions against the host's spelling of the same mathematics, for any number of rows R:
  `X · Wᵀ` is the host's matrix product of X with the transposed weight; the rectified product is the host's
  maximum of that product with a zero-filled array; a per-row scale by a column is the host's product with the
  column repeated along the row. Also: these functions keep entries real.
-/
import proofs.«116521_j7662221656116_2_alg».proof.Proof.Spec
import proofs.«116521_j7662221656116_2_alg».proof.Proof.LibDotNN
import proofs.«116521_j7662221656116_2_alg».proof.Proof.LibIsReal
import proofs.«116521_j7662221656116_2_alg».proof.Proof.LibGraphConv

noncomputable section

open scoped BigOperators

namespace Cert.Bridge

open Idealize.ShloMosaic Idealize.ShloMosaic.ValueIdx Cert.Spec Cert.LibIsReal Cert.GcnLaw

variable {R : Nat}

/-- `X · Wᵀ` is the host's product of `X` with the transposed weight. -/
theorem linT_eq_dot (w : DotDims.WF ⟨2, ![R, 128]⟩ ⟨2, ![128, 128]⟩ ⟨2, ![R, 128]⟩ [1] [0] [0] [1] [] [])
    (hT : (⟨2, ![128, 128]⟩ : Shape).Transposes [1, 0] ⟨2, ![128, 128]⟩) (prec : Option ContractPrecision)
    (X : FVec Ideal ⟨2, ![R, 128]⟩ .f32) (W : FVec Ideal ⟨2, ![128, 128]⟩ .f32) :
    linT X W = Host.dotGeneral (⟨[1], [0], [0], [1], [], [], w⟩ : DotDims ⟨2, ![R, 128]⟩ ⟨2, ![128, 128]⟩ ⟨2, ![R, 128]⟩) prec X
      (transpose ⟨2, ![128, 128]⟩ [1, 0] W hT) := by
  funext i
  obtain ⟨p, q, rfl⟩ : ∃ (p : Fin R) (q : Fin 128), i = ix2 p q := ⟨i 0, i 1, eq_ix2 i⟩
  rw [Cert.LibDotNN.dotGeneral_nn_apply w prec, linT_apply]
  refine Finset.sum_congr rfl fun c _ => ?_
  rw [transpose_ix2_apply]

/-- The rectified product is the host's maximum of the product with zeros. -/
theorem reluLinT_eq (w : DotDims.WF ⟨2, ![R, 128]⟩ ⟨2, ![128, 128]⟩ ⟨2, ![R, 128]⟩ [1] [0] [0] [1] [] [])
    (hT : (⟨2, ![128, 128]⟩ : Shape).Transposes [1, 0] ⟨2, ![128, 128]⟩) (prec : Option ContractPrecision)
    (hb : (⟨0, ![]⟩ : Shape).BroadcastsInDim ⟨2, ![R, 128]⟩ ![])
    (X : FVec Ideal ⟨2, ![R, 128]⟩ .f32) (W : FVec Ideal ⟨2, ![128, 128]⟩ .f32) :
    reluLinT X W = maximumf
      (Host.dotGeneral (⟨[1], [0], [0], [1], [], [], w⟩ : DotDims ⟨2, ![R, 128]⟩ ⟨2, ![128, 128]⟩ ⟨2, ![R, 128]⟩) prec X
        (transpose ⟨2, ![128, 128]⟩ [1, 0] W hT))
      (broadcastInDim ⟨2, ![R, 128]⟩ ![] hb (constant (F := Ideal) ⟨0, ![]⟩ .f32 0x00000000#32)) := by
  funext i
  rw [maximumf_apply, ← linT_eq_dot w hT prec X W, bid_scalar]
  rfl

/-- A per-row scale by a column is the product with the column repeated along the row. -/
theorem rowScale_eq (hR : R ≠ 1) (hc : (⟨2, ![R, 1]⟩ : Shape).BroadcastsInDim ⟨2, ![R, 128]⟩ ![0, 1])
    (X : FVec Ideal ⟨2, ![R, 128]⟩ .f32) (d : FVec Ideal ⟨2, ![R, 1]⟩ .f32) :
    rowScale X d = mulf X (broadcastInDim ⟨2, ![R, 128]⟩ ![0, 1] hc d) := by
  funext i
  obtain ⟨p, q, rfl⟩ : ∃ (p : Fin R) (q : Fin 128), i = ix2 p q := ⟨i 0, i 1, eq_ix2 i⟩
  rw [mulf_apply, bid_cols hR]
  rfl

/-- A product of arrays with real entries has real entries. -/
theorem isR_linT {X : FVec Ideal ⟨2, ![R, 128]⟩ .f32} {W : FVec Ideal ⟨2, ![128, 128]⟩ .f32} (hX : IsR X) (hW : IsR W) :
    IsR (linT X W) := fun i => by
  show ∃ r : ℝ, ∑ c : Fin 128, X (ix2 (i 0) c) * W (ix2 (i 1) c) = ((r : ℝ) : EReal)
  refine exists_real_sum Finset.univ fun c _ => ?_
  obtain ⟨x, hx⟩ := hX (ix2 (i 0) c)
  obtain ⟨y, hy⟩ := hW (ix2 (i 1) c)
  exact ⟨x * y, by rw [hx, hy, EReal.coe_mul]⟩

/-- A slice reads entries of its operand. -/
theorem isR_slice {s t : Shape} (off : Fin s.rank → Nat) {x : s.Idx → EReal} (hx : IsR x) (h : s.Slices off t) :
    IsR (extractStridedSlice t off x h) := fun j => hx _

end Cert.Bridge

end
-- ==== Proof.RefBridge.lean ====
/-
  The reference program's stages against the specification's functions and the two segment-mean arrangements.
  Each product stage of the reference — a table times the transpose of a square weight, a slice of a wider weight where
  the layer keeps two weights side by side — is the specification's `X · Wᵀ`; a rectified stage is its rectified
  product; a per-row scale by a column is `rowScale`. The two per-incidence means of the reference (gather both
  tables per incidence, add the bias, scale or not, sum into the hyperedge, divide by the guarded count) are, operation
  for operation, the per-incidence arrangements of the segment-mean laws at the extents N = 100000 nodes,
  M = 20000 hyperedges, E = 500000 incidences, D = 128 features.
-/
import proofs.«116521_j7662221656116_2_alg».proof.Proof.Gen.ReferenceIdeal.Read
import proofs.«116521_j7662221656116_2_alg».proof.Proof.Spec
import proofs.«116521_j7662221656116_2_alg».proof.Proof.Bridge
import proofs.«116521_j7662221656116_2_alg».proof.Proof.LibSegmentMeans

noncomputable section

namespace Cert.RefBridge

open Idealize.ShloMosaic Idealize.ShloMosaic.ValueIdx
open Cert.ReferenceIdeal Cert.ReferenceIdeal.Gen Cert.ReferenceIdeal.Read Cert.Spec Cert.Bridge Cert.HostLaw

variable (x0 : (⟨S100000x128, .f32⟩ : BufTy).Contents (Elt Ideal)) (x1 : (⟨S20000x128, .f32⟩ : BufTy).Contents (Elt Ideal))
  (x2 : (⟨S100000, .f32⟩ : BufTy).Contents (Elt Ideal)) (x3 : (⟨S20000, .f32⟩ : BufTy).Contents (Elt Ideal))
  (x4 x5 : (⟨S500000, .i32⟩ : BufTy).Contents (Elt Ideal)) (x6 x7 : (⟨S200000, .i32⟩ : BufTy).Contents (Elt Ideal))
  (x8 : (⟨S200000, .f32⟩ : BufTy).Contents (Elt Ideal)) (x9 x10 : (⟨S500000, .i32⟩ : BufTy).Contents (Elt Ideal))
  (x11 : (⟨S500000, .f32⟩ : BufTy).Contents (Elt Ideal)) (x12 : (⟨S128x256, .f32⟩ : BufTy).Contents (Elt Ideal))
  (x13 : (⟨S128, .f32⟩ : BufTy).Contents (Elt Ideal)) (x14 : (⟨S128x256, .f32⟩ : BufTy).Contents (Elt Ideal))
  (x15 : (⟨S128, .f32⟩ : BufTy).Contents (Elt Ideal)) (x16 x17 : (⟨S128x128, .f32⟩ : BufTy).Contents (Elt Ideal))

/-- The first per-incidence mean of the reference is the per-incidence arrangement of law A. -/
theorem v44 : val_main_v44 (F := Ideal) x0 x1 x2 x4 x5 x12 x13
    = meanPerIncidence (N := 100000) (M := 20000) (E := 500000) (D := 128) 100000#32 20000#32
        bcast_S_S500000 bcast_S500000_S500000x1_0 bcast_S_S20000x128 bcast_S_S20000x1 bcast_S_S500000x1
        bcast_S20000x1_S20000x128_0_1 bcast_S500000x1_S500000x128_0_1 bcast_S128_S1x128_1 bcast_S1x128_S500000x128_0_1
        gather_S100000_S500000x1_S500000_n_0_n_n_0_1_1_wf scatter_S20000x128_S500000x1_S500000x128_1_0_0_1_wf
        scatter_S20000x1_S500000x1_S500000x1_1_0_0_1_wf gather_S100000x128_S500000x1_S500000x128_1_0_n_n_0_1_1128_wf
        gather_S20000x128_S500000x1_S500000x128_1_0_n_n_0_1_1128_wf
        (val_main_v3 x0 x12) (val_main_v5 x1 x12) x13 x2 x4 x5 := rfl

/-- The second per-incidence mean of the reference is the per-incidence arrangement of law B. -/
theorem v114 : val_main_v114 (F := Ideal) x0 x1 x2 x4 x5 x6 x7 x8 x12 x13 x14 x15 x16
    = meanPlain (N := 100000) (M := 20000) (E := 500000) (D := 128) 100000#32 20000#32
        bcast_S_S500000 bcast_S500000_S500000x1_0 bcast_S_S20000x128 bcast_S_S20000x1 bcast_S_S500000x1
        bcast_S20000x1_S20000x128_0_1 bcast_S128_S1x128_1 bcast_S1x128_S500000x128_0_1
        scatter_S20000x128_S500000x1_S500000x128_1_0_0_1_wf scatter_S20000x1_S500000x1_S500000x1_1_0_0_1_wf
        gather_S100000x128_S500000x1_S500000x128_1_0_n_n_0_1_1128_wf gather_S20000x128_S500000x1_S500000x128_1_0_n_n_0_1_1128_wf
        (val_main_v83 x0 x1 x2 x4 x5 x6 x7 x8 x12 x13 x14 x16) (val_main_v92 x1 x14) x15 x4 x5 := rfl

/-- The node table times the transpose of the left half of the first weight. -/
theorem v3 : val_main_v3 (F := Ideal) x0 x12 = linT x0 (extractStridedSlice S128x128 ![0, 0] x12 slices_S128x256_S128x128_0_0) := by
  unfold val_main_v3 val_main_v2 val_main_v0
  exact (linT_eq_dot (R := 100000) dot_S100000x128_S128x128_S100000x128_1_0_0_1_n_n_wf transposes_S128x128_S128x128_1_0 none x0 _).symm

/-- The hyperedge table times the transpose of the right half of the first weight. -/
theorem v5 : val_main_v5 (F := Ideal) x1 x12 = linT x1 (extractStridedSlice S128x128 ![0, 128] x12 slices_S128x256_S128x128_0_128) := by
  unfold val_main_v5 val_main_v4 val_main_v1
  exact (linT_eq_dot (R := 20000) dot_S20000x128_S128x128_S20000x128_1_0_0_1_n_n_wf transposes_S128x128_S128x128_1_0 none x1 _).symm

/-- The hyperedge table times the transpose of the right half of the second weight. -/
theorem v92 : val_main_v92 (F := Ideal) x1 x14 = linT x1 (extractStridedSlice S128x128 ![0, 128] x14 slices_S128x256_S128x128_0_128) := by
  unfold val_main_v92 val_main_v91 val_main_v81
  exact (linT_eq_dot (R := 20000) dot_S20000x128_S128x128_S20000x128_1_0_0_1_n_n_wf transposes_S128x128_S128x128_1_0 none x1 _).symm

/-- The first rectified stage: the node-side mean times the transposed third weight, rectified. -/
theorem v79 : val_main_v79 (F := Ideal) x0 x1 x2 x4 x5 x6 x7 x8 x12 x13 x16 = reluLinT (val_main_v76 x0 x1 x2 x4 x5 x6 x7 x8 x12 x13) x16 := by
  unfold val_main_v79 val_main_v78 val_main_v77 val_main_call0_v0 val_main_call0_cst
  exact (reluLinT_eq (R := 100000) dot_S100000x128_S128x128_S100000x128_1_0_0_1_n_n_wf transposes_S128x128_S128x128_1_0 none bcast_S_S100000x128 _ x16).symm

/-- The rectified node table times the transpose of the left half of the second weight. -/
theorem v83 : val_main_v83 (F := Ideal) x0 x1 x2 x4 x5 x6 x7 x8 x12 x13 x14 x16 = linT (val_main_v79 x0 x1 x2 x4 x5 x6 x7 x8 x12 x13 x16) (extractStridedSlice S128x128 ![0, 0] x14 slices_S128x256_S128x128_0_0) := by
  unfold val_main_v83 val_main_v82 val_main_v80
  exact (linT_eq_dot (R := 100000) dot_S100000x128_S128x128_S100000x128_1_0_0_1_n_n_wf transposes_S128x128_S128x128_1_0 none _ _).symm

/-- The last rectified stage: the summed hyperedge means times the transposed fourth weight, rectified. -/
theorem v170 : val_main_v170 (F := Ideal) x0 x1 x2 x3 x4 x5 x6 x7 x8 x9 x10 x11 x12 x13 x14 x15 x16 x17 = reluLinT (val_main_v167 x0 x1 x2 x3 x4 x5 x6 x7 x8 x9 x10 x11 x12 x13 x14 x15 x16) x17 := by
  unfold val_main_v170 val_main_v169 val_main_v168 val_main_call1_v0 val_main_call1_cst
  exact (reluLinT_eq (R := 20000) dot_S20000x128_S128x128_S20000x128_1_0_0_1_n_n_wf transposes_S128x128_S128x128_1_0 none bcast_S_S20000x128 _ x17).symm

/-- The hyperedge table with each row scaled by its own factor. -/
theorem v117 : val_main_v117 (F := Ideal) x1 x3 = rowScale x1 (broadcastInDim S20000x1 ![0] bcast_S20000_S20000x1_0 x3) := by
  unfold val_main_v117 val_main_v116 val_main_v115
  exact (rowScale_eq (R := 20000) (by decide) bcast_S20000x1_S20000x128_0_1 x1 _).symm

end Cert.RefBridge

end
-- ==== Proof.KMean.lean ====
/-
  The array the third region reads. The host stretch before it forms, per hyperedge, the mean of the incident nodes'
  scaled rows in the factorised arrangement (the pre-scaled node table gathered and summed, plus the hyperedge table
  times the summed scales), then multiplies by a sparse matrix, adds the hyperedge features and takes, per node, the
  mean over its incident hyperedges. The reference forms the first mean per incidence and then does the very same
  remaining operations; by the first segment-sum law the two means are one array, so the two results are.
-/
import proofs.«116521_j7662221656116_2_alg».proof.Proof.KRegs
import proofs.«116521_j7662221656116_2_alg».proof.Proof.LibSegmentMeans
import proofs.«116521_j7662221656116_2_alg».proof.Proof.Bridge
import proofs.«116521_j7662221656116_2_alg».proof.Proof.RefBridge

set_option maxRecDepth 16384

noncomputable section

namespace Cert.KernelIdeal.Results

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen Cert.Spec Cert.HostLaw Cert.LibIsReal Cert.GcnLaw
open Cert.ReferenceIdeal.Read (val_main_v3 val_main_v5 val_main_v44 val_main_v76)

variable (m : (ℓ : Loc nD τ sig) → Buf (Elt Ideal) ℓ) (ρ : Dev nD → PrngReg) (c : Dev nD)

/-- An entry of the scaled node table: the reference's node product plus the bias, times the node's scale. -/
theorem nodeScaled_apply (v : Fin 100000) (j : Fin 128) :
    nodeScaled m c (ix2 v j)
      = (val_main_v3 (F := Ideal) (m ((c : Thread nD τ).loc main_arg0)) (m ((c : Thread nD τ).loc main_arg12)) (ix2 v j) + (m ((c : Thread nD τ).loc main_arg13)) (ix1 j)) * (m ((c : Thread nD τ).loc main_arg2)) (ix1 v) := by
  rw [Cert.RefBridge.v3]
  show (linT (m ((c : Thread nD τ).loc main_arg0)) _ (ix2 v j) + broadcastInDim S1x128 ![1] bcast_S128_S1x128_1 (m ((c : Thread nD τ).loc main_arg13)) (ix2 (0 : Fin 1) j))
      * broadcastInDim S100000x1 ![0] bcast_S100000_S100000x1_0 (m ((c : Thread nD τ).loc main_arg2)) (ix2 v (0 : Fin 1)) = _
  rw [bid_row (by decide), bid_col (by decide)]

/-- THE FIRST MEAN: the factorised arrangement over the two regions' arrays is the reference's per-incidence mean. -/
theorem mean_stage (h0 : IsR (m ((c : Thread nD τ).loc main_arg0))) (h1 : IsR (m ((c : Thread nD τ).loc main_arg1))) (h2 : IsR (m ((c : Thread nD τ).loc main_arg2))) (h12 : IsR (m ((c : Thread nD τ).loc main_arg12))) (h13 : IsR (m ((c : Thread nD τ).loc main_arg13))) :
    meanScaled (N := 100000) (M := 20000) (E := 500000) (D := 128) 100000#32
      bcast_S_S500000 bcast_S500000_S500000x1_0 bcast_S_S20000 bcast_S20000_S20000x1_0 bcast_S_S20000x128 bcast_S_S20000x1
      bcast_S20000x1_S20000x128_0_1
      scatter_S20000_S500000x1_S500000_n_0_0_1.wf gather_S100000_S500000x1_S500000_n_0_n_n_0_1_1.wf
      scatter_S20000x128_S500000x1_S500000x128_1_0_0_1.wf gather_S100000x128_S500000x1_S500000x128_1_0_n_n_0_1_1128.wf
      (nodeScaled m c) (edgeProd1 m c) (m ((c : Thread nD τ).loc main_arg2)) (m ((c : Thread nD τ).loc main_arg4)) (m ((c : Thread nD τ).loc main_arg5))
    = val_main_v44 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg12)) (m ((c : Thread nD τ).loc main_arg13)) := by
  have hP : IsR (val_main_v3 (F := Ideal) (m ((c : Thread nD τ).loc main_arg0)) (m ((c : Thread nD τ).loc main_arg12))) := by
    rw [Cert.RefBridge.v3]; exact Cert.Bridge.isR_linT h0 (Cert.Bridge.isR_slice _ h12 _)
  have hQ : IsR (edgeProd1 m c) := Cert.Bridge.isR_linT h1 (Cert.Bridge.isR_slice _ h12 _)
  rw [Cert.RefBridge.v44, Cert.RefBridge.v5]
  exact meanScaled_eq _ _ _ _ _ _ _ _ _ _ _ _ _ _ _ _ _ _ _ (by decide) (by decide) _ _ _ _ _ _ _ hP hQ h13 h2
    (nodeScaled_apply m c)

set_option maxHeartbeats 16000000 in
/-- The array the third region reads is the reference's node mean. -/
theorem W4_v74_eq (h0 : IsR (m ((c : Thread nD τ).loc main_arg0))) (h1 : IsR (m ((c : Thread nD τ).loc main_arg1))) (h2 : IsR (m ((c : Thread nD τ).loc main_arg2))) (h12 : IsR (m ((c : Thread nD τ).loc main_arg12))) (h13 : IsR (m ((c : Thread nD τ).loc main_arg13))) :
    W4 m ρ c (Proc.devRef .tc main_v74)
      = val_main_v76 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) := by
  show StableHlo.after hostOps2 (W3 m ρ c) (Proc.devRef .tc main_v74) = _
  dsimp only [hostOps2]
  after_results_simp
  rw [W3_v8_eq, W3_v9_0_eq, W3_arg1, W3_arg2, W3_arg4, W3_arg5, W3_arg6, W3_arg7, W3_arg8]
  -- the remaining operations are the same on both sides: descend to the mean
  refine congrArg₂ Host.divf ?_ rfl
  refine congrArg (Host.scatterAdd _ _ _) ?_
  refine congrFun (congrArg (Host.gather _) ?_) _
  refine congrFun (congrArg addf ?_) _
  refine congrArg (Host.scatterAdd _ _ _) ?_
  refine congrArg (mulf _) ?_
  refine congrFun (congrArg (Host.gather _) ?_) _
  exact mean_stage m c h0 h1 h2 h12 h13

end Cert.KernelIdeal.Results

end
-- ==== Proof.KSecond.lean ====
/-
  The array the last region reads. The host stretch before it forms, per hyperedge, the mean of the incident nodes'
  rows of the second region's product in the counted arrangement (the node table gathered and summed, plus the count
  of incident nodes times the biased hyperedge table), then adds to it a second per-hyperedge mean that both programs
  compute by the very same operations from the scaled hyperedge table. The reference forms the first of the two per
  incidence (node row plus hyperedge row plus bias, then summed); by the second segment-sum law the two means are one
  array, and the node table under them is the same function of the same array in both programs, so the sums agree.
-/
import proofs.«116521_j7662221656116_2_alg».proof.Proof.KMean

set_option maxRecDepth 16384

noncomputable section

namespace Cert.KernelIdeal.Results

open Idealize.ShloMosaic Idealize.ShloMosaic.TcCoe Idealize.ShloMosaic.Tactic Idealize.SL.Sem Idealize.ShloMosaic.StableHlo
open Idealize.ShloMosaic.ValueIdx
open Cert.KernelIdeal Cert.KernelIdeal.Gen Cert.Spec Cert.HostLaw Cert.LibIsReal Cert.GcnLaw
open Cert.ReferenceIdeal.Read (val_main_v76 val_main_v114 val_main_v167)

variable (m : (ℓ : Loc nD τ sig) → Buf (Elt Ideal) ℓ) (ρ : Dev nD → PrngReg) (c : Dev nD)

/-- The number of incidences landing on each hyperedge, as a column: the host stretch before the third region forms it
    once, from the hyperedge numbers alone, and the stretch before the last region reads it again. -/
theorem W4_v14_eq : W4 m ρ c (Proc.devRef .tc main_v14)
    = cntCol (E := 500000) (M := 20000) bcast_S_S500000 bcast_S500000_S500000x1_0 bcast_S_S20000 bcast_S20000_S20000x1_0
        scatter_S20000_S500000x1_S500000_n_0_0_1.wf (m ((c : Thread nD τ).loc main_arg5)) := by
  show StableHlo.after hostOps2 (W3 m ρ c) (Proc.devRef .tc main_v14) = _
  dsimp only [hostOps2]
  after_results_simp
  rw [W3_arg5]
  rfl

/-- An entry of the biased hyperedge product: the reference's hyperedge product plus the bias. -/
theorem edgeProd2_apply (s : Fin 20000) (j : Fin 128) :
    edgeProd2 m c (ix2 s j)
      = linT (m ((c : Thread nD τ).loc main_arg1)) (extractStridedSlice S128x128 ![0, 128] (m ((c : Thread nD τ).loc main_arg14)) slices_S128x256_S128x128_0_128) (ix2 s j)
        + (m ((c : Thread nD τ).loc main_arg15)) (ix1 j) := by
  show linT (m ((c : Thread nD τ).loc main_arg1)) _ (ix2 s j) + broadcastInDim S1x128 ![1] bcast_S128_S1x128_1 (m ((c : Thread nD τ).loc main_arg15)) (ix2 (0 : Fin 1) j) = _
  rw [bid_row (by decide)]

/-- THE SECOND MEAN: the counted arrangement over the second region's array is the reference's per-incidence mean. -/
theorem second_mean (h1 : IsR (m ((c : Thread nD τ).loc main_arg1))) (h14 : IsR (m ((c : Thread nD τ).loc main_arg14))) (h15 : IsR (m ((c : Thread nD τ).loc main_arg15)))
    (X : FVec Ideal S100000x128 .f32)
    (hX : X = val_main_v76 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13))) :
    meanCounted (N := 100000) (M := 20000) (E := 500000) (D := 128) 100000#32
      bcast_S_S500000 bcast_S500000_S500000x1_0 bcast_S_S20000 bcast_S20000_S20000x1_0 bcast_S_S20000x128 bcast_S_S20000x1
      bcast_S20000x1_S20000x128_0_1
      scatter_S20000_S500000x1_S500000_n_0_0_1.wf scatter_S20000x128_S500000x1_S500000x128_1_0_0_1.wf
      gather_S100000x128_S500000x1_S500000x128_1_0_n_n_0_1_1128.wf
      (linT (reluLinT X (m ((c : Thread nD τ).loc main_arg16))) (extractStridedSlice S128x128 ![0, 0] (m ((c : Thread nD τ).loc main_arg14)) slices_S128x256_S128x128_0_0))
      (edgeProd2 m c) (m ((c : Thread nD τ).loc main_arg4)) (m ((c : Thread nD τ).loc main_arg5))
    = val_main_v114 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (m ((c : Thread nD τ).loc main_arg16)) := by
  subst hX
  have hr : IsR (linT (m ((c : Thread nD τ).loc main_arg1)) (extractStridedSlice S128x128 ![0, 128] (m ((c : Thread nD τ).loc main_arg14)) slices_S128x256_S128x128_0_128)) :=
    Cert.Bridge.isR_linT h1 (Cert.Bridge.isR_slice _ h14 _)
  rw [Cert.RefBridge.v114, Cert.RefBridge.v83, Cert.RefBridge.v79, Cert.RefBridge.v92]
  exact meanCounted_eq _ _ _ _ _ _ _ _ _ _ _ _ _ _ _ _ _ (by decide) (by decide) _ _ _ _ _ _ hr h15 (edgeProd2_apply m c)

set_option maxHeartbeats 16000000 in
/-- The array the last region reads is the reference's sum of the two hyperedge means. -/
theorem W6_v142_eq (h0 : IsR (m ((c : Thread nD τ).loc main_arg0))) (h1 : IsR (m ((c : Thread nD τ).loc main_arg1))) (h2 : IsR (m ((c : Thread nD τ).loc main_arg2))) (h12 : IsR (m ((c : Thread nD τ).loc main_arg12))) (h13 : IsR (m ((c : Thread nD τ).loc main_arg13)))
    (h14 : IsR (m ((c : Thread nD τ).loc main_arg14))) (h15 : IsR (m ((c : Thread nD τ).loc main_arg15))) :
    W6 m ρ c (Proc.devRef .tc main_v142)
      = val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps3 (W5 m ρ c) (Proc.devRef .tc main_v142) = _
  dsimp only [hostOps3]
  after_results_simp
  rw [W5_arg4, W5_arg5, W5_arg9, W5_arg10, W5_arg11, W5_v9_1, W3_v9_1_eq, W5_v9_2, W3_v9_2_eq, W5_v14, W4_v14_eq,
    W5_v75_1_eq]
  refine congrArg₂ addf ?_ ?_
  · -- the operations both programs share: descend to the scaled hyperedge table
    refine congrArg₂ Host.divf ?_ rfl
    refine congrArg (Host.scatterAdd _ _ _) ?_
    refine congrFun (congrArg (Host.gather _) ?_) _
    refine congrArg (Host.scatterAdd _ _ _) ?_
    refine congrArg (mulf _) ?_
    refine congrFun (congrArg (Host.gather _) ?_) _
    refine congrArg₂ Host.divf ?_ rfl
    refine congrArg (Host.scatterAdd _ _ _) ?_
    refine congrFun (congrArg (Host.gather _) ?_) _
    exact (Cert.RefBridge.v117 _ _).symm
  · exact second_mean m c h1 h14 h15 _ (W4_v74_eq m ρ c h0 h1 h2 h12 h13)

end Cert.KernelIdeal.Results

end
-- ==== Proof.Finite.lean ====
/-
  What the precondition gives: every float argument has only real entries. The precondition is the conjunction, over
  the twelve float arguments, of "every entry's absolute value is below +∞"; an extended real whose absolute value
  max(x, −x) is below +∞ is neither +∞ nor −∞, so it is a real number.
-/
import proofs.«116521_j7662221656116_2_alg».proof.Pre_finite_inputs
import proofs.«116521_j7662221656116_2_alg».proof.Proof.LibIsReal
import Idealize.ShloMosaic.Lib.ReduceAll
import Idealize.ShloMosaic.Lib.ValueIdx
import Idealize.ShloMosaic.PureOps.Ideal.Laws

set_option maxRecDepth 16384

noncomputable section

namespace Cert.Finite

open Idealize.ShloMosaic Idealize.ShloMosaic.ValueIdx Cert.Pre_finite_inputs Cert.LibIsReal

instance : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = ((r : ℝ) : EReal) := by
  rw [ofBits_inf] at h
  induction x using EReal.rec with
  | bot => exact absurd h (by simp [Ideal.cmp])
  | top => exact absurd h (by simp [Ideal.cmp])
  | coe r => exact ⟨r, rfl⟩

/-- One conjunct of the precondition, read at an entry. -/
theorem isR_of_all {s : Shape} {axes : List (Fin s.rank)} (a : FVec Ideal s .f32) (hb : S_.BroadcastsInDim s ![])
    (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ix0 = 1#1) : IsR a := fun i => by
  have hi := Host.reduce_andi_all _ _ hr hu ix0 e i
  exact real_of_abs_lt (a i) hi

end Cert.Finite

end
-- ==== Proof.FiniteArgs.lean ====
/-
  The precondition, decoded. It is one bit: the conjunction, argument by argument in the order of the float arguments,
  of "every entry's absolute value is below +∞". A conjunction of bits is 1 exactly when both are, so the bit being 1
  gives each conjunct, and a conjunct gives that its argument has only real entries. Stated here for the seven
  arguments the value law reads: the two feature arrays, the first scale vector, and the two pairs of weight and bias.
-/
import proofs.«116521_j7662221656116_2_alg».proof.Proof.Finite
import proofs.«116521_j7662221656116_2_alg».proof.Proof.Gen.Pre_finite_inputs
import Idealize.ShloMosaic.Lib.Affine

set_option maxRecDepth 16384

noncomputable section

namespace Cert.Finite

open Idealize.ShloMosaic Idealize.ShloMosaic.ValueIdx Cert.Pre_finite_inputs Cert.LibIsReal

/-- A conjunction of two bits is 1 only when both are. -/
theorem both_of_andi {x y : IVec S_ 1} (h : andi x y ix0 = 1#1) : x ix0 = 1#1 ∧ y ix0 = 1#1 :=
  IntOp.andi_eq_one.mp h

/-- The precondition holding, each of these seven arguments has only real entries. -/
theorem isR_args (a0 : FVec Ideal S100000x128 .f32) (a1 : FVec Ideal S20000x128 .f32) (a2 : FVec Ideal S100000 .f32)
    (a3 : FVec Ideal S20000 .f32) (a4 a5 : IVec S500000 32) (a6 a7 : IVec S200000 32) (a8 : FVec Ideal S200000 .f32)
    (a9 a10 : IVec S500000 32) (a11 : FVec Ideal S500000 .f32) (a12 : FVec Ideal S128x256 .f32) (a13 : FVec Ideal S128 .f32)
    (a14 : FVec Ideal S128x256 .f32) (a15 : FVec Ideal S128 .f32) (a16 a17 : FVec Ideal S128x128 .f32)
    (h : Cert.Pre_finite_inputs.fn (F := Ideal) a0 a1 a2 a3 a4 a5 a6 a7 a8 a9 a10 a11 a12 a13 a14 a15 a16 a17 = fun _ => 1#1) :
    IsR a0 ∧ IsR a1 ∧ IsR a2 ∧ IsR a12 ∧ IsR a13 ∧ IsR a14 ∧ IsR a15 := by
  have h0 := congrFun h ix0
  dsimp only [fn, fn_part1, fn_part2, fn_part3] at h0
  obtain ⟨h0, -⟩ := both_of_andi h0
  obtain ⟨h0, -⟩ := both_of_andi h0
  obtain ⟨h0, e15⟩ := both_of_andi h0
  obtain ⟨h0, e14⟩ := both_of_andi h0
  obtain ⟨h0, e13⟩ := both_of_andi h0
  obtain ⟨h0, e12⟩ := both_of_andi h0
  obtain ⟨h0, -⟩ := both_of_andi h0
  obtain ⟨h0, -⟩ := both_of_andi h0
  obtain ⟨h0, -⟩ := both_of_andi h0
  obtain ⟨h0, e2⟩ := both_of_andi h0
  obtain ⟨e0, e1⟩ := both_of_andi h0
  exact ⟨isR_of_all a0 _ _ _ e0, isR_of_all a1 _ _ _ e1, isR_of_all a2 _ _ _ e2, isR_of_all a12 _ _ _ e12,
    isR_of_all a13 _ _ _ e13, isR_of_all a14 _ _ _ e14, isR_of_all a15 _ _ _ e15⟩

end Cert.Finite

end
-- ==== Proof.KFinal.lean ====
/-
  The idealized kernel's two results, under the precondition, are the reference's two result stages at the kernel's
  own launch memory: the precondition makes every float argument's entries real, which is what the two segment-sum
  laws need; the third region's output is the rectified product of the first stage's array, the last region's that of
  the second stage's array, and the reference's results are the same rectified products of the same arrays.
-/
import proofs.«116521_j7662221656116_2_alg».proof.Defs
import proofs.«116521_j7662221656116_2_alg».proof.Proof.KSecond
import proofs.«116521_j7662221656116_2_alg».proof.Proof.FiniteArgs
import proofs.«116521_j7662221656116_2_alg».proof.Proof.Gen.Pre_finite_inputs

set_option maxRecDepth 16384

noncomputable section

namespace Cert.KernelIdeal.Results

open Idealize.ShloMosaic Idealize.ShloMosaic.TcCoe Idealize.SL.Sem
open Cert.KernelIdeal Cert.KernelIdeal.Gen Cert.LibIsReal

variable (m : (ℓ : Loc nD τ sig) → Buf (Elt Ideal) ℓ) (ρ : Dev nD → PrngReg)

/-- Under the precondition the float arguments the two laws touch have real entries. -/
theorem finite_args (hpre : Cert.Pre_KernelIdeal m) (c : Dev nD) :
    IsR (m ((c : Thread nD τ).loc main_arg0)) ∧ IsR (m ((c : Thread nD τ).loc main_arg1)) ∧ IsR (m ((c : Thread nD τ).loc main_arg2)) ∧ IsR (m ((c : Thread nD τ).loc main_arg12)) ∧ IsR (m ((c : Thread nD τ).loc main_arg13)) ∧ IsR (m ((c : Thread nD τ).loc main_arg14)) ∧ IsR (m ((c : Thread nD τ).loc main_arg15)) :=
  Cert.Finite.isR_args _ _ _ _ _ _ _ _ _ _ _ _ _ _ _ _ _ _ (hpre c)

theorem result0 (hpre : Cert.Pre_KernelIdeal m) (c : Dev nD) :
    W7 m ρ c (Proc.devRef .tc main_v75_0)
      = Cert.ReferenceIdeal.Read.val_main_v79 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg16)) := by
  obtain ⟨h0, h1, h2, h12, h13, h14, h15⟩ := finite_args m hpre c
  rw [W7_v75_0_eq, W4_v74_eq m ρ c h0 h1 h2 h12 h13]
  exact (Cert.RefBridge.v79 _ _ _ _ _ _ _ _ _ _ _).symm

theorem result1 (hpre : Cert.Pre_KernelIdeal m) (c : Dev nD) :
    W7 m ρ c (Proc.devRef .tc main_v143)
      = Cert.ReferenceIdeal.Read.val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  obtain ⟨h0, h1, h2, h12, h13, h14, h15⟩ := finite_args m hpre c
  rw [W7_v143_eq, W6_v142_eq m ρ c h0 h1 h2 h12 h13 h14 h15]
  exact (Cert.RefBridge.v170 _ _ _ _ _ _ _ _ _ _ _ _ _ _ _ _ _ _).symm

end Cert.KernelIdeal.Results

end
-- ==== Proof.lean ====
/-
  The certificate's claims assembled. The kernel computes the same hypergraph layer as the reference: products with
  transposed weights followed by bias, per-row scale and `max(·, 0)` epilogues in four row-tiled accelerator regions,
  gathers along the incidences and segment sums between them. The kernel factorises two of the segment sums — a term
  that depends only on the hyperedge is taken out of the sum over the incidences landing on that hyperedge — which is
  an equality of extended reals under the precondition, because every entry of the arguments is then a real number.
  So, on the extended reals, both programs end with the same two result arrays: the reference's two result stages read
  at the kernel's own launch memory, which is the reference's launch memory on the arguments. The frames are the three
  programs' runs with the results dropped; the idealization rewrote nothing.
-/
import proofs.«116521_j7662221656116_2_alg».proof.Defs
import proofs.«116521_j7662221656116_2_alg».proof.Proof.Gen.Kernel
import proofs.«116521_j7662221656116_2_alg».proof.Proof.Gen.Kernel.Skeleton
import proofs.«116521_j7662221656116_2_alg».proof.Proof.Gen.Kernel.Launch
import proofs.«116521_j7662221656116_2_alg».proof.Proof.Gen.Kernel.Points
import proofs.«116521_j7662221656116_2_alg».proof.Proof.Gen.Kernel.Frame
import proofs.«116521_j7662221656116_2_alg».proof.Proof.Gen.KernelIdeal
import proofs.«116521_j7662221656116_2_alg».proof.Proof.Gen.KernelIdeal.Skeleton
import proofs.«116521_j7662221656116_2_alg».proof.Proof.Gen.KernelIdeal.Launch
import proofs.«116521_j7662221656116_2_alg».proof.Proof.Gen.KernelIdeal.Points
import proofs.«116521_j7662221656116_2_alg».proof.Proof.Gen.KernelIdeal.Frame
import proofs.«116521_j7662221656116_2_alg».proof.Proof.Gen.ReferenceIdeal
import proofs.«116521_j7662221656116_2_alg».proof.Proof.Gen.ReferenceIdeal.Run
import proofs.«116521_j7662221656116_2_alg».proof.Proof.Gen.ReferenceIdeal.Read
import proofs.«116521_j7662221656116_2_alg».proof.Proof.Gen.Pre_finite_inputs
import proofs.«116521_j7662221656116_2_alg».proof.Proof.KRun
import proofs.«116521_j7662221656116_2_alg».proof.Proof.KFinal
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The kernel on the extended reals runs and leaves its arguments unchanged. -/
theorem frame_kernelIdeal : Cert.frame_KernelIdeal := fun m ρ _ => Cert.KernelIdeal.Gen.frame m ρ

/-- The reference on the extended reals runs and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel on the extended reals rewrote no operation. -/
theorem preserves : Cert.preserves_Kernel_KernelIdeal := trivial

/-- From launch memories that agree on the eighteen arguments, under the precondition, both programs end with the
    reference's two result stages of the kernel's arguments, and neither changes an argument. -/
theorem algebraic : Cert.algebraic_KernelIdeal_ReferenceIdeal := by
  intro m ρ m' ρ' hpre hagree
  refine ⟨fun c => Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg16)),
    fun c => Cert.ReferenceIdeal.Read.val_main_v170 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    ?_, ?_⟩
  · exact (θ_run Cert.KernelIdeal.defs _ _).mono
      (fun r h c => ⟨(h c).1.trans (Cert.KernelIdeal.Results.result0 m ρ hpre c),
        (h c).2.1.trans (Cert.KernelIdeal.Results.result1 m ρ hpre c), (h c).2.2⟩)
      (Cert.KernelIdeal.Results.run_main (F := Ideal) m ρ)
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15, a16, a17⟩ := hagree c
    refine ⟨(h c).1.trans ?_, (h c).2.1.trans ?_, (h c).2.2⟩
    · rw [Cert.ReferenceIdeal.Read.val_main_v79_eq, a0, a1, a2, a4, a5, a6, a7, a8, a12, a13, a16]
    · rw [Cert.ReferenceIdeal.Read.val_main_v170_eq, a0, a1, a2, a3, a4, a5, a6, a7, a8, a9, a10, a11, a12, a13, a14, a15, a16, a17]

/-- Every claim of the certificate, under the side conditions the programs and the precondition state. -/
theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
